-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v101) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part3 {F : FTy → Type} [FloatOps F] (main_arg12 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  main_v58

def fn_part2 {F : FTy → Type} [FloatOps F] (main_arg8 : FVec F S128x64 .f32) (main_arg9 : FVec F S128x64 .f32) (main_arg10 : FVec F S64 .f32) (main_arg11 : FVec F S128 .f32) (main_arg12 : FVec F S128 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_v48 main_v49 main_v50

def fn_part1 {F : FTy → Type} [FloatOps F] (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128 .f32) (main_arg12 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_v33

def fn {F : FTy → Type} [FloatOps F] (main_arg0 : FVec F S50000x128 .f32) (main_arg1 : IVec S2x600000 32) (main_arg2 : FVec F S128x128 .f32) (main_arg3 : FVec F S128x128 .f32) (main_arg4 : FVec F S128 .f32) (main_arg5 : FVec F S128x128 .f32) (main_arg6 : FVec F S128x128 .f32) (main_arg7 : FVec F S128 .f32) (main_arg8 : FVec F S128x64 .f32) (main_arg9 : FVec F S128x64 .f32) (main_arg10 : FVec F S64 .f32) (main_arg11 : FVec F S128 .f32) (main_arg12 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_v13 main_v16
-- ==== Kernel.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S50000 : Shape := ⟨1, ![50000]⟩
abbrev S600000x1 : Shape := ⟨2, ![600000, 1]⟩
abbrev S50000x1 : Shape := ⟨2, ![50000, 1]⟩
abbrev S600000x128 : Shape := ⟨2, ![600000, 128]⟩
abbrev S1x128 : Shape := ⟨2, ![1, 128]⟩
abbrev S2000x128 : Shape := ⟨2, ![2000, 128]⟩
abbrev S2000x1 : Shape := ⟨2, ![2000, 1]⟩
abbrev S50000x64 : Shape := ⟨2, ![50000, 64]⟩
abbrev S2000x64 : Shape := ⟨2, ![2000, 64]⟩
abbrev S600000x64 : Shape := ⟨2, ![600000, 64]⟩
abbrev S1x64 : Shape := ⟨2, ![1, 64]⟩
abbrev S2000 : Shape := ⟨1, ![2000]⟩

abbrev nBuf : Space → Nat
  | .hbm => 114
  | .vmem => 43
  | .smem => 0
  | _ => 0

abbrev bufTy : (tb : Table) → Fin (tcTables nBuf tb) → BufTy
  | .hbm, ⟨0, _⟩ => ⟨S50000x128, .f32⟩
  | .hbm, ⟨1, _⟩ => ⟨S2x600000, .i32⟩
  | .hbm, ⟨2, _⟩ => ⟨S128x128, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x64, .f32⟩
  | .hbm, ⟨9, _⟩ => ⟨S128x64, .f32⟩
  | .hbm, ⟨10, _⟩ => ⟨S64, .f32⟩
  | .hbm, ⟨11, _⟩ => ⟨S128, .f32⟩
  | .hbm, ⟨12, _⟩ => ⟨S128, .f32⟩
  | .hbm, ⟨13, _⟩ => ⟨S1x600000, .i32⟩
  | .hbm, ⟨14, _⟩ => ⟨S600000, .i32⟩
  | .hbm, ⟨15, _⟩ => ⟨S1x600000, .i32⟩
  | .hbm, ⟨16, _⟩ => ⟨S600000, .i32⟩
  | .hbm, ⟨17, _⟩ => ⟨S_, .f32⟩
  | .hbm, ⟨18, _⟩ => ⟨S600000, .f32⟩
  | .hbm, ⟨19, _⟩ => ⟨S_, .f32⟩
  | .hbm, ⟨20, _⟩ => ⟨S50000, .f32⟩
  | .hbm, ⟨21, _⟩ => ⟨S600000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S50000x1, .f32⟩
  | .hbm, ⟨30, _⟩ => ⟨S_, .i32⟩
  | .hbm, ⟨31, _⟩ => ⟨S600000, .i32⟩
  | .hbm, ⟨32, _⟩ => ⟨S600000, .i1⟩
  | .hbm, ⟨33, _⟩ => ⟨S_, .i32⟩
  | .hbm, ⟨34, _⟩ => ⟨S600000, .i32⟩
  | .hbm, ⟨35, _⟩ => ⟨S600000, .i32⟩
  | .hbm, ⟨36, _⟩ => ⟨S600000, .i32⟩
  | .hbm, ⟨37, _⟩ => ⟨S600000x1, .i32⟩
  | .hbm, ⟨38, _⟩ => ⟨S600000x128, .f32⟩
  | .hbm, ⟨39, _⟩ => ⟨S_, .f32⟩
  | .hbm, ⟨40, _⟩ => ⟨S50000x128, .f32⟩
  | .hbm, ⟨41, _⟩ => ⟨S600000x1, .i32⟩
  | .hbm, ⟨42, _⟩ => ⟨S50000x128, .f32⟩
  | .hbm, ⟨43, _⟩ => ⟨S1x128, .f32⟩
  | .hbm, ⟨44, _⟩ => ⟨S50000x128, .f32⟩
  | .hbm, ⟨45, _⟩ => ⟨S_, .i32⟩
  | .hbm, ⟨46, _⟩ => ⟨S600000, .i32⟩
  | .hbm, ⟨47, _⟩ => ⟨S600000, .i1⟩
  | .hbm, ⟨48, _⟩ => ⟨S_, .i32⟩
  | .hbm, ⟨49, _⟩ => ⟨S600000, .i32⟩
  | .hbm, ⟨50, _⟩ => ⟨S600000, .i32⟩
  | .hbm, ⟨51, _⟩ => ⟨S600000, .i32⟩
  | .hbm, ⟨52, _⟩ => ⟨S600000x1, .i32⟩
  | .hbm, ⟨53, _⟩ => ⟨S600000x128, .f32⟩
  | .hbm, ⟨54, _⟩ => ⟨S_, .f32⟩
  | .hbm, ⟨55, _⟩ => ⟨S50000x128, .f32⟩
  | .hbm, ⟨56, _⟩ => ⟨S600000x1, .i32⟩
  | .hbm, ⟨57, _⟩ => ⟨S50000x128, .f32⟩
  | .hbm, ⟨58, _⟩ => ⟨S1x128, .f32⟩
  | .hbm, ⟨59, _⟩ => ⟨S50000x128, .f32⟩
  | .hbm, ⟨60, _⟩ => ⟨S_, .f32⟩
  | .hbm, ⟨61, _⟩ => ⟨S128, .f32⟩
  | .hbm, ⟨62, _⟩ => ⟨S_, .f32⟩
  | .hbm, ⟨63, _⟩ => ⟨S128, .f32⟩
  | .hbm, ⟨64, _⟩ => ⟨S128, .f32⟩
  | .hbm, ⟨65, _⟩ => ⟨S_, .i32⟩
  | .hbm, ⟨66, _⟩ => ⟨S_, .f32⟩
  | .hbm, ⟨67, _⟩ => ⟨S128, .f32⟩
  | .hbm, ⟨68, _⟩ => ⟨S1x128, .f32⟩
  | .hbm, ⟨69, _⟩ => ⟨S_, .f32⟩
  | .hbm, ⟨70, _⟩ => ⟨S1x128, .f32⟩
  | .hbm, ⟨71, _⟩ => ⟨S1x128, .f32⟩
  | .hbm, ⟨72, _⟩ => ⟨S50000x128, .f32⟩
  | .hbm, ⟨73, _⟩ => ⟨S50000x128, .f32⟩
  | .hbm, ⟨74, _⟩ => ⟨S50000x128, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S128, .f32⟩
  | .hbm, ⟨80, _⟩ => ⟨S128, .f32⟩
  | .hbm, ⟨81, _⟩ => ⟨S128, .f32⟩
  | .hbm, ⟨82, _⟩ => ⟨S_, .f32⟩
  | .hbm, ⟨83, _⟩ => ⟨S_, .i1⟩
  | .hbm, ⟨84, _⟩ => ⟨S_, .f32⟩
  | .hbm, ⟨85, _⟩ => ⟨S_, .f32⟩
  | .hbm, ⟨86, _⟩ => ⟨S128, .f32⟩
  | .hbm, ⟨87, _⟩ => ⟨S128, .f32⟩
  | .hbm, ⟨88, _⟩ => ⟨S_, .f32⟩
  | .hbm, ⟨89, _⟩ => ⟨S128, .f32⟩
  | .hbm, ⟨90, _⟩ => ⟨S128, .f32⟩
  | .hbm, ⟨91, _⟩ => ⟨S128, .f32⟩
  | .hbm, ⟨92, _⟩ => ⟨S128, .f32⟩
  | .hbm, ⟨93, _⟩ => ⟨S128, .f32⟩
  | .hbm, ⟨94, _⟩ => ⟨S128, .f32⟩
  | .hbm, ⟨95, _⟩ => ⟨S1x128, .f32⟩
  | .hbm, ⟨96, _⟩ => ⟨S1x128, .f32⟩
  | .hbm, ⟨97, _⟩ => ⟨S50000x128, .f32⟩
  | .hbm, ⟨98, _⟩ => ⟨S50000x64, .f32⟩
  | .hbm, ⟨99, _⟩ => ⟨S_, .i32⟩
  | .hbm, ⟨100, _⟩ => ⟨S600000, .i32⟩
  | .hbm, ⟨101, _⟩ => ⟨S600000, .i1⟩
  | .hbm, ⟨102, _⟩ => ⟨S_, .i32⟩
  | .hbm, ⟨103, _⟩ => ⟨S600000, .i32⟩
  | .hbm, ⟨104, _⟩ => ⟨S600000, .i32⟩
  | .hbm, ⟨105, _⟩ => ⟨S600000, .i32⟩
  | .hbm, ⟨106, _⟩ => ⟨S600000x1, .i32⟩
  | .hbm, ⟨107, _⟩ => ⟨S600000x64, .f32⟩
  | .hbm, ⟨108, _⟩ => ⟨S_, .f32⟩
  | .hbm, ⟨109, _⟩ => ⟨S50000x64, .f32⟩
  | .hbm, ⟨110, _⟩ => ⟨S600000x1, .i32⟩
  | .hbm, ⟨111, _⟩ => ⟨S50000x64, .f32⟩
  | .hbm, ⟨112, _⟩ => ⟨S1x64, .f32⟩
  | .hbm, ⟨113, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S2000x1, .f32⟩
  | .local _ .vmem, ⟨5, _⟩ => ⟨S2000x1, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x1, .f32⟩
  | .local _ .vmem, ⟨16, _⟩ => ⟨S2000x1, .f32⟩
  | .local _ .vmem, ⟨17, _⟩ => ⟨S128x128, .f32⟩
  | .local _ .vmem, ⟨18, _⟩ => ⟨S128x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S1x128, .f32⟩
  | .local _ .vmem, ⟨27, _⟩ => ⟨S1x128, .f32⟩
  | .local _ .vmem, ⟨28, _⟩ => ⟨S128x64, .f32⟩
  | .local _ .vmem, ⟨29, _⟩ => ⟨S2000x128, .f32⟩
  | .local _ .vmem, ⟨30, _⟩ => ⟨S2000x128, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S2000x64, .f32⟩
  | .local _ .vmem, ⟨35, _⟩ => ⟨S2000x128, .f32⟩
  | .local _ .vmem, ⟨36, _⟩ => ⟨S2000x128, .f32⟩
  | .local _ .vmem, ⟨37, _⟩ => ⟨S2000x1, .f32⟩
  | .local _ .vmem, ⟨38, _⟩ => ⟨S2000x1, .f32⟩
  | .local _ .vmem, ⟨39, _⟩ => ⟨S128x64, .f32⟩
  | .local _ .vmem, ⟨40, _⟩ => ⟨S1x64, .f32⟩
  | .local _ .vmem, ⟨41, _⟩ => ⟨S2000x64, .f32⟩
  | .local _ .vmem, ⟨42, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_cst : Ref sig .tc := ⟨.hbm, 17, rfl⟩
abbrev main_v4 : Ref sig .tc := ⟨.hbm, 18, rfl⟩
abbrev main_cst_0 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_1 : Ref sig .tc := ⟨.hbm, 23, rfl⟩
abbrev main_v8 : Ref sig .tc := ⟨.hbm, 24, rfl⟩
abbrev main_v9 : Ref sig .tc := ⟨.hbm, 25, rfl⟩
abbrev main_cst_2 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_c : Ref sig .tc := ⟨.hbm, 30, rfl⟩
abbrev main_v13 : Ref sig .tc := ⟨.hbm, 31, rfl⟩
abbrev main_v14 : Ref sig .tc := ⟨.hbm, 32, rfl⟩
abbrev main_c_3 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_8 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_c_10 : Ref sig .tc := ⟨.hbm, 65, rfl⟩
abbrev main_call0_cst : Ref sig .tc := ⟨.hbm, 66, rfl⟩
abbrev main_call0_v0 : Ref sig .tc := ⟨.hbm, 67, rfl⟩
abbrev main_call0_v1 : Ref sig .tc := ⟨.hbm, 68, rfl⟩
abbrev main_call0_cst_0 : Ref sig .tc := ⟨.hbm, 69, rfl⟩
abbrev main_call0_v2 : Ref sig .tc := ⟨.hbm, 70, rfl⟩
abbrev main_call0_v3 : Ref sig .tc := ⟨.hbm, 71, rfl⟩
abbrev main_call0_v4 : Ref sig .tc := ⟨.hbm, 72, rfl⟩
abbrev main_call0_v5 : Ref sig .tc := ⟨.hbm, 73, rfl⟩
abbrev main_call0_v6 : Ref sig .tc := ⟨.hbm, 74, rfl⟩
abbrev main_call0_v7 : Ref sig .tc := ⟨.hbm, 75, rfl⟩
abbrev main_call0_cst_1 : Ref sig .tc := ⟨.hbm, 76, rfl⟩
abbrev main_call0_v8 : Ref sig .tc := ⟨.hbm, 77, rfl⟩
abbrev main_call0_cst_2 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_call0_cst_3 : Ref sig .tc := ⟨.hbm, 82, rfl⟩
abbrev main_call0_v12 : Ref sig .tc := ⟨.hbm, 83, rfl⟩
abbrev main_call0_cst_4 : Ref sig .tc := ⟨.hbm, 84, rfl⟩
abbrev main_call0_call0_v0 : Ref sig .tc := ⟨.hbm, 85, rfl⟩
abbrev main_call0_call0_v1 : Ref sig .tc := ⟨.hbm, 86, rfl⟩
abbrev main_v40 : Ref sig .tc := ⟨.hbm, 87, rfl⟩
abbrev main_cst_11 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48 : Ref sig .tc := ⟨.hbm, 96, rfl⟩
abbrev main_v49_0 : Ref sig .tc := ⟨.hbm, 97, rfl⟩
abbrev main_v49_1 : Ref sig .tc := ⟨.hbm, 98, rfl⟩
abbrev main_c_12 : Ref sig .tc := ⟨.hbm, 99, rfl⟩
abbrev main_v50 : Ref sig .tc := ⟨.hbm, 100, rfl⟩
abbrev main_v51 : Ref sig .tc := ⟨.hbm, 101, rfl⟩
abbrev main_c_13 : Ref sig .tc := ⟨.hbm, 102, rfl⟩
abbrev main_v52 : Ref sig .tc := ⟨.hbm, 103, rfl⟩
abbrev main_v53 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_cst_14 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc2_stg6_0 : Ref sig .tc := ⟨.vmem, 31, rfl⟩
abbrev cc2_stg6_1 : Ref sig .tc := ⟨.vmem, 32, rfl⟩
abbrev cc3_stg0_0 : Ref sig .tc := ⟨.vmem, 33, rfl⟩
abbrev cc3_stg0_1 : Ref sig .tc := ⟨.vmem, 34, rfl⟩
abbrev cc3_stg1_0 : Ref sig .tc := ⟨.vmem, 35, rfl⟩
abbrev cc3_stg1_1 : Ref sig .tc := ⟨.vmem, 36, rfl⟩
abbrev cc3_stg2_0 : Ref sig .tc := ⟨.vmem, 37, rfl⟩
abbrev cc3_stg2_1 : Ref sig .tc := ⟨.vmem, 38, rfl⟩
abbrev cc3_stg3_0 : Ref sig .tc := ⟨.vmem, 39, rfl⟩
abbrev cc3_stg4_0 : Ref sig .tc := ⟨.vmem, 40, rfl⟩
abbrev cc3_stg5_0 : Ref sig .tc := ⟨.vmem, 41, rfl⟩
abbrev cc3_stg5_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30
abbrev cc2_sem6_0 : DmaSem sig := 31
abbrev cc2_sem6_1 : DmaSem sig := 32
abbrev cc3_sem0_0 : DmaSem sig := 33
abbrev cc3_sem0_1 : DmaSem sig := 34
abbrev cc3_sem1_0 : DmaSem sig := 35
abbrev cc3_sem1_1 : DmaSem sig := 36
abbrev cc3_sem2_0 : DmaSem sig := 37
abbrev cc3_sem2_1 : DmaSem sig := 38
abbrev cc3_sem3_0 : DmaSem sig := 39
abbrev cc3_sem4_0 : DmaSem sig := 40
abbrev cc3_sem5_0 : DmaSem sig := 41
abbrev cc3_sem5_1 : DmaSem sig := 42

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2000x64 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x128 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S128x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S_S50000 : S_.BroadcastsInDim S50000 (![] : Fin 0 → Fin S50000.rank)
  bcast_S600000_S600000x1_0 : S600000.BroadcastsInDim S600000x1 (![0] : Fin 1 → Fin S600000x1.rank)
  bcast_S50000_S50000x1_0 : S50000.BroadcastsInDim S50000x1 (![0] : Fin 1 → Fin S50000x1.rank)
  bcast_S_S50000x128 : S_.BroadcastsInDim S50000x128 (![] : Fin 0 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reducesTo_S50000x128_S128_d0 : S50000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  broadcasts_S2000x1_S2000x64 : S2000x1.Broadcasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  scatter_S50000_S600000x1_S600000_n_0_0_1_wf : ScatterDims.WF S50000 S600000x1 S600000 [] [0] [0] 1
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  gather_S50000x64_S600000x1_S600000x64_1_0_n_n_0_1_164_wf : GatherDims.WF S50000x64 S600000x1 S600000x64 [1] [0] [] [0] [] 1 ![1, 64]
  scatter_S50000x64_S600000x1_S600000x64_1_0_0_1_wf : ScatterDims.WF S50000x64 S600000x1 S600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x128.size a ≤ S50000x128.size a
  hwx0_6 : ∀ i : grid0.Coords, EltTy.bits .f32 = 32 ∨ (Rect.block (s := S50000x128) S2000x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x128.size a ≤ S50000x128.size a
  hwx1_6 : ∀ i : grid1.Coords, EltTy.bits .f32 = 32 ∨ (Rect.block (s := S50000x128) S2000x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x64.size a ≤ S128x64.size a
  hwx2_4 : ∀ i : grid2.Coords, EltTy.bits .f32 = 32 ∨ (Rect.block (s := S128x64) S128x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x128.size a ≤ S50000x128.size a
  hwx2_5 : ∀ i : grid2.Coords, EltTy.bits .f32 = 32 ∨ (Rect.block (s := S50000x128) S2000x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2000x64.size a ≤ S50000x64.size a
  hwx2_6 : ∀ i : grid2.Coords, EltTy.bits .f32 = 32 ∨ (Rect.block (s := S50000x64) S2000x64.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x128.size a ≤ S50000x128.size a
  hwx3_1 : ∀ i : grid3.Coords, EltTy.bits .f32 = 32 ∨ (Rect.block (s := S50000x128) S2000x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x64.size a ≤ S128x64.size a
  hwx3_3 : ∀ i : grid3.Coords, EltTy.bits .f32 = 32 ∨ (Rect.block (s := S128x64) S128x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x64.size a ≤ S50000x64.size a
  hwx3_5 : ∀ i : grid3.Coords, EltTy.bits .f32 = 32 ∨ (Rect.block (s := S50000x64) S2000x64.size (cc3_transform_5 i) (hinb3_5 i)).WholeWords (EltTy.packing .f32)

variable [Facts₀]

def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S600000x1_S600000x64_1_0_n_n_0_1_164 : GatherDims S50000x64 S600000x1 S600000x64 where
  offsetDims := [1]
  collapsedSliceDims := [0]
  operandBatchingDims := []
  startIndicesBatchingDims := []
  startIndexMap := [0]
  indexVectorDim := 1
  sliceSizes := ![1, 64]
  wf := gather_S50000x64_S600000x1_S600000x64_1_0_n_n_0_1_164_wf
def scatter_S50000x64_S600000x1_S600000x64_1_0_0_1 : ScatterDims S50000x64 S600000x1 S600000x64 where
  updateWindowDims := [1]
  insertedWindowDims := [0]
  scatterDimsToOperandDims := [0]
  indexVectorDim := 1
  wf := scatter_S50000x64_S600000x1_S600000x64_1_0_0_1_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v12) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S2000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v34) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v12) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg5) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S2000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v36) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg8) S128x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v49_0) S2000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v49_1) S2000x64.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev win3_0 : Pipeline.Window sig grid3 :=
  Pipeline.Window.ofSpec (Memref.whole main_v59) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49_0) S2000x128.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v12) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_arg9) S128x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v60) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v61) S2000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x600000 : Shape := ⟨2, ![2, 600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S50000 : Shape := ⟨1, ![50000]⟩
abbrev S50000x1 : Shape := ⟨2, ![50000, 1]⟩
abbrev S1x128 : Shape := ⟨2, ![1, 128]⟩
abbrev S50000x64 : Shape := ⟨2, ![50000, 64]⟩
abbrev S1x64 : Shape := ⟨2, ![1, 64]⟩

abbrev nBuf : Space → Nat
  | .hbm => 176
  | .vmem => 0
  | .smem => 0
  | _ => 0

abbrev hbmTy0_0 (i : Nat) : BufTy := match i % 128 with
  | 0 => ⟨S50000x128, .f32⟩
  | 1 => ⟨S2x600000, .i32⟩
  | 2 => ⟨S128x128, .f32⟩
  | 3 => ⟨S128x128, .f32⟩
  | 4 => ⟨S128, .f32⟩
  | 5 => ⟨S128x128, .f32⟩
  | 6 => ⟨S128x128, .f32⟩
  | 7 => ⟨S128, .f32⟩
  | 8 => ⟨S128x64, .f32⟩
  | 9 => ⟨S128x64, .f32⟩
  | 10 => ⟨S64, .f32⟩
  | 11 => ⟨S128, .f32⟩
  | 12 => ⟨S128, .f32⟩
  | 13 => ⟨S1x600000, .i32⟩
  | 14 => ⟨S600000, .i32⟩
  | 15 => ⟨S1x600000, .i32⟩
  | 16 => ⟨S600000, .i32⟩
  | 17 => ⟨S_, .i32⟩
  | 18 => ⟨S600000, .i32⟩
  | 19 => ⟨S600000, .i1⟩
  | 20 => ⟨S_, .i32⟩
  | 21 => ⟨S600000, .i32⟩
  | 22 => ⟨S600000, .i32⟩
  | 23 => ⟨S600000, .i32⟩
  | 24 => ⟨S600000x1, .i32⟩
  | 25 => ⟨S600000x128, .f32⟩
  | 26 => ⟨S_, .f32⟩
  | 27 => ⟨S50000x128, .f32⟩
  | 28 => ⟨S600000x1, .i32⟩
  | 29 => ⟨S50000x128, .f32⟩
  | 30 => ⟨S_, .f32⟩
  | 31 => ⟨S600000, .f32⟩
  | 32 => ⟨S_, .f32⟩
  | 33 => ⟨S50000, .f32⟩
  | 34 => ⟨S600000x1, .i32⟩
  | 35 => ⟨S50000, .f32⟩
  | 36 => ⟨S_, .f32⟩
  | 37 => ⟨S50000, .f32⟩
  | 38 => ⟨S50000, .f32⟩
  | 39 => ⟨S50000x1, .f32⟩
  | 40 => ⟨S50000x128, .f32⟩
  | 41 => ⟨S50000x128, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S_, .i32⟩
  | 52 => ⟨S600000, .i32⟩
  | 53 => ⟨S600000, .i1⟩
  | 54 => ⟨S_, .i32⟩
  | 55 => ⟨S600000, .i32⟩
  | 56 => ⟨S600000, .i32⟩
  | 57 => ⟨S600000, .i32⟩
  | 58 => ⟨S600000x1, .i32⟩
  | 59 => ⟨S600000x128, .f32⟩
  | 60 => ⟨S_, .f32⟩
  | 61 => ⟨S50000x128, .f32⟩
  | 62 => ⟨S600000x1, .i32⟩
  | 63 => ⟨S50000x128, .f32⟩
  | 64 => ⟨S_, .f32⟩
  | 65 => ⟨S600000, .f32⟩
  | 66 => ⟨S_, .f32⟩
  | 67 => ⟨S50000, .f32⟩
  | 68 => ⟨S600000x1, .i32⟩
  | 69 => ⟨S50000, .f32⟩
  | 70 => ⟨S_, .f32⟩
  | 71 => ⟨S50000, .f32⟩
  | 72 => ⟨S50000, .f32⟩
  | 73 => ⟨S50000x1, .f32⟩
  | 74 => ⟨S50000x128, .f32⟩
  | 75 => ⟨S50000x128, .f32⟩
  | 76 => ⟨S50000x128, .f32⟩
  | 77 => ⟨S50000x128, .f32⟩
  | 78 => ⟨S50000x128, .f32⟩
  | 79 => ⟨S1x128, .f32⟩
  | 80 => ⟨S50000x128, .f32⟩
  | 81 => ⟨S50000x128, .f32⟩
  | 82 => ⟨S_, .f32⟩
  | 83 => ⟨S128, .f32⟩
  | 84 => ⟨S_, .f32⟩
  | 85 => ⟨S128, .f32⟩
  | 86 => ⟨S128, .f32⟩
  | 87 => ⟨S_, .i32⟩
  | 88 => ⟨S_, .f32⟩
  | 89 => ⟨S128, .f32⟩
  | 90 => ⟨S1x128, .f32⟩
  | 91 => ⟨S_, .f32⟩
  | 92 => ⟨S1x128, .f32⟩
  | 93 => ⟨S1x128, .f32⟩
  | 94 => ⟨S50000x128, .f32⟩
  | 95 => ⟨S50000x128, .f32⟩
  | 96 => ⟨S50000x128, .f32⟩
  | 97 => ⟨S_, .f32⟩
  | 98 => ⟨S_, .f32⟩
  | 99 => ⟨S_, .f32⟩
  | 100 => ⟨S_, .f32⟩
  | 101 => ⟨S128, .f32⟩
  | 102 => ⟨S128, .f32⟩
  | 103 => ⟨S128, .f32⟩
  | 104 => ⟨S_, .f32⟩
  | 105 => ⟨S_, .i1⟩
  | 106 => ⟨S_, .f32⟩
  | 107 => ⟨S_, .f32⟩
  | 108 => ⟨S128, .f32⟩
  | 109 => ⟨S128, .f32⟩
  | 110 => ⟨S1x128, .f32⟩
  | 111 => ⟨S50000x128, .f32⟩
  | 112 => ⟨S50000x128, .f32⟩
  | 113 => ⟨S_, .f32⟩
  | 114 => ⟨S128, .f32⟩
  | 115 => ⟨S128, .f32⟩
  | 116 => ⟨S128, .f32⟩
  | 117 => ⟨S1x128, .f32⟩
  | 118 => ⟨S50000x128, .f32⟩
  | 119 => ⟨S50000x128, .f32⟩
  | 120 => ⟨S1x128, .f32⟩
  | 121 => ⟨S50000x128, .f32⟩
  | 122 => ⟨S50000x128, .f32⟩
  | 123 => ⟨S1x128, .f32⟩
  | 124 => ⟨S50000x128, .f32⟩
  | 125 => ⟨S50000x128, .f32⟩
  | 126 => ⟨S_, .f32⟩
  | 127 => ⟨S50000x128, .f32⟩
  | _ => ⟨S50000x128, .f32⟩

abbrev hbmTy0_1 (i : Nat) : BufTy := match i % 128 with
  | 0 => ⟨S50000x128, .f32⟩
  | 1 => ⟨S50000x128, .f32⟩
  | 2 => ⟨S_, .i32⟩
  | 3 => ⟨S600000, .i32⟩
  | 4 => ⟨S600000, .i1⟩
  | 5 => ⟨S_, .i32⟩
  | 6 => ⟨S600000, .i32⟩
  | 7 => ⟨S600000, .i32⟩
  | 8 => ⟨S600000, .i32⟩
  | 9 => ⟨S600000x1, .i32⟩
  | 10 => ⟨S600000x128, .f32⟩
  | 11 => ⟨S_, .f32⟩
  | 12 => ⟨S50000x128, .f32⟩
  | 13 => ⟨S600000x1, .i32⟩
  | 14 => ⟨S50000x128, .f32⟩
  | 15 => ⟨S_, .f32⟩
  | 16 => ⟨S600000, .f32⟩
  | 17 => ⟨S_, .f32⟩
  | 18 => ⟨S50000, .f32⟩
  | 19 => ⟨S600000x1, .i32⟩
  | 20 => ⟨S50000, .f32⟩
  | 21 => ⟨S_, .f32⟩
  | 22 => ⟨S50000, .f32⟩
  | 23 => ⟨S50000, .f32⟩
  | 24 => ⟨S50000x1, .f32⟩
  | 25 => ⟨S50000x128, .f32⟩
  | 26 => ⟨S50000x128, .f32⟩
  | 27 => ⟨S50000x64, .f32⟩
  | 28 => ⟨S50000x64, .f32⟩
  | 29 => ⟨S50000x64, .f32⟩
  | 30 => ⟨S1x64, .f32⟩
  | 31 => ⟨S50000x64, .f32⟩
  | 32 => ⟨S50000x64, .f32⟩
  | 33 => ⟨S_, .f32⟩
  | 34 => ⟨S50000, .f32⟩
  | 35 => ⟨S_, .f32⟩
  | 36 => ⟨S50000, .f32⟩
  | 37 => ⟨S50000, .f32⟩
  | 38 => ⟨S50000x1, .f32⟩
  | 39 => ⟨S50000x64, .f32⟩
  | 40 => ⟨S50000x64, .f32⟩
  | 41 => ⟨S50000x64, .f32⟩
  | 42 => ⟨S_, .f32⟩
  | 43 => ⟨S50000, .f32⟩
  | 44 => ⟨S50000x1, .f32⟩
  | 45 => ⟨S50000x1, .f32⟩
  | 46 => ⟨S50000x64, .f32⟩
  | 47 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_c : Ref sig .tc := ⟨.hbm, 17, rfl⟩
abbrev main_v4 : Ref sig .tc := ⟨.hbm, 18, rfl⟩
abbrev main_v5 : Ref sig .tc := ⟨.hbm, 19, rfl⟩
abbrev main_c_0 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_cst_1 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_call0_cst : Ref sig .tc := ⟨.hbm, 48, rfl⟩
abbrev main_call0_v0 : Ref sig .tc := ⟨.hbm, 49, rfl⟩
abbrev main_v29 : Ref sig .tc := ⟨.hbm, 50, rfl⟩
abbrev main_c_4 : Ref sig .tc := ⟨.hbm, 51, rfl⟩
abbrev main_v30 : Ref sig .tc := ⟨.hbm, 52, rfl⟩
abbrev main_v31 : Ref sig .tc := ⟨.hbm, 53, rfl⟩
abbrev main_c_5 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_6 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_cst_8 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_9 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_10 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_c_12 : Ref sig .tc := ⟨.hbm, 87, rfl⟩
abbrev main_call1_cst : Ref sig .tc := ⟨.hbm, 88, rfl⟩
abbrev main_call1_v0 : Ref sig .tc := ⟨.hbm, 89, rfl⟩
abbrev main_call1_v1 : Ref sig .tc := ⟨.hbm, 90, rfl⟩
abbrev main_call1_cst_0 : Ref sig .tc := ⟨.hbm, 91, rfl⟩
abbrev main_call1_v2 : Ref sig .tc := ⟨.hbm, 92, rfl⟩
abbrev main_call1_v3 : Ref sig .tc := ⟨.hbm, 93, rfl⟩
abbrev main_call1_v4 : Ref sig .tc := ⟨.hbm, 94, rfl⟩
abbrev main_call1_v5 : Ref sig .tc := ⟨.hbm, 95, rfl⟩
abbrev main_call1_v6 : Ref sig .tc := ⟨.hbm, 96, rfl⟩
abbrev main_call1_v7 : Ref sig .tc := ⟨.hbm, 97, rfl⟩
abbrev main_call1_cst_1 : Ref sig .tc := ⟨.hbm, 98, rfl⟩
abbrev main_call1_v8 : Ref sig .tc := ⟨.hbm, 99, rfl⟩
abbrev main_call1_cst_2 : Ref sig .tc := ⟨.hbm, 100, rfl⟩
abbrev main_call1_v9 : Ref sig .tc := ⟨.hbm, 101, rfl⟩
abbrev main_call1_v10 : Ref sig .tc := ⟨.hbm, 102, rfl⟩
abbrev main_call1_v11 : Ref sig .tc := ⟨.hbm, 103, rfl⟩
abbrev main_call1_cst_3 : Ref sig .tc := ⟨.hbm, 104, rfl⟩
abbrev main_call1_v12 : Ref sig .tc := ⟨.hbm, 105, rfl⟩
abbrev main_call1_cst_4 : Ref sig .tc := ⟨.hbm, 106, rfl⟩
abbrev main_call1_call0_v0 : Ref sig .tc := ⟨.hbm, 107, rfl⟩
abbrev main_call1_call0_v1 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_cst_13 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_v67 : Ref sig .tc := ⟨.hbm, 119, rfl⟩
abbrev main_v68 : Ref sig .tc := ⟨.hbm, 120, rfl⟩
abbrev main_v69 : Ref sig .tc := ⟨.hbm, 121, rfl⟩
abbrev main_v70 : Ref sig .tc := ⟨.hbm, 122, rfl⟩
abbrev main_v71 : Ref sig .tc := ⟨.hbm, 123, rfl⟩
abbrev main_v72 : Ref sig .tc := ⟨.hbm, 124, rfl⟩
abbrev main_v73 : Ref sig .tc := ⟨.hbm, 125, rfl⟩
abbrev main_call2_cst : Ref sig .tc := ⟨.hbm, 126, rfl⟩
abbrev main_call2_v0 : Ref sig .tc := ⟨.hbm, 127, rfl⟩
abbrev main_v74 : Ref sig .tc := ⟨.hbm, 128, rfl⟩
abbrev main_v75 : Ref sig .tc := ⟨.hbm, 129, rfl⟩
abbrev main_c_14 : Ref sig .tc := ⟨.hbm, 130, rfl⟩
abbrev main_v76 : Ref sig .tc := ⟨.hbm, 131, rfl⟩
abbrev main_v77 : Ref sig .tc := ⟨.hbm, 132, rfl⟩
abbrev main_c_15 : Ref sig .tc := ⟨.hbm, 133, rfl⟩
abbrev main_v78 : Ref sig .tc := ⟨.hbm, 134, rfl⟩
abbrev main_v79 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_cst_16 : Ref sig .tc := ⟨.hbm, 139, rfl⟩
abbrev main_v83 : Ref sig .tc := ⟨.hbm, 140, rfl⟩
abbrev main_v84 : Ref sig .tc := ⟨.hbm, 141, rfl⟩
abbrev main_v85 : Ref sig .tc := ⟨.hbm, 142, rfl⟩
abbrev main_cst_17 : Ref sig .tc := ⟨.hbm, 143, rfl⟩
abbrev main_v86 : Ref sig .tc := ⟨.hbm, 144, rfl⟩
abbrev main_cst_18 : Ref sig .tc := ⟨.hbm, 145, rfl⟩
abbrev main_v87 : Ref sig .tc := ⟨.hbm, 146, rfl⟩
abbrev main_v88 : Ref sig .tc := ⟨.hbm, 147, rfl⟩
abbrev main_v89 : Ref sig .tc := ⟨.hbm, 148, rfl⟩
abbrev main_cst_19 : Ref sig .tc := ⟨.hbm, 149, rfl⟩
abbrev main_v90 : Ref sig .tc := ⟨.hbm, 150, rfl⟩
abbrev main_v91 : Ref sig .tc := ⟨.hbm, 151, rfl⟩
abbrev main_v92 : Ref sig .tc := ⟨.hbm, 152, rfl⟩
abbrev main_v93 : Ref sig .tc := ⟨.hbm, 153, rfl⟩
abbrev main_v94 : Ref sig .tc := ⟨.hbm, 154, rfl⟩
abbrev main_v95 : Ref sig .tc := ⟨.hbm, 155, rfl⟩
abbrev main_v96 : Ref sig .tc := ⟨.hbm, 156, rfl⟩
abbrev main_v97 : Ref sig .tc := ⟨.hbm, 157, rfl⟩
abbrev main_v98 : Ref sig .tc := ⟨.hbm, 158, rfl⟩
abbrev main_v99 : Ref sig .tc := ⟨.hbm, 159, rfl⟩
abbrev main_v100 : Ref sig .tc := ⟨.hbm, 160, rfl⟩
abbrev main_call3_cst : Ref sig .tc := ⟨.hbm, 161, rfl⟩
abbrev main_call3_v0 : Ref sig .tc := ⟨.hbm, 162, rfl⟩
abbrev main_call3_cst_0 : Ref sig .tc := ⟨.hbm, 163, rfl⟩
abbrev main_call3_v1 : Ref sig .tc := ⟨.hbm, 164, rfl⟩
abbrev main_call3_v2 : Ref sig .tc := ⟨.hbm, 165, rfl⟩
abbrev main_call3_v3 : Ref sig .tc := ⟨.hbm, 166, rfl⟩
abbrev main_call3_v4 : Ref sig .tc := ⟨.hbm, 167, rfl⟩
abbrev main_call3_v5 : Ref sig .tc := ⟨.hbm, 168, rfl⟩
abbrev main_call3_v6 : Ref sig .tc := ⟨.hbm, 169, rfl⟩
abbrev main_call3_cst_1 : Ref sig .tc := ⟨.hbm, 170, rfl⟩
abbrev main_call3_v7 : Ref sig .tc := ⟨.hbm, 171, rfl⟩
abbrev main_call3_v8 : Ref sig .tc := ⟨.hbm, 172, rfl⟩
abbrev main_call3_v9 : Ref sig .tc := ⟨.hbm, 173, rfl⟩
abbrev main_call3_v10 : Ref sig .tc := ⟨.hbm, 174, rfl⟩
abbrev main_v101 : Ref sig .tc := ⟨.hbm, 175, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  slices_S2x600000_S1x600000_1_0 : S2x600000.Slices ![1, 0] S1x600000
  bcast_S_S600000 : S_.BroadcastsInDim S600000 (![] : Fin 0 → Fin S600000.rank)
  bcast_S600000_S600000x1_0 : S600000.BroadcastsInDim S600000x1 (![0] : Fin 1 → Fin S600000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S128_d0 : S50000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  reducesTo_S50000x64_S50000_d1 : S50000x64.ReducesTo [1] S50000
  bcast_S50000x1_S50000x64_0_1 : S50000x1.BroadcastsInDim S50000x64 (![0, 1] : Fin 2 → Fin S50000x64.rank)
  gather_S50000x128_S600000x1_S600000x128_1_0_n_n_0_1_1128_wf : GatherDims.WF S50000x128 S600000x1 S600000x128 [1] [0] [] [0] [] 1 ![1, 128]
  scatter_S50000x128_S600000x1_S600000x128_1_0_0_1_wf : ScatterDims.WF S50000x128 S600000x1 S600000x128 [1] [0] [0] 1
  scatter_S50000_S600000x1_S600000_n_0_0_1_wf : ScatterDims.WF S50000 S600000x1 S600000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S600000x1_S600000x128_1_0_n_n_0_1_1128 : GatherDims S50000x128 S600000x1 S600000x128 where
  offsetDims := [1]
  collapsedSliceDims := [0]
  operandBatchingDims := []
  startIndicesBatchingDims := []
  startIndexMap := [0]
  indexVectorDim := 1
  sliceSizes := ![1, 128]
  wf := gather_S50000x128_S600000x1_S600000x128_1_0_n_n_0_1_1128_wf
def scatter_S50000x128_S600000x1_S600000x128_1_0_0_1 : ScatterDims S50000x128 S600000x1 S600000x128 where
  updateWindowDims := [1]
  insertedWindowDims := [0]
  scatterDimsToOperandDims := [0]
  indexVectorDim := 1
  wf := scatter_S50000x128_S600000x1_S600000x128_1_0_0_1_wf
def scatter_S50000_S600000x1_S600000_n_0_0_1 : ScatterDims S50000 S600000x1 S600000 where
  updateWindowDims := []
  insertedWindowDims := [0]
  scatterDimsToOperandDims := [0]
  indexVectorDim := 1
  wf := scatter_S50000_S600000x1_S600000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
import proofs.«143043_j20512763806339_2_alg».proof.Proof.Gen.KernelIdeal.Frame
import Idealize.ShloMosaic.Lib.StableHlo.Run

/-! # The kernel program's run, with every unscoped buffer's final contents named

The library's several-region run theorem, applied to the program's segments with the post "on every core, every
unscoped buffer holds the last boundary's contents"; the result buffer and the thirteen arguments are then read off. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The launch element: the pipelines' staging cells and launch tokens. -/
abbrev u₀ : UR sig nD τ := initOf (Pipeline.cells cfgs cellOf_inj) (Pipeline.launchToks cfgs cellOf_inj)

set_option backward.isDefEq.respectTransparency.types false in
/-- Every weakly fair execution of the program on the TensorCores terminates, and in every final state each core's
    unscoped buffers hold the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W10 m ρ c b) :=
  Pipeline.θ_run_regions_kit (pcfgs (F := F)) adm (pdats m ρ) () cellOf_inj emb₁ defs₀ 𝒱₀ L lv m ρ main (segs m ρ)
    (hmain := fun c Q => by rw [main_run m ρ c])
    (hnd := by simp only [segs, Pipeline.Seg.pipes_host, Pipeline.Seg.pipes_region, Pipeline.Seg.pipes_nil]; decide)
    (O₀ := 0) (hL := fun _ _ => rfl) (G := fun _ => iprop(emp)) (u₀ := u₀)
    (hu₀ := by
      have h1 : (ownU u₀ : sProp 𝕄) ⊢ BI.own (emb₁ u₀) := .rfl
      have h2 : (BI.emp : sProp 𝕄) ⊢ bigSep Finset.univ (fun _ : Dev nD => (BI.emp : sProp 𝕄)) := by
        rw [BI.bigSep_emp_const]
      iintro Hu; imodintro
      isplitl [Hu]
      · iapply h1; iexact Hu
      · iapply h2; iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl,
      fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun _ h => h)

/-- The run with its result named: the result buffer holds the last boundary's contents, every argument what was launched. -/
theorem run_named : θ_run defs (onTc (τ := τ) (main (F := F))) ⟨m, fun _ => 0, ρ⟩ (fun r => ∀ c : Dev nD,
      r.2.mem ((c.tc : Thread nD τ).loc main_v61) = W10 m ρ c (Proc.devRef .tc main_v61)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run _ _ _).mono (fun r h c =>
    ⟨h c _ (mem_uc main_v61 (by decide)),
     (h c _ (mem_uc main_arg0 (by decide))).trans (W10_main_arg0 m ρ c),
     (h c _ (mem_uc main_arg1 (by decide))).trans (W10_main_arg1 m ρ c),
     (h c _ (mem_uc main_arg2 (by decide))).trans (W10_main_arg2 m ρ c),
     (h c _ (mem_uc main_arg3 (by decide))).trans (W10_main_arg3 m ρ c),
     (h c _ (mem_uc main_arg4 (by decide))).trans (W10_main_arg4 m ρ c),
     (h c _ (mem_uc main_arg5 (by decide))).trans (W10_main_arg5 m ρ c),
     (h c _ (mem_uc main_arg6 (by decide))).trans (W10_main_arg6 m ρ c),
     (h c _ (mem_uc main_arg7 (by decide))).trans (W10_main_arg7 m ρ c),
     (h c _ (mem_uc main_arg8 (by decide))).trans (W10_main_arg8 m ρ c),
     (h c _ (mem_uc main_arg9 (by decide))).trans (W10_main_arg9 m ρ c),
     (h c _ (mem_uc main_arg10 (by decide))).trans (W10_main_arg10 m ρ c),
     (h c _ (mem_uc main_arg11 (by decide))).trans (W10_main_arg11 m ρ c),
     (h c _ (mem_uc main_arg12 (by decide))).trans (W10_main_arg12 m ρ c)⟩) (run_all m ρ)

end Cert.KernelIdeal.KRun

end
-- ==== Proof.KernelTerms.lean ====
/-
  The kernel program's host-side values between its four tiled stages, each named as one term of whole arrays:
  the two edge-index columns, the reciprocal of the clamped in-degree, the neighbour sums at both widths, the bias rows,
  and the column statistics (mean, mean square deviation) with the affine coefficients built from them.
-/
import proofs.«143043_j20512763806339_2_alg».proof.Proof.Gen.KernelIdeal
import Idealize.ShloMosaic.PureOps.Ideal

noncomputable section

namespace Cert.KernelIdeal.KRun

open Idealize.ShloMosaic Cert.KernelIdeal Cert.KernelIdeal.Facts₀

/-- Row 0 of the edge list, as a vector. -/
def src1 (ei : IVec S2x600000 32) : IVec S600000 32 :=
  shapeCast S600000 (extractStridedSlice S1x600000 ![0, 0] ei slices_S2x600000_S1x600000_0_0) shapeCasts_S1x600000_S600000

/-- Row 1 of the edge list, as a vector. -/
def dst1 (ei : IVec S2x600000 32) : IVec S600000 32 :=
  shapeCast S600000 (extractStridedSlice S1x600000 ![1, 0] ei slices_S2x600000_S1x600000_1_0) shapeCasts_S1x600000_S600000

/-- The source column: negative entries wrapped once by the row count, as a one-column index array. -/
def srcK (ei : IVec S2x600000 32) : IVec S600000x1 32 :=
  broadcastInDim S600000x1 ![0] bcast_S600000_S600000x1_0
    (select (cmpi .slt (src1 ei) (broadcastInDim S600000 ![] bcast_S_S600000 (constantI S_ 32 0#32)))
      (addi (src1 ei) (broadcastInDim S600000 ![] bcast_S_S600000 (constantI S_ 32 50000#32))) (src1 ei))

/-- The destination column, as a one-column index array. -/
def dstK (ei : IVec S2x600000 32) : IVec S600000x1 32 :=
  broadcastInDim S600000x1 ![0] bcast_S600000_S600000x1_0 (dst1 ei)

/-- The clamped in-degree: the count of edges landing on each row, at least one. -/
def dmaxK (ei : IVec S2x600000 32) : FVec Ideal S50000 .f32 :=
  maximumf
    (Host.scatterAdd scatter_S50000_S600000x1_S600000_n_0_0_1
      (broadcastInDim S50000 ![] bcast_S_S50000 (constant (F := Ideal) S_ .f32 0x00000000#32)) (dstK ei)
      (broadcastInDim S600000 ![] bcast_S_S600000 (constant (F := Ideal) S_ .f32 0x3F800000#32)))
    (broadcastInDim S50000 ![] bcast_S_S50000 (constant (F := Ideal) S_ .f32 0x3F800000#32))

/-- Its reciprocal, as a column. -/
def invdegK (ei : IVec S2x600000 32) : FVec Ideal S50000x1 .f32 :=
  broadcastInDim S50000x1 ![0] bcast_S50000_S50000x1_0
    (Host.divf (broadcastInDim S50000 ![] bcast_S_S50000 (constant (F := Ideal) S_ .f32 0x3F800000#32)) (dmaxK ei))

/-- Neighbour sums of 128-wide rows. -/
def aggK (X : FVec Ideal S50000x128 .f32) (ei : IVec S2x600000 32) : FVec Ideal S50000x128 .f32 :=
  Host.scatterAdd scatter_S50000x128_S600000x1_S600000x128_1_0_0_1
    (broadcastInDim S50000x128 ![] bcast_S_S50000x128 (constant (F := Ideal) S_ .f32 0x00000000#32)) (dstK ei)
    (Host.gather gather_S50000x128_S600000x1_S600000x128_1_0_n_n_0_1_1128 X (srcK ei))

/-- Neighbour sums of 64-wide rows. -/
def agg64K (P : FVec Ideal S50000x64 .f32) (ei : IVec S2x600000 32) : FVec Ideal S50000x64 .f32 :=
  Host.scatterAdd scatter_S50000x64_S600000x1_S600000x64_1_0_0_1
    (broadcastInDim S50000x64 ![] bcast_S_S50000x64 (constant (F := Ideal) S_ .f32 0x00000000#32)) (dstK ei)
    (Host.gather gather_S50000x64_S600000x1_S600000x64_1_0_n_n_0_1_164 P (srcK ei))

/-- A bias vector as a one-row array. -/
def rowK (b : FVec Ideal S128 .f32) : FVec Ideal S1x128 .f32 := shapeCast S1x128 b shapeCasts_S128_S1x128
def row64K (b : FVec Ideal S64 .f32) : FVec Ideal S1x64 .f32 := shapeCast S1x64 b shapeCasts_S64_S1x64

/-- The column means. -/
def muK (H : FVec Ideal S50000x128 .f32) : FVec Ideal S128 .f32 :=
  Host.divf (Host.reduceAdd H (constant (F := Ideal) S_ .f32 0x00000000#32) reducesTo_S50000x128_S128_d0 h_S_)
    (broadcastInDim S128 ![] bcast_S_S128 (constant (F := Ideal) S_ .f32 0x47435000#32))

/-- The deviations from the column means, as the variance computes them (its own mean, through a row). -/
def devK (H : FVec Ideal S50000x128 .f32) : FVec Ideal S50000x128 .f32 :=
  subf H (broadcastInDim S50000x128 ![0, 1] bcast_S1x128_S50000x128_0_1
    (Host.divf
      (broadcastInDim S1x128 ![1] bcast_S128_S1x128_1
        (Host.reduceAdd H (constant (F := Ideal) S_ .f32 0x00000000#32) reducesTo_S50000x128_S128_d0 h_S_))
      (broadcastInDim S1x128 ![] bcast_S_S1x128 (constant (F := Ideal) S_ .f32 0x47435000#32))))

/-- The count the variance divides by: the row count less the (zero) degrees of freedom given up. -/
def cntK : FVec Ideal S_ .f32 :=
  subf (constant (F := Ideal) S_ .f32 0x47435000#32) (sitofp .f32 (constantI S_ 32 0#32))

/-- The column mean square deviations (guarded by the count being positive). -/
def varK (H : FVec Ideal S50000x128 .f32) : FVec Ideal S128 .f32 :=
  select (broadcastInDim S128 ![] bcast_S_S128 (cmpf .ogt cntK (constant (F := Ideal) S_ .f32 0x00000000#32)))
    (Host.divf (Host.reduceAdd (mulf (devK H) (devK H)) (constant (F := Ideal) S_ .f32 0x00000000#32) reducesTo_S50000x128_S128_d0 h_S_)
      (broadcastInDim S128 ![] bcast_S_S128 cntK))
    (broadcastInDim S128 ![] bcast_S_S128 (id (constant (F := Ideal) S_ .f32 0x7FC00000#32)))

/-- The per-column factor `g / sqrt (var + eps)`. -/
def scale1K (H : FVec Ideal S50000x128 .f32) (g : FVec Ideal S128 .f32) : FVec Ideal S128 .f32 :=
  mulf g (Host.rsqrt (addf (varK H) (broadcastInDim S128 ![] bcast_S_S128 (constant (F := Ideal) S_ .f32 0x3727C5AC#32))))

def scaleK (H : FVec Ideal S50000x128 .f32) (g : FVec Ideal S128 .f32) : FVec Ideal S1x128 .f32 :=
  shapeCast S1x128 (scale1K H g) shapeCasts_S128_S1x128

/-- The per-column shift `bt − mu · factor`. -/
def biasK (H : FVec Ideal S50000x128 .f32) (g bt : FVec Ideal S128 .f32) : FVec Ideal S1x128 .f32 :=
  shapeCast S1x128 (subf bt (mulf (muK H) (scale1K H g))) shapeCasts_S128_S1x128

end Cert.KernelIdeal.KRun

end
-- ==== Proof.KernelWalk.lean ====
import proofs.«143043_j20512763806339_2_alg».proof.Proof.Gen.KernelIdeal.Frame
import Idealize.ShloMosaic.Lib.StableHlo.Run
import Idealize.ShloMosaic.PureOps.Ideal
import proofs.«143043_j20512763806339_2_alg».proof.Proof.KernelTerms

/-! # Walking a buffer back through the kernel program's segment boundaries

The generated frame names the buffer contents at every boundary (`W0` … `W10`). Here: a stretch of host operations
keeps every buffer it does not write; a region keeps its input windows' arrays; and the regions' output arrays by name. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg)

/-! ## Buffers a stretch of host operations does not write

Each stretch's written references, as a list; a reference outside the list holds after the stretch what it held before. -/

def wr0 : List (Ref sig .tc) := [main_v0, main_v1, main_v2, main_v3, main_cst, main_v4, main_cst_0, main_v5, main_v6, main_v7,
  main_cst_1, main_v8, main_v9, main_cst_2, main_v10, main_v11, main_v12, main_c, main_v13, main_v14, main_c_3, main_v15, main_v16,
  main_v17, main_v18, main_v19, main_cst_4, main_v20, main_v21, main_v22, main_v23]
def wr1 : List (Ref sig .tc) := [main_c_5, main_v25, main_v26, main_c_6, main_v27, main_v28, main_v29, main_v30, main_v31,
  main_cst_7, main_v32, main_v33, main_v34, main_v35]
def wr2 : List (Ref sig .tc) := [main_cst_8, main_v37, main_cst_9, main_v38, main_v39, main_c_10]
def wr2_1 : List (Ref sig .tc) := [main_call0_cst, main_call0_v0, main_call0_v1, main_call0_cst_0, main_call0_v2, main_call0_v3,
  main_call0_v4, main_call0_v5, main_call0_v6, main_call0_v7, main_call0_cst_1, main_call0_v8, main_call0_cst_2, main_call0_v9,
  main_call0_v10, main_call0_v11, main_call0_cst_3, main_call0_v12, main_call0_cst_4, main_call0_call0_v0, main_call0_call0_v1, main_v40]
def wr2_2 : List (Ref sig .tc) := [main_cst_11, main_v41, main_v42, main_v43, main_v44, main_v45, main_v46, main_v47, main_v48]
def wr3 : List (Ref sig .tc) := [main_c_12, main_v50, main_v51, main_c_13, main_v52, main_v53, main_v54, main_v55, main_v56,
  main_cst_14, main_v57, main_v58, main_v59, main_v60]

section Keep
variable (V : Valuation τ sig (Elt Ideal)) (r : Ref sig .tc)

theorem keep0 (hr : r ∉ wr0) : after hostOps0 V (Proc.devRef .tc r) = V (Proc.devRef .tc r) :=
  after_of_forall_not_mem _ _ (List.forall_iff_forall_mem.mp (by
    simp only [hostOps0, List.Forall, nullary_writes, unary_writes, binary_writes, ternary_writes, quaternary_writes,
      reshape_writes, binaryIndexed_writes, Finset.mem_singleton]
    repeat' apply And.intro
    all_goals exact devRef_ne_of_ne (fun e => hr (by subst e; decide))))
theorem keep1 (hr : r ∉ wr1) : after hostOps1 V (Proc.devRef .tc r) = V (Proc.devRef .tc r) :=
  after_of_forall_not_mem _ _ (List.forall_iff_forall_mem.mp (by
    simp only [hostOps1, List.Forall, nullary_writes, unary_writes, binary_writes, ternary_writes, quaternary_writes,
      reshape_writes, binaryIndexed_writes, Finset.mem_singleton]
    repeat' apply And.intro
    all_goals exact devRef_ne_of_ne (fun e => hr (by subst e; decide))))
theorem keep2 (hr : r ∉ wr2) : after hostOps2 V (Proc.devRef .tc r) = V (Proc.devRef .tc r) :=
  after_of_forall_not_mem _ _ (List.forall_iff_forall_mem.mp (by
    simp only [hostOps2, List.Forall, nullary_writes, unary_writes, binary_writes, ternary_writes, quaternary_writes,
      reshape_writes, binaryIndexed_writes, Finset.mem_singleton]
    repeat' apply And.intro
    all_goals exact devRef_ne_of_ne (fun e => hr (by subst e; decide))))
theorem keep2_1 (hr : r ∉ wr2_1) : after hostOps2_1 V (Proc.devRef .tc r) = V (Proc.devRef .tc r) :=
  after_of_forall_not_mem _ _ (List.forall_iff_forall_mem.mp (by
    simp only [hostOps2_1, List.Forall, nullary_writes, unary_writes, binary_writes, ternary_writes, quaternary_writes,
      reshape_writes, binaryIndexed_writes, Finset.mem_singleton]
    repeat' apply And.intro
    all_goals exact devRef_ne_of_ne (fun e => hr (by subst e; decide))))
theorem keep2_2 (hr : r ∉ wr2_2) : after hostOps2_2 V (Proc.devRef .tc r) = V (Proc.devRef .tc r) :=
  after_of_forall_not_mem _ _ (List.forall_iff_forall_mem.mp (by
    simp only [hostOps2_2, List.Forall, nullary_writes, unary_writes, binary_writes, ternary_writes, quaternary_writes,
      reshape_writes, binaryIndexed_writes, Finset.mem_singleton]
    repeat' apply And.intro
    all_goals exact devRef_ne_of_ne (fun e => hr (by subst e; decide))))
theorem keep3 (hr : r ∉ wr3) : after hostOps3 V (Proc.devRef .tc r) = V (Proc.devRef .tc r) :=
  after_of_forall_not_mem _ _ (List.forall_iff_forall_mem.mp (by
    simp only [hostOps3, List.Forall, nullary_writes, unary_writes, binary_writes, ternary_writes, quaternary_writes,
      reshape_writes, binaryIndexed_writes, Finset.mem_singleton]
    repeat' apply And.intro
    all_goals exact devRef_ne_of_ne (fun e => hr (by subst e; decide))))
end Keep

/-! ## A region leaves its input windows' arrays as it found them -/

theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin _).trans (A_eq0 (V1 m ρ) c w))
theorem W4_in (c : Dev nD) (w : Fin cfg1.W) (hin : (cfg1.win w).isOut = false) :
    W4 m ρ c (Proc.devRef .tc (Pipeline.arrRef spec1 w)) = W3 m ρ c (Proc.devRef .tc (Pipeline.arrRef spec1 w)) :=
  (W4_arr m ρ c w).trans (((dat1 (V3 m ρ) c).arrAt_in w hin _).trans (A_eq1 (V3 m ρ) c w))
theorem W8_in (c : Dev nD) (w : Fin cfg2.W) (hin : (cfg2.win w).isOut = false) :
    W8 m ρ c (Proc.devRef .tc (Pipeline.arrRef spec2 w)) = W7 m ρ c (Proc.devRef .tc (Pipeline.arrRef spec2 w)) :=
  (W8_arr m ρ c w).trans (((dat2 (V7 m ρ) c).arrAt_in w hin _).trans (A_eq2 (V7 m ρ) c w))

/-! ## Walking a buffer back across the three stretches between regions 1 and 2 -/

theorem W7_W4 (c : Dev nD) (r : Ref sig .tc) (h2 : r ∉ wr2) (h21 : r ∉ wr2_1) (h22 : r ∉ wr2_2) :
    W7 m ρ c (Proc.devRef .tc r) = W4 m ρ c (Proc.devRef .tc r) :=
  (keep2_2 _ r h22).trans ((keep2_1 _ r h21).trans (keep2 _ r h2))

/-! ## The regions' outputs, and the launch contents, by name -/

/-- Region 0's output array as its write-backs leave it. -/
def H0 (c : Dev nD) : FVec Ideal S50000x128 .f32 := (dat0 (V1 m ρ) c).arrAt 6 cfg0.N
/-- Region 1's output array. -/
def H1 (c : Dev nD) : FVec Ideal S50000x128 .f32 := (dat1 (V3 m ρ) c).arrAt 6 cfg1.N
/-- Region 2's first output array (the normalised rows). -/
def H2h (c : Dev nD) : FVec Ideal S50000x128 .f32 := (dat2 (V7 m ρ) c).arrAt 5 cfg2.N
/-- Region 2's second output array (their projection). -/
def H2p (c : Dev nD) : FVec Ideal S50000x64 .f32 := (dat2 (V7 m ρ) c).arrAt 6 cfg2.N
/-- Region 3's output array. -/
def OUT (c : Dev nD) : FVec Ideal S50000x64 .f32 := (dat3 (V9 m ρ) c).arrAt 5 cfg3.N

end Cert.KernelIdeal.KRun
end
-- ==== Proof.KernelWire.lean ====
import Idealize.ShloMosaic.Lib.StableHlo.Run
import proofs.«143043_j20512763806339_2_alg».proof.Proof.KernelWalk

/-! # The wiring between the kernel program's four regions

What each region's input windows hold when the region is entered, and what the result buffer holds at the end, as the
named whole-array terms: each equation reads the boundary contents back through the host stretches and the regions
before it. -/

set_option maxRecDepth 16384

noncomputable section

namespace Cert.KernelIdeal.KRun

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg)

/-! ## What the first stretch of host operations leaves -/

theorem W1_v1 (c : Dev nD) : W1 m ρ c (Proc.devRef .tc main_v1) = src1 (m ((c.tc : Thread nD τ).loc main_arg1)) := by
  dsimp only [W1]; after_results; rfl
theorem W1_v3 (c : Dev nD) : W1 m ρ c (Proc.devRef .tc main_v3) = dst1 (m ((c.tc : Thread nD τ).loc main_arg1)) := by
  dsimp only [W1]; after_results; rfl
theorem W1_v12 (c : Dev nD) : W1 m ρ c (Proc.devRef .tc main_v12) = invdegK (m ((c.tc : Thread nD τ).loc main_arg1)) := by
  dsimp only [W1]; after_results; rfl

/-! ## Buffers no region and no later stretch writes -/

/-- From region 1's exit back to the launch, for a buffer nothing in between writes. -/
theorem W4_W0 (c : Dev nD) (r : Ref sig .tc) (hs1 : ∀ w, Pipeline.arrRef spec1 w ≠ r) (h1 : r ∉ wr1)
    (hs0 : ∀ w, Pipeline.arrRef spec0 w ≠ r) (h0 : r ∉ wr0) :
    W4 m ρ c (Proc.devRef .tc r) = m ((c.tc : Thread nD τ).loc r) :=
  (W4_of_ne m ρ c r hs1).trans ((keep1 _ r h1).trans ((W2_of_ne m ρ c r hs0).trans (keep0 _ r h0)))
/-- From region 1's exit back to the first stretch's end. -/
theorem W4_W1 (c : Dev nD) (r : Ref sig .tc) (hs1 : ∀ w, Pipeline.arrRef spec1 w ≠ r) (h1 : r ∉ wr1)
    (hs0 : ∀ w, Pipeline.arrRef spec0 w ≠ r) :
    W4 m ρ c (Proc.devRef .tc r) = W1 m ρ c (Proc.devRef .tc r) :=
  (W4_of_ne m ρ c r hs1).trans ((keep1 _ r h1).trans (W2_of_ne m ρ c r hs0))
/-- From region 2's exit back to region 1's exit. -/
theorem W8_W4 (c : Dev nD) (r : Ref sig .tc) (hs2 : ∀ w, Pipeline.arrRef spec2 w ≠ r) (h2 : r ∉ wr2) (h21 : r ∉ wr2_1)
    (h22 : r ∉ wr2_2) : W8 m ρ c (Proc.devRef .tc r) = W4 m ρ c (Proc.devRef .tc r) :=
  (W8_of_ne m ρ c r hs2).trans (W7_W4 m ρ c r h2 h21 h22)

theorem W8_v1 (c : Dev nD) : W8 m ρ c (Proc.devRef .tc main_v1) = src1 (m ((c.tc : Thread nD τ).loc main_arg1)) :=
  (W8_W4 m ρ c main_v1 (by decide) (by decide) (by decide) (by decide)).trans
    ((W4_W1 m ρ c main_v1 (by decide) (by decide) (by decide)).trans (W1_v1 m ρ c))
theorem W8_v3 (c : Dev nD) : W8 m ρ c (Proc.devRef .tc main_v3) = dst1 (m ((c.tc : Thread nD τ).loc main_arg1)) :=
  (W8_W4 m ρ c main_v3 (by decide) (by decide) (by decide) (by decide)).trans
    ((W4_W1 m ρ c main_v3 (by decide) (by decide) (by decide)).trans (W1_v3 m ρ c))

/-! ## Region 3's inputs, and the result -/

theorem in3_0 (c : Dev nD) :
    V9 m ρ c (Pipeline.arrRef spec3 0) = agg64K (H2p m ρ c) (m ((c.tc : Thread nD τ).loc main_arg1)) := by
  show W9 m ρ c (Proc.devRef .tc main_v59) = _
  dsimp only [W9]
  after_results
  rw [W8_v1, W8_v3, show W8 m ρ c (Proc.devRef .tc main_v49_1) = H2p m ρ c from W8_arr m ρ c 6]
  rfl
theorem in3_1 (c : Dev nD) : V9 m ρ c (Pipeline.arrRef spec3 1) = H2h m ρ c :=
  show W9 m ρ c (Proc.devRef .tc main_v49_0) = _ from (keep3 _ _ (by decide)).trans (W8_arr m ρ c 5)
theorem in3_2 (c : Dev nD) : V9 m ρ c (Pipeline.arrRef spec3 2) = invdegK (m ((c.tc : Thread nD τ).loc main_arg1)) :=
  show W9 m ρ c (Proc.devRef .tc main_v12) = _ from
    (keep3 _ _ (by decide)).trans ((W8_of_ne m ρ c main_v12 (by decide)).trans
      ((W7_W4 m ρ c main_v12 (by decide) (by decide) (by decide)).trans ((W4_in m ρ c 2 rfl).trans
        ((keep1 _ _ (by decide)).trans ((W2_in m ρ c 2 rfl).trans (W1_v12 m ρ c))))))
theorem in3_3 (c : Dev nD) : V9 m ρ c (Pipeline.arrRef spec3 3) = m ((c.tc : Thread nD τ).loc main_arg9) :=
  show W9 m ρ c (Proc.devRef .tc main_arg9) = _ from
    (keep3 _ _ (by decide)).trans ((W8_W4 m ρ c main_arg9 (by decide) (by decide) (by decide) (by decide)).trans
      (W4_W0 m ρ c main_arg9 (by decide) (by decide) (by decide) (by decide)))
theorem in3_4 (c : Dev nD) : V9 m ρ c (Pipeline.arrRef spec3 4) = row64K (m ((c.tc : Thread nD τ).loc main_arg10)) := by
  show W9 m ρ c (Proc.devRef .tc main_v60) = _
  dsimp only [W9]
  after_results
  rw [(W8_W4 m ρ c main_arg10 (by decide) (by decide) (by decide) (by decide)).trans
      (W4_W0 m ρ c main_arg10 (by decide) (by decide) (by decide) (by decide))]
  rfl
theorem out_eq (c : Dev nD) : W10 m ρ c (Proc.devRef .tc main_v61) = OUT m ρ c := W10_arr m ρ c 5

/-! ## Region 2's inputs -/

/-- An argument buffer at region 1's exit holds its launch contents. -/
theorem W4_arg11 (c : Dev nD) : W4 m ρ c (Proc.devRef .tc main_arg11) = m ((c.tc : Thread nD τ).loc main_arg11) :=
  W4_W0 m ρ c main_arg11 (by decide) (by decide) (by decide) (by decide)
theorem W4_arg12 (c : Dev nD) : W4 m ρ c (Proc.devRef .tc main_arg12) = m ((c.tc : Thread nD τ).loc main_arg12) :=
  W4_W0 m ρ c main_arg12 (by decide) (by decide) (by decide) (by decide)
theorem W4_v36 (c : Dev nD) : W4 m ρ c (Proc.devRef .tc main_v36) = H1 m ρ c := W4_arr m ρ c 6

theorem in2_0 (c : Dev nD) : V7 m ρ c (Pipeline.arrRef spec2 0) = H1 m ρ c :=
  show W7 m ρ c (Proc.devRef .tc main_v36) = _ from
    (W7_W4 m ρ c main_v36 (by decide) (by decide) (by decide)).trans (W4_arr m ρ c 6)
theorem in2_1 (c : Dev nD) : V7 m ρ c (Pipeline.arrRef spec2 1) = m ((c.tc : Thread nD τ).loc main_arg0) :=
  show W7 m ρ c (Proc.devRef .tc main_arg0) = _ from
    (W7_W4 m ρ c main_arg0 (by decide) (by decide) (by decide)).trans ((W4_of_ne m ρ c main_arg0 (by decide)).trans
      ((keep1 _ _ (by decide)).trans ((W2_in m ρ c 1 rfl).trans (keep0 _ _ (by decide)))))
-- the three stretches before region 2 are read through in one pass: the boundary contents between them are
-- abbreviations of the fold, so the reading ends at region 1's exit contents
set_option maxHeartbeats 1000000 in
theorem in2_2 (c : Dev nD) :
    V7 m ρ c (Pipeline.arrRef spec2 2) = scaleK (H1 m ρ c) (m ((c.tc : Thread nD τ).loc main_arg11)) := by
  show W7 m ρ c (Proc.devRef .tc main_v47) = _
  dsimp only [W7]
  after_results
  dsimp only [TRef.of]
  rw [W4_v36, W4_arg11]
  rfl
set_option maxHeartbeats 1000000 in
theorem in2_3 (c : Dev nD) :
    V7 m ρ c (Pipeline.arrRef spec2 3)
      = biasK (H1 m ρ c) (m ((c.tc : Thread nD τ).loc main_arg11)) (m ((c.tc : Thread nD τ).loc main_arg12)) := by
  show W7 m ρ c (Proc.devRef .tc main_v48) = _
  dsimp only [W7]
  after_results
  dsimp only [TRef.of]
  rw [W4_v36, W4_arg11, W4_arg12]
  rfl
theorem in2_4 (c : Dev nD) : V7 m ρ c (Pipeline.arrRef spec2 4) = m ((c.tc : Thread nD τ).loc main_arg8) :=
  show W7 m ρ c (Proc.devRef .tc main_arg8) = _ from
    (W7_W4 m ρ c main_arg8 (by decide) (by decide) (by decide)).trans
      (W4_W0 m ρ c main_arg8 (by decide) (by decide) (by decide) (by decide))

end Cert.KernelIdeal.KRun
end
-- ==== Proof.KernelWire01.lean ====
/-
  The first two tiled stages' input arrays, by name.

  The generated frame gives the buffer contents at every boundary of the program's main function as a fold: the launch
  memory, then a stretch of whole-array operations, then a tiled stage, and so on. Here each input array of the first
  and of the second tiled stage is read off that fold as one named whole-array term of the launch arrays (and, for the
  second stage, of the first stage's output array).
-/
import proofs.«143043_j20512763806339_2_alg».proof.Proof.Gen.KernelIdeal.Frame
import proofs.«143043_j20512763806339_2_alg».proof.Proof.KernelTerms
import proofs.«143043_j20512763806339_2_alg».proof.Proof.KernelWalk
import Idealize.ShloMosaic.Lib.StableHlo.Run

set_option maxRecDepth 16384

noncomputable section

namespace Cert.KernelIdeal.KRun

open Cert.KernelIdeal Cert.KernelIdeal.Gen
open Idealize.ShloMosaic Idealize.ShloMosaic.TcCoe Idealize.ShloMosaic.Tactic
open Idealize.ShloMosaic.StableHlo

variable (m : (ℓ : Loc nD τ sig) → Buf (Elt Ideal) ℓ) (ρ : Dev nD → PrngReg) (c : Dev nD)

/-! ## After the first stretch of whole-array operations -/

/-- The edge list's first row, flattened. -/
theorem w1_src : W1 m ρ c (Proc.devRef .tc main_v1) = src1 (m ((c.tc : Thread nD τ).loc main_arg1)) := by
  dsimp only [W1]; after_results; rfl

/-- The edge list's second row, flattened. -/
theorem w1_dst : W1 m ρ c (Proc.devRef .tc main_v3) = dst1 (m ((c.tc : Thread nD τ).loc main_arg1)) := by
  dsimp only [W1]; after_results; rfl

theorem in0_1 : V1 m ρ c (Pipeline.arrRef spec0 1) = m ((c.tc : Thread nD τ).loc main_arg0) := by
  show W1 m ρ c (Proc.devRef .tc main_arg0) = _
  exact keep0 _ main_arg0 (by decide)

theorem in0_3 : V1 m ρ c (Pipeline.arrRef spec0 3) = m ((c.tc : Thread nD τ).loc main_arg2) := by
  show W1 m ρ c (Proc.devRef .tc main_arg2) = _
  exact keep0 _ main_arg2 (by decide)

theorem in0_4 : V1 m ρ c (Pipeline.arrRef spec0 4) = m ((c.tc : Thread nD τ).loc main_arg3) := by
  show W1 m ρ c (Proc.devRef .tc main_arg3) = _
  exact keep0 _ main_arg3 (by decide)

theorem in0_5 : V1 m ρ c (Pipeline.arrRef spec0 5) = rowK (m ((c.tc : Thread nD τ).loc main_arg4)) := by
  show W1 m ρ c (Proc.devRef .tc main_v23) = _
  dsimp only [W1]; after_results; rfl

theorem in0_2 : V1 m ρ c (Pipeline.arrRef spec0 2) = invdegK (m ((c.tc : Thread nD τ).loc main_arg1)) := by
  show W1 m ρ c (Proc.devRef .tc main_v12) = _
  dsimp only [W1]; after_results_simp; rfl

theorem in0_0 : V1 m ρ c (Pipeline.arrRef spec0 0)
    = aggK (m ((c.tc : Thread nD τ).loc main_arg0)) (m ((c.tc : Thread nD τ).loc main_arg1)) := by
  show W1 m ρ c (Proc.devRef .tc main_v22) = _
  dsimp only [W1]; after_results_simp; rfl

/-! ## After the first tiled stage and the second stretch of whole-array operations -/

/-- The first stage and the first stretch leave a launch array that neither writes nor windows as launched. -/
theorem w2_arg (r : Ref sig .tc) (hw : ∀ w, Pipeline.arrRef spec0 w ≠ r) (h0 : r ∉ wr0) :
    W2 m ρ c (Proc.devRef .tc r) = W0 m ρ c (Proc.devRef .tc r) :=
  (W2_of_ne m ρ c r hw).trans (keep0 _ r h0)

theorem w2_src : W2 m ρ c (Proc.devRef .tc main_v1) = src1 (m ((c.tc : Thread nD τ).loc main_arg1)) :=
  (W2_of_ne m ρ c main_v1 (by decide)).trans (w1_src m ρ c)

theorem w2_dst : W2 m ρ c (Proc.devRef .tc main_v3) = dst1 (m ((c.tc : Thread nD τ).loc main_arg1)) :=
  (W2_of_ne m ρ c main_v3 (by decide)).trans (w1_dst m ρ c)

theorem w2_out : W2 m ρ c (Proc.devRef .tc main_v24) = H0 m ρ c := W2_arr m ρ c 6

theorem in1_1 : V3 m ρ c (Pipeline.arrRef spec1 1) = H0 m ρ c := by
  show W3 m ρ c (Proc.devRef .tc main_v24) = _
  exact (keep1 _ main_v24 (by decide)).trans (w2_out m ρ c)

theorem in1_2 : V3 m ρ c (Pipeline.arrRef spec1 2) = invdegK (m ((c.tc : Thread nD τ).loc main_arg1)) := by
  show W3 m ρ c (Proc.devRef .tc main_v12) = _
  exact (keep1 _ main_v12 (by decide)).trans ((W2_in m ρ c 2 rfl).trans (in0_2 m ρ c))

theorem in1_3 : V3 m ρ c (Pipeline.arrRef spec1 3) = m ((c.tc : Thread nD τ).loc main_arg5) := by
  show W3 m ρ c (Proc.devRef .tc main_arg5) = _
  exact (keep1 _ main_arg5 (by decide)).trans (w2_arg m ρ c main_arg5 (by decide) (by decide))

theorem in1_4 : V3 m ρ c (Pipeline.arrRef spec1 4) = m ((c.tc : Thread nD τ).loc main_arg6) := by
  show W3 m ρ c (Proc.devRef .tc main_arg6) = _
  exact (keep1 _ main_arg6 (by decide)).trans (w2_arg m ρ c main_arg6 (by decide) (by decide))

theorem in1_5 : V3 m ρ c (Pipeline.arrRef spec1 5) = rowK (m ((c.tc : Thread nD τ).loc main_arg7)) := by
  show W3 m ρ c (Proc.devRef .tc main_v35) = _
  dsimp only [W3]; after_results
  rw [w2_arg m ρ c main_arg7 (by decide) (by decide)]
  rfl

theorem in1_0 : V3 m ρ c (Pipeline.arrRef spec1 0) = aggK (H0 m ρ c) (m ((c.tc : Thread nD τ).loc main_arg1)) := by
  show W3 m ρ c (Proc.devRef .tc main_v34) = _
  dsimp only [W3]; after_results
  rw [w2_src m ρ c, w2_dst m ρ c, w2_out m ρ c]
  rfl

end Cert.KernelIdeal.KRun

end
-- ==== Proof.Spec.lean ====
/-
  The mathematics of one run, index by index, on the extended reals.

  A node array has 50000 rows; feature arrays are 128 or 64 wide.  Every dense stage of the network is stated here
  as a function of whole arrays, read at a row `r` and a column `c`:
  • `conv`: the SAGE layer's linear part on PRE-SUMMED neighbour features `agg`, a per-row factor `inv`
    (the reciprocal of the clamped in-degree), two weight matrices and a bias row:
    `Σ_k (agg[r,k] · inv[r]) · wl[k,c] + Σ_k x[r,k] · wr[k,c] + b[c]`;  `layer0` clamps it below at `0`.
  • `bnres`: an affine map per column (`scale`, `bias`), clamped below at `0`, plus the residual `x`.
  • `proj`: a plain matrix product.
  • `pre3`: the last layer's logits from already-projected neighbour sums: `agg[r,c] · inv[r] + Σ_k h[r,k] · wr[k,c] + b[c]`.
  • `lsm`: the row-wise log-softmax in its shifted form, `(h − M_r) − log Σ_j exp (h[r,j] − M_r)` with `M_r` the row's maximum
    (the fold of `max` from `⊥` over the row).
-/
import Idealize.ShloMosaic.PureOps.Ideal
import Idealize.ShloMosaic.Lib.ValueIdx

noncomputable section

namespace Cert.Sage

open Idealize.ShloMosaic Idealize.ShloMosaic.ValueIdx

/-- An `a × b` array of extended reals. -/
abbrev Mat (a b : Nat) : Type := FVec Ideal (⟨2, ![a, b]⟩ : Shape) .f32

/-- The SAGE layer's linear part at row `r`, column `c`. -/
def convAt (agg x : Mat 50000 128) (inv : Mat 50000 1) (wl wr : Mat 128 128) (b : Mat 1 128) (r : Fin 50000) (c : Fin 128) : EReal :=
  ((∑ k : Fin 128, (agg (ix2 r k) * inv (ix2 r 0)) * wl (ix2 k c)) + ∑ k : Fin 128, x (ix2 r k) * wr (ix2 k c)) + b (ix2 0 c)

def conv (agg x : Mat 50000 128) (inv : Mat 50000 1) (wl wr : Mat 128 128) (b : Mat 1 128) : Mat 50000 128 :=
  fun i => convAt agg x inv wl wr b (i 0) (i 1)

/-- The first layer: the linear part clamped below at zero. -/
def layer0 (agg x : Mat 50000 128) (inv : Mat 50000 1) (wl wr : Mat 128 128) (b : Mat 1 128) : Mat 50000 128 :=
  fun i => max (convAt agg x inv wl wr b (i 0) (i 1)) 0

/-- A per-column affine map, clamped below at zero, plus the residual. -/
def bnresAt (h x : Mat 50000 128) (scale bias : Mat 1 128) (r : Fin 50000) (c : Fin 128) : EReal :=
  max (h (ix2 r c) * scale (ix2 0 c) + bias (ix2 0 c)) 0 + x (ix2 r c)

def bnres (h x : Mat 50000 128) (scale bias : Mat 1 128) : Mat 50000 128 :=
  fun i => bnresAt h x scale bias (i 0) (i 1)

/-- A matrix product, 128 → 64 columns. -/
def projAt (h : Mat 50000 128) (w : Mat 128 64) (r : Fin 50000) (c : Fin 64) : EReal :=
  ∑ k : Fin 128, h (ix2 r k) * w (ix2 k c)

def proj (h : Mat 50000 128) (w : Mat 128 64) : Mat 50000 64 := fun i => projAt h w (i 0) (i 1)

/-- The last layer's logits. -/
def pre3At (agg : Mat 50000 64) (h : Mat 50000 128) (inv : Mat 50000 1) (wr : Mat 128 64) (b : Mat 1 64) (r : Fin 50000) (c : Fin 64) : EReal :=
  (agg (ix2 r c) * inv (ix2 r 0) + ∑ k : Fin 128, h (ix2 r k) * wr (ix2 k c)) + b (ix2 0 c)

def pre3 (agg : Mat 50000 64) (h : Mat 50000 128) (inv : Mat 50000 1) (wr : Mat 128 64) (b : Mat 1 64) : Mat 50000 64 :=
  fun i => pre3At agg h inv wr b (i 0) (i 1)

/-- A row's maximum: the fold of `max` from `⊥`. -/
def rowMax (h : Mat 50000 64) (r : Fin 50000) : EReal :=
  (Finset.univ : Finset (Fin 64)).fold max ⊥ (fun j => h (ix2 r j))

/-- The shifted log-softmax of row `r` at column `c`. -/
def lsmAt (h : Mat 50000 64) (r : Fin 50000) (c : Fin 64) : EReal :=
  (h (ix2 r c) - rowMax h r) - Ideal.log (∑ j : Fin 64, Ideal.exp (h (ix2 r j) - rowMax h r))

def lsm (h : Mat 50000 64) : Mat 50000 64 := fun i => lsmAt h (i 0) (i 1)

end Cert.Sage

end
-- ==== Proof.SageTile.lean ====
/-
  The two SAGE-layer kernel bodies, read at one entry of the tile they store.

  Both bodies load a 2000-row tile of the pre-summed neighbour features `agg`, the matching tile of node features `x`,
  the tile's column of reciprocal degrees `inv`, the two resident 128×128 weight matrices and the resident bias row,
  and store `(agg · inv) · Wl + x · Wr + b` (the first body clamped below at `0`).  At the extended reals the casts to
  bf16 are the identity, a matrix product into the zero accumulator is the plain sum over the contracted coordinate,
  the column broadcast [2000,1] → [2000,128] reads the row's one entry and the row broadcast [1,128] → [2000,128]
  reads the column's one entry; so the stored tile at `(p, q)` is `tileAt … p q` below.
-/
import proofs.«143043_j20512763806339_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.SageTile

open Idealize.ShloMosaic Idealize.ShloMosaic.ValueIdx
open Cert.KernelIdeal Cert.KernelIdeal.Gen

/-- A column `[a, 1]` broadcast to `[a, b]` reads, at `(p, c)`, the operand's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The bodies' matrix product (rows × contraction times contraction × columns, into the zero accumulator) at
    `(p, q)`: the sum over the contracted coordinate of the products of the entries. -/
theorem matmul_at (A : FVec Ideal S2000x128 .bf16) (B : FVec Ideal S128x128 .bf16) (p : Fin 2000) (q : Fin 128) :
    matmul dot_S2000x128_S128x128_S2000x128_1_0_0_1_n_n none A B (constant (F := Ideal) S2000x128 .f32 0x00000000#32) (ix2 p q)
      = ∑ k : Fin 128, A (ix2 p k) * B (ix2 k q) := by
  show FloatOps.matmul dot_S2000x128_S128x128_S2000x128_1_0_0_1_n_n none A B _ (ix2 p q) = _
  rw [Ideal.matmul_constant_zero_apply,
    ← Equiv.sum_comp (contrEquiv1 dot_S2000x128_S128x128_S2000x128_1_0_0_1_n_n 128 rfl rfl).symm]
  refine Finset.sum_congr rfl fun c _ => ?_
  have c2 := contrEquiv1_symm_val dot_S2000x128_S128x128_S2000x128_1_0_0_1_n_n 128 rfl rfl c
  have l2 : dot_S2000x128_S128x128_S2000x128_1_0_0_1_n_n.lhsIdx (ix2 p q) ((contrEquiv1 _ 128 rfl rfl).symm c) = ix2 p c := by
    funext ax; apply Fin.ext
    match ax with
    | ⟨0, _⟩ => simp [DotDims.lhsIdx, dot_S2000x128_S128x128_S2000x128_1_0_0_1_n_n]; rfl
    | ⟨1, _⟩ => exact (DotDims.lhsIdx_val_of_single _ rfl _ _).trans c2
  have r2 : dot_S2000x128_S128x128_S2000x128_1_0_0_1_n_n.rhsIdx (ix2 p q) ((contrEquiv1 _ 128 rfl rfl).symm c) = ix2 c q := by
    funext ax; apply Fin.ext
    match ax with
    | ⟨0, _⟩ => exact (DotDims.rhsIdx_val_of_single _ rfl _ _).trans c2
    | ⟨1, _⟩ => simp [DotDims.rhsIdx, dot_S2000x128_S128x128_S2000x128_1_0_0_1_n_n]; rfl
  rw [l2, r2]

/-- One entry of the stored tile: row `p` of the scaled neighbour tile against column `q` of `wl`, row `p` of the
    node tile against column `q` of `wr`, plus the bias of column `q`. -/
def tileAt (agg x : Vec Ideal S2000x128 .f32) (inv : Vec Ideal S2000x1 .f32) (wl wr : Vec Ideal S128x128 .f32)
    (b : Vec Ideal S1x128 .f32) (p : Fin 2000) (q : Fin 128) : EReal :=
  ((∑ k : Fin 128, (agg (ix2 p k) * inv (ix2 p 0)) * wl (ix2 k q)) + ∑ k : Fin 128, x (ix2 p k) * wr (ix2 k q)) + b (ix2 0 q)

/-- The first body's stored tile at `(p, q)`. -/
theorem k0_pay1_apply (agg : Vec Ideal S2000x128 .f32) (inv : Vec Ideal S2000x1 .f32) (x : Vec Ideal S2000x128 .f32)
    (wl wr : Vec Ideal S128x128 .f32) (b : Vec Ideal S1x128 .f32) (p : Fin 2000) (q : Fin 128) :
    k0_pay1 agg inv x wl wr b (ix2 p q) = max (tileAt agg x inv wl wr b p q) 0 := by
  unfold k0_pay1 tileAt
  rw [maximumf_apply, addf_apply, addf_apply, matmul_at, matmul_at, broadcast_apply]
  simp only [truncf_apply, mulf_apply, shapeCast_self, broadcastTo_a1_ab_apply, broadcastTo_1b_ab_apply]
  show max _ (Ideal.ofBits .f32 0x00000000#32) = _
  rw [Ideal.ofBits_zero_f32]

/-- The second body's stored tile at `(p, q)`: the same entry, not clamped. -/
theorem k1_pay1_apply (agg : Vec Ideal S2000x128 .f32) (inv : Vec Ideal S2000x1 .f32) (x : Vec Ideal S2000x128 .f32)
    (wl wr : Vec Ideal S128x128 .f32) (b : Vec Ideal S1x128 .f32) (p : Fin 2000) (q : Fin 128) :
    k1_pay1 agg inv x wl wr b (ix2 p q) = tileAt agg x inv wl wr b p q := by
  unfold k1_pay1 tileAt
  rw [addf_apply, addf_apply, matmul_at, matmul_at]
  simp only [truncf_apply, mulf_apply, shapeCast_self, broadcastTo_a1_ab_apply, broadcastTo_1b_ab_apply]

end Cert.KernelIdeal.SageTile

end
-- ==== Proof.Region0.lean ====
/-
  Region 0 (the first SAGE layer, clamped below at zero): the output array after the region, index by index.

  The region runs one body over 25 grid points.  Point `t` finds in its staging buffers rows `2000·t … 2000·t + 1999`
  of the pre-summed neighbour features, of the node features and of the reciprocal degrees, and the whole of the two
  weight matrices and of the bias row (their blocks never move); it stores one 2000×128 tile and writes it back to rows
  `2000·t … 2000·t + 1999` of the output.  Entry `(p, q)` of the stored tile depends on row `p` of the three tiled blocks
  only, so it is entry `(2000·t + p, q)` of `Cert.Sage.layer0` of the whole arrays; row `r` of the output lies in the block
  of point `r / 2000`, so the 25 blocks cover the array and it ends holding `Cert.Sage.layer0` of the arrays the region found.
-/
import proofs.«143043_j20512763806339_2_alg».proof.Proof.Gen.KernelIdeal.Frame
import proofs.«143043_j20512763806339_2_alg».proof.Proof.Spec
import proofs.«143043_j20512763806339_2_alg».proof.Proof.SageTile
import Idealize.ShloMosaic.Lib.Pipeline.Value

set_option maxRecDepth 16384

noncomputable section

namespace Cert.KernelIdeal.Region0

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.SageTile
open Cert.Sage (Mat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the tiled windows (neighbour features, node features, reciprocal
    degrees, output) sit at block `(t, 0)` at point `t`, the resident ones (weights, bias) at block `(0, 0)`. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- An entry of the stored tile is the matching entry of `Cert.Sage.layer0` of the whole arrays, once each block is
    known to be its rows of its array: stated over plain blocks and arrays, `T` the point's number. -/
theorem tile_entry (A0 A1 : Mat 50000 128) (A2 : Mat 50000 1) (A3 A4 : Mat 128 128) (A5 : Mat 1 128)
    (x0 x1 : Vec Ideal S2000x128 .f32) (x2 : Vec Ideal S2000x1 .f32) (x3 x4 : Vec Ideal S128x128 .f32)
    (x5 : Vec Ideal S1x128 .f32) (T : ℕ)
    (h0 : ∀ (p : Fin 2000) (k : Fin 128) (r : Fin 50000), r.val = T * 2000 + p.val → x0 (ix2 p k) = A0 (ix2 r k))
    (h1 : ∀ (p : Fin 2000) (k : Fin 128) (r : Fin 50000), r.val = T * 2000 + p.val → x1 (ix2 p k) = A1 (ix2 r k))
    (h2 : ∀ (p : Fin 2000) (r : Fin 50000), r.val = T * 2000 + p.val → x2 (ix2 p 0) = A2 (ix2 r 0))
    (h3 : x3 = A3) (h4 : x4 = A4) (h5 : x5 = A5)
    (j : S2000x128.Idx) (i : S50000x128.Idx) (hi0 : (i 0).val = T * 2000 + (j 0).val) (hi1 : (i 1).val = (j 1).val) :
    k0_pay1 x0 x2 x1 x3 x4 x5 j = Cert.Sage.layer0 A0 A1 A2 A3 A4 A5 i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := (Fin.ext hi1).symm
  have hr : r.val = T * 2000 + p.val := hi0
  rw [k0_pay1_apply]
  show max (tileAt x0 x1 x2 x3 x4 x5 p q) 0 = max (Cert.Sage.convAt A0 A1 A2 A3 A4 A5 r q) 0
  congr 1
  unfold tileAt Cert.Sage.convAt
  rw [h3, h4, h5]
  simp only [fun k => h0 p k r hr, fun k => h1 p k r hr, h2 p r hr]

/-- The neighbour-feature block at point `t` is rows `2000·t …` of its array. -/
theorem blk0 (c : Dev nD) (t : Fin cfg0.N) (p : Fin 2000) (k : Fin 128) (r : Fin 50000) (hr : r.val = t.val * 2000 + p.val) :
    (iblk0 V c 0 t : Vec Ideal S2000x128 .f32) (ix2 p k) = ((V c (Pipeline.arrRef spec0 0)) : Mat 50000 128) (ix2 r k) := by
  obtain ⟨e0, e1, -⟩ := idx_facts t
  unfold iblk0
  rw [View.read_apply]
  show V c (Pipeline.arrRef spec0 0) _ = V c (Pipeline.arrRef spec0 0) _
  congr 1
  funext a
  apply Fin.ext
  match a with
  | ⟨0, _⟩ => show win0_0.index t 0 * 2000 + 1 * p.val = r.val; omega
  | ⟨1, _⟩ => show win0_0.index t 1 * 128 + 1 * k.val = k.val; omega

/-- The node-feature block at point `t` is rows `2000·t …` of its array. -/
theorem blk1 (c : Dev nD) (t : Fin cfg0.N) (p : Fin 2000) (k : Fin 128) (r : Fin 50000) (hr : r.val = t.val * 2000 + p.val) :
    (iblk0 V c 1 t : Vec Ideal S2000x128 .f32) (ix2 p k) = ((V c (Pipeline.arrRef spec0 1)) : Mat 50000 128) (ix2 r k) := by
  obtain ⟨-, -, e0, e1, -⟩ := idx_facts t
  unfold iblk0
  rw [View.read_apply]
  show V c (Pipeline.arrRef spec0 1) _ = V c (Pipeline.arrRef spec0 1) _
  congr 1
  funext a
  apply Fin.ext
  match a with
  | ⟨0, _⟩ => show win0_1.index t 0 * 2000 + 1 * p.val = r.val; omega
  | ⟨1, _⟩ => show win0_1.index t 1 * 128 + 1 * k.val = k.val; omega

/-- The reciprocal-degree block at point `t` is rows `2000·t …` of its one-column array. -/
theorem blk2 (c : Dev nD) (t : Fin cfg0.N) (p : Fin 2000) (r : Fin 50000) (hr : r.val = t.val * 2000 + p.val) :
    (iblk0 V c 2 t : Vec Ideal S2000x1 .f32) (ix2 p 0) = ((V c (Pipeline.arrRef spec0 2)) : Mat 50000 1) (ix2 r 0) := by
  obtain ⟨-, -, -, -, e0, e1, -⟩ := idx_facts t
  unfold iblk0
  rw [View.read_apply]
  show V c (Pipeline.arrRef spec0 2) _ = V c (Pipeline.arrRef spec0 2) _
  congr 1
  funext a
  apply Fin.ext
  match a with
  | ⟨0, _⟩ => show win0_2.index t 0 * 2000 + 1 * p.val = r.val; omega
  | ⟨1, _⟩ => show win0_2.index t 1 * 1 + 1 * 0 = 0; omega

/-- The first weight matrix's block is the whole matrix at every point. -/
theorem blk3 (c : Dev nD) (t : Fin cfg0.N) :
    (iblk0 V c 3 t : Vec Ideal S128x128 .f32) = ((V c (Pipeline.arrRef spec0 3)) : Mat 128 128) := by
  obtain ⟨-, -, -, -, -, -, e0, e1, -⟩ := idx_facts t
  funext y
  unfold iblk0
  rw [View.read_apply]
  show V c (Pipeline.arrRef spec0 3) _ = V c (Pipeline.arrRef spec0 3) y
  congr 1
  funext a
  apply Fin.ext
  match a with
  | ⟨0, _⟩ => show win0_3.index t 0 * 128 + 1 * (y 0).val = (y 0).val; omega
  | ⟨1, _⟩ => show win0_3.index t 1 * 128 + 1 * (y 1).val = (y 1).val; omega

/-- The second weight matrix's block is the whole matrix at every point. -/
theorem blk4 (c : Dev nD) (t : Fin cfg0.N) :
    (iblk0 V c 4 t : Vec Ideal S128x128 .f32) = ((V c (Pipeline.arrRef spec0 4)) : Mat 128 128) := by
  obtain ⟨-, -, -, -, -, -, -, -, e0, e1, -⟩ := idx_facts t
  funext y
  unfold iblk0
  rw [View.read_apply]
  show V c (Pipeline.arrRef spec0 4) _ = V c (Pipeline.arrRef spec0 4) y
  congr 1
  funext a
  apply Fin.ext
  match a with
  | ⟨0, _⟩ => show win0_4.index t 0 * 128 + 1 * (y 0).val = (y 0).val; omega
  | ⟨1, _⟩ => show win0_4.index t 1 * 128 + 1 * (y 1).val = (y 1).val; omega

/-- The bias row's block is the whole row at every point. -/
theorem blk5 (c : Dev nD) (t : Fin cfg0.N) :
    (iblk0 V c 5 t : Vec Ideal S1x128 .f32) = ((V c (Pipeline.arrRef spec0 5)) : Mat 1 128) := by
  obtain ⟨-, -, -, -, -, -, -, -, -, -, e0, e1, -⟩ := idx_facts t
  funext y
  unfold iblk0
  rw [View.read_apply]
  show V c (Pipeline.arrRef spec0 5) _ = V c (Pipeline.arrRef spec0 5) y
  congr 1
  funext a
  apply Fin.ext
  match a with
  | ⟨0, _⟩ => show win0_5.index t 0 * 1 + 1 * (y 0).val = (y 0).val; omega
  | ⟨1, _⟩ => show win0_5.index t 1 * 128 + 1 * (y 1).val = (y 1).val; omega

/-- WHAT POINT `t` WRITES BACK is block `t` of `Cert.Sage.layer0` of the arrays as the region finds them. -/
theorem flushed_eq (c : Dev nD) (t : Fin cfg0.N) :
    (dat0 (F := Ideal) V c).flushed 6 t = ((cfg0.win 6).blk t).view.read (Elt Ideal) (Cert.Sage.layer0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) := by
  show (cfg0.win 6).cut (grid0.coords t) ((dat0 V c).after 6 t) = _
  rw [after0_6]
  unfold out0_6
  rw [View.canon_unit_zero hz]
  simp only [View.ld_unit_zero (S := S2000x128) hz, View.ld_unit_zero (S := S2000x1) hz,
    View.ld_unit_zero (S := S128x128) hz, View.ld_unit_zero (S := S1x128) hz]
  obtain ⟨-, -, -, -, -, -, -, -, -, -, -, -, e0, e1⟩ := idx_facts t
  funext j
  rw [View.read_apply]
  show k0_pay1 (iblk0 V c 0 t) (iblk0 V c 2 t) (iblk0 V c 1 t) (iblk0 V c 3 t) (iblk0 V c 4 t) (iblk0 V c 5 t) j
    = Cert.Sage.layer0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) (((cfg0.win 6).blk t).view.emb j)
  refine tile_entry (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))
    (iblk0 V c 0 t) (iblk0 V c 1 t) (iblk0 V c 2 t) (iblk0 V c 3 t) (iblk0 V c 4 t) (iblk0 V c 5 t) t.val
    (blk0 V c t) (blk1 V c t) (blk2 V c t) (blk3 V c t) (blk4 V c t) (blk5 V c t) j (((cfg0.win 6).blk t).view.emb j) ?_ ?_
  · show win0_6.index t 0 * 2000 + 1 * (j 0).val = t.val * 2000 + (j 0).val; omega
  · show win0_6.index t 1 * 128 + 1 * (j 1).val = (j 1).val; omega

/-- An index of the output array is in point `t`'s block iff each coordinate is in the block's range on its axis. -/
theorem mem_blk (t : Fin cfg0.N) (i : S50000x128.Idx) :
    i ∈ ((cfg0.win 6).blk t).view.set ↔ ∀ a : Fin 2, win0_6.index t a * S2000x128.size a ≤ (i a).val ∧ (i a).val < win0_6.index t a * S2000x128.size a + S2000x128.size a := by
  show i ∈ ((View.whole (win0_6.arr.view.ref)).slice (win0_6.rect t)).set ↔ _
  rw [View.set_slice_whole, Rect.mem_set_unit]
  exact Iff.rfl

/-- The cover by arithmetic: row `r` of the output is in the block of point `r / 2000`. -/
theorem cover (i : S50000x128.Idx) :
    ∃ t : Fin cfg0.N, (cfg0.win 6).flush t = true ∧ i ∈ ((cfg0.win 6).blk t).view.set := by
  have hN : cfg0.N = 25 := N_0
  have hi0 : (i 0).val < 50000 := (i 0).isLt
  have hi1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, -, -, e0, e1⟩ := idx_facts t
  refine ⟨t, flush0_6 t, ?_⟩
  rw [mem_blk]
  intro a
  match a with
  | ⟨0, _⟩ => show win0_6.index t 0 * 2000 ≤ (i 0).val ∧ (i 0).val < win0_6.index t 0 * 2000 + 2000; omega
  | ⟨1, _⟩ => show win0_6.index t 1 * 128 ≤ (i 1).val ∧ (i 1).val < win0_6.index t 1 * 128 + 128; omega

/-- THE OUTPUT ARRAY after the region: `Cert.Sage.layer0` of the six arrays the region found. -/
theorem final0 (c : Dev nD) :
    (dat0 (F := Ideal) V c).arrAt 6 cfg0.N = Cert.Sage.layer0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5)) :=
  (dat0 (F := Ideal) V c).arrAt_eq_of_cover 6 (Cert.Sage.layer0 (V c (Pipeline.arrRef spec0 0)) (V c (Pipeline.arrRef spec0 1)) (V c (Pipeline.arrRef spec0 2)) (V c (Pipeline.arrRef spec0 3)) (V c (Pipeline.arrRef spec0 4)) (V c (Pipeline.arrRef spec0 5))) (fun t _ => flushed_eq V c t) (fun i => cover i)

end Cert.KernelIdeal.Region0

end
-- ==== Proof.Region1.lean ====
/-
  Region 1 (the second SAGE layer's linear part): the output array after the region, index by index.

  The region runs one body over 25 grid points.  Point `t` finds in its staging buffers rows `2000·t … 2000·t + 1999`
  of the pre-summed neighbour features, of the node features and of the reciprocal degrees, and the whole of the two
  weight matrices and of the bias row (their blocks never move); it stores one 2000×128 tile and writes it back to rows
  `2000·t … 2000·t + 1999` of the output.  Entry `(p, q)` of the stored tile depends on row `p` of the three tiled blocks
  only, so it is entry `(2000·t + p, q)` of `Cert.Sage.conv` of the whole arrays; row `r` of the output lies in the block
  of point `r / 2000`, so the 25 blocks cover the array and it ends holding `Cert.Sage.conv` of the arrays the region found.
-/
import proofs.«143043_j20512763806339_2_alg».proof.Proof.Gen.KernelIdeal.Frame
import proofs.«143043_j20512763806339_2_alg».proof.Proof.Spec
import proofs.«143043_j20512763806339_2_alg».proof.Proof.SageTile
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.SageTile
open Cert.Sage (Mat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the tiled windows (neighbour features, node features, reciprocal
    degrees, output) sit at block `(t, 0)` at point `t`, the resident ones (weights, bias) at block `(0, 0)`. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- An entry of the stored tile is the matching entry of `Cert.Sage.conv` of the whole arrays, once each block is
    known to be its rows of its array: stated over plain blocks and arrays, `T` the point's number. -/
theorem tile_entry (A0 A1 : Mat 50000 128) (A2 : Mat 50000 1) (A3 A4 : Mat 128 128) (A5 : Mat 1 128)
    (x0 x1 : Vec Ideal S2000x128 .f32) (x2 : Vec Ideal S2000x1 .f32) (x3 x4 : Vec Ideal S128x128 .f32)
    (x5 : Vec Ideal S1x128 .f32) (T : ℕ)
    (h0 : ∀ (p : Fin 2000) (k : Fin 128) (r : Fin 50000), r.val = T * 2000 + p.val → x0 (ix2 p k) = A0 (ix2 r k))
    (h1 : ∀ (p : Fin 2000) (k : Fin 128) (r : Fin 50000), r.val = T * 2000 + p.val → x1 (ix2 p k) = A1 (ix2 r k))
    (h2 : ∀ (p : Fin 2000) (r : Fin 50000), r.val = T * 2000 + p.val → x2 (ix2 p 0) = A2 (ix2 r 0))
    (h3 : x3 = A3) (h4 : x4 = A4) (h5 : x5 = A5)
    (j : S2000x128.Idx) (i : S50000x128.Idx) (hi0 : (i 0).val = T * 2000 + (j 0).val) (hi1 : (i 1).val = (j 1).val) :
    k1_pay1 x0 x2 x1 x3 x4 x5 j = Cert.Sage.conv A0 A1 A2 A3 A4 A5 i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q = q' := (Fin.ext hi1).symm
  have hr : r.val = T * 2000 + p.val := hi0
  rw [k1_pay1_apply]
  show tileAt x0 x1 x2 x3 x4 x5 p q = Cert.Sage.convAt A0 A1 A2 A3 A4 A5 r q
  unfold tileAt Cert.Sage.convAt
  rw [h3, h4, h5]
  simp only [fun k => h0 p k r hr, fun k => h1 p k r hr, h2 p r hr]

/-- The neighbour-feature block at point `t` is rows `2000·t …` of its array. -/
theorem blk0 (c : Dev nD) (t : Fin cfg1.N) (p : Fin 2000) (k : Fin 128) (r : Fin 50000) (hr : r.val = t.val * 2000 + p.val) :
    (iblk1 V c 0 t : Vec Ideal S2000x128 .f32) (ix2 p k) = ((V c (Pipeline.arrRef spec1 0)) : Mat 50000 128) (ix2 r k) := by
  obtain ⟨e0, e1, -⟩ := idx_facts t
  unfold iblk1
  rw [View.read_apply]
  show V c (Pipeline.arrRef spec1 0) _ = V c (Pipeline.arrRef spec1 0) _
  congr 1
  funext a
  apply Fin.ext
  match a with
  | ⟨0, _⟩ => show win1_0.index t 0 * 2000 + 1 * p.val = r.val; omega
  | ⟨1, _⟩ => show win1_0.index t 1 * 128 + 1 * k.val = k.val; omega

/-- The node-feature block at point `t` is rows `2000·t …` of its array. -/
theorem blk1 (c : Dev nD) (t : Fin cfg1.N) (p : Fin 2000) (k : Fin 128) (r : Fin 50000) (hr : r.val = t.val * 2000 + p.val) :
    (iblk1 V c 1 t : Vec Ideal S2000x128 .f32) (ix2 p k) = ((V c (Pipeline.arrRef spec1 1)) : Mat 50000 128) (ix2 r k) := by
  obtain ⟨-, -, e0, e1, -⟩ := idx_facts t
  unfold iblk1
  rw [View.read_apply]
  show V c (Pipeline.arrRef spec1 1) _ = V c (Pipeline.arrRef spec1 1) _
  congr 1
  funext a
  apply Fin.ext
  match a with
  | ⟨0, _⟩ => show win1_1.index t 0 * 2000 + 1 * p.val = r.val; omega
  | ⟨1, _⟩ => show win1_1.index t 1 * 128 + 1 * k.val = k.val; omega

/-- The reciprocal-degree block at point `t` is rows `2000·t …` of its one-column array. -/
theorem blk2 (c : Dev nD) (t : Fin cfg1.N) (p : Fin 2000) (r : Fin 50000) (hr : r.val = t.val * 2000 + p.val) :
    (iblk1 V c 2 t : Vec Ideal S2000x1 .f32) (ix2 p 0) = ((V c (Pipeline.arrRef spec1 2)) : Mat 50000 1) (ix2 r 0) := by
  obtain ⟨-, -, -, -, e0, e1, -⟩ := idx_facts t
  unfold iblk1
  rw [View.read_apply]
  show V c (Pipeline.arrRef spec1 2) _ = V c (Pipeline.arrRef spec1 2) _
  congr 1
  funext a
  apply Fin.ext
  match a with
  | ⟨0, _⟩ => show win1_2.index t 0 * 2000 + 1 * p.val = r.val; omega
  | ⟨1, _⟩ => show win1_2.index t 1 * 1 + 1 * 0 = 0; omega

/-- The first weight matrix's block is the whole matrix at every point. -/
theorem blk3 (c : Dev nD) (t : Fin cfg1.N) :
    (iblk1 V c 3 t : Vec Ideal S128x128 .f32) = ((V c (Pipeline.arrRef spec1 3)) : Mat 128 128) := by
  obtain ⟨-, -, -, -, -, -, e0, e1, -⟩ := idx_facts t
  funext y
  unfold iblk1
  rw [View.read_apply]
  show V c (Pipeline.arrRef spec1 3) _ = V c (Pipeline.arrRef spec1 3) y
  congr 1
  funext a
  apply Fin.ext
  match a with
  | ⟨0, _⟩ => show win1_3.index t 0 * 128 + 1 * (y 0).val = (y 0).val; omega
  | ⟨1, _⟩ => show win1_3.index t 1 * 128 + 1 * (y 1).val = (y 1).val; omega

/-- The second weight matrix's block is the whole matrix at every point. -/
theorem blk4 (c : Dev nD) (t : Fin cfg1.N) :
    (iblk1 V c 4 t : Vec Ideal S128x128 .f32) = ((V c (Pipeline.arrRef spec1 4)) : Mat 128 128) := by
  obtain ⟨-, -, -, -, -, -, -, -, e0, e1, -⟩ := idx_facts t
  funext y
  unfold iblk1
  rw [View.read_apply]
  show V c (Pipeline.arrRef spec1 4) _ = V c (Pipeline.arrRef spec1 4) y
  congr 1
  funext a
  apply Fin.ext
  match a with
  | ⟨0, _⟩ => show win1_4.index t 0 * 128 + 1 * (y 0).val = (y 0).val; omega
  | ⟨1, _⟩ => show win1_4.index t 1 * 128 + 1 * (y 1).val = (y 1).val; omega

/-- The bias row's block is the whole row at every point. -/
theorem blk5 (c : Dev nD) (t : Fin cfg1.N) :
    (iblk1 V c 5 t : Vec Ideal S1x128 .f32) = ((V c (Pipeline.arrRef spec1 5)) : Mat 1 128) := by
  obtain ⟨-, -, -, -, -, -, -, -, -, -, e0, e1, -⟩ := idx_facts t
  funext y
  unfold iblk1
  rw [View.read_apply]
  show V c (Pipeline.arrRef spec1 5) _ = V c (Pipeline.arrRef spec1 5) y
  congr 1
  funext a
  apply Fin.ext
  match a with
  | ⟨0, _⟩ => show win1_5.index t 0 * 1 + 1 * (y 0).val = (y 0).val; omega
  | ⟨1, _⟩ => show win1_5.index t 1 * 128 + 1 * (y 1).val = (y 1).val; omega

/-- WHAT POINT `t` WRITES BACK is block `t` of `Cert.Sage.conv` of the arrays as the region finds them. -/
theorem flushed_eq (c : Dev nD) (t : Fin cfg1.N) :
    (dat1 (F := Ideal) V c).flushed 6 t = ((cfg1.win 6).blk t).view.read (Elt Ideal) (Cert.Sage.conv (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) := by
  show (cfg1.win 6).cut (grid1.coords t) ((dat1 V c).after 6 t) = _
  rw [after1_6]
  unfold out1_6
  rw [View.canon_unit_zero hz]
  simp only [View.ld_unit_zero (S := S2000x128) hz, View.ld_unit_zero (S := S2000x1) hz,
    View.ld_unit_zero (S := S128x128) hz, View.ld_unit_zero (S := S1x128) hz]
  obtain ⟨-, -, -, -, -, -, -, -, -, -, -, -, e0, e1⟩ := idx_facts t
  funext j
  rw [View.read_apply]
  show k1_pay1 (iblk1 V c 0 t) (iblk1 V c 2 t) (iblk1 V c 1 t) (iblk1 V c 3 t) (iblk1 V c 4 t) (iblk1 V c 5 t) j
    = Cert.Sage.conv (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) (((cfg1.win 6).blk t).view.emb j)
  refine tile_entry (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))
    (iblk1 V c 0 t) (iblk1 V c 1 t) (iblk1 V c 2 t) (iblk1 V c 3 t) (iblk1 V c 4 t) (iblk1 V c 5 t) t.val
    (blk0 V c t) (blk1 V c t) (blk2 V c t) (blk3 V c t) (blk4 V c t) (blk5 V c t) j (((cfg1.win 6).blk t).view.emb j) ?_ ?_
  · show win1_6.index t 0 * 2000 + 1 * (j 0).val = t.val * 2000 + (j 0).val; omega
  · show win1_6.index t 1 * 128 + 1 * (j 1).val = (j 1).val; omega

/-- An index of the output array is in point `t`'s block iff each coordinate is in the block's range on its axis. -/
theorem mem_blk (t : Fin cfg1.N) (i : S50000x128.Idx) :
    i ∈ ((cfg1.win 6).blk t).view.set ↔ ∀ a : Fin 2, win1_6.index t a * S2000x128.size a ≤ (i a).val ∧ (i a).val < win1_6.index t a * S2000x128.size a + S2000x128.size a := by
  show i ∈ ((View.whole (win1_6.arr.view.ref)).slice (win1_6.rect t)).set ↔ _
  rw [View.set_slice_whole, Rect.mem_set_unit]
  exact Iff.rfl

/-- The cover by arithmetic: row `r` of the output is in the block of point `r / 2000`. -/
theorem cover (i : S50000x128.Idx) :
    ∃ t : Fin cfg1.N, (cfg1.win 6).flush t = true ∧ i ∈ ((cfg1.win 6).blk t).view.set := by
  have hN : cfg1.N = 25 := N_1
  have hi0 : (i 0).val < 50000 := (i 0).isLt
  have hi1 : (i 1).val < 128 := (i 1).isLt
  obtain ⟨t, ht⟩ : ∃ t : Fin cfg1.N, t.val = (i 0).val / 2000 := ⟨⟨(i 0).val / 2000, by rw [hN]; omega⟩, rfl⟩
  obtain ⟨-, -, -, -, -, -, -, -, -, -, -, -, e0, e1⟩ := idx_facts t
  refine ⟨t, flush1_6 t, ?_⟩
  rw [mem_blk]
  intro a
  match a with
  | ⟨0, _⟩ => show win1_6.index t 0 * 2000 ≤ (i 0).val ∧ (i 0).val < win1_6.index t 0 * 2000 + 2000; omega
  | ⟨1, _⟩ => show win1_6.index t 1 * 128 ≤ (i 1).val ∧ (i 1).val < win1_6.index t 1 * 128 + 128; omega

/-- THE OUTPUT ARRAY after the region: `Cert.Sage.conv` of the six arrays the region found. -/
theorem final1 (c : Dev nD) :
    (dat1 (F := Ideal) V c).arrAt 6 cfg1.N = Cert.Sage.conv (V c (Pipeline.arrRef spec1 0)) (V c (Pipeline.arrRef spec1 1)) (V c (Pipeline.arrRef spec1 2)) (V c (Pipeline.arrRef spec1 3)) (V c (Pipeline.arrRef spec1 4)) (V c (Pipeline.arrRef spec1 5)) :=
  (dat1 (F := Ideal) V c).arrAt_eq_of_cover 6 (Cert.Sage.conv (V c (Pipeline.arrRef spec1 0)) (V c (Pipeline.arrRef spec1 1)) (V c (Pipeline.arrRef spec1 2)) (V c (Pipeline.arrRef spec1 3)) (V c (Pipeline.arrRef spec1 4)) (V c (Pipeline.arrRef spec1 5))) (fun t _ => flushed_eq V c t) (fun i => cover i)

end Cert.KernelIdeal.Region1

end
-- ==== Proof.Tile.lean ====
import proofs.«143043_j20512763806339_2_alg».proof.Proof.Gen.KernelIdeal.Frame
import proofs.«143043_j20512763806339_2_alg».proof.Proof.Spec
import Idealize.ShloMosaic.Lib.Pipeline.Value
import Idealize.ShloMosaic.Lib.ValueLayout
import Idealize.ShloMosaic.PureOps.Ideal.Laws

/-! # Readings shared by the dense stages

A column broadcast over the lanes, a vector cast to a column, and the [2000,128] by [128,64] product at an index, each
read at an index given by coordinates. -/

set_option maxRecDepth 16384

noncomputable section

namespace Cert.KernelIdeal.Tile

open Cert.KernelIdeal Cert.KernelIdeal.Gen
open Idealize.ShloMosaic Idealize.ShloMosaic.TcCoe Idealize.ShloMosaic.ValueIdx

variable {α : Type}

theorem hz : (![0, 0] : Fin 2 → Nat) = fun _ => 0 := funext fun a => by fin_cases a <;> rfl

/-- A column [a, 1] broadcast to [a, b] reads, at (p, q), the column's entry of row p. -/
theorem broadcastTo_a1_ab_apply {a b : ℕ} (v : (⟨2, ![a, 1]⟩ : Shape).Idx → α) (h : (⟨2, ![a, 1]⟩ : Shape).Broadcasts ⟨2, ![a, b]⟩)
    (p : Fin a) (q : Fin b) : broadcastTo ⟨2, ![a, b]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    split
    · have := p.isLt; omega
    · rfl
  | ⟨1, _⟩ => rfl

/-- An [a] array cast to the column [a, 1] reads, at (p, u), the operand at p. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-! ## The product of a [2000,128] tile with a [128,64] matrix -/

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl

theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q

theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q

theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product from a zero accumulator, at row p and column q: the sum over the 128 contracted positions. -/
theorem matmul_at {φ₁ φ₂ : FTy} (l : FVec Ideal S2000x128 φ₁) (r : FVec Ideal S128x64 φ₂) (p : Fin 2000) (q : Fin 64) :
    matmul dot_S2000x128_S128x64_S2000x64_1_0_0_1_n_n none l r (constant (F := Ideal) S2000x64 .f32 0x00000000#32) (ix2 p q)
      = ∑ k : Fin 128, l (ix2 p k) * r (ix2 k q) := by
  simp only [matmul]
  rw [Ideal.matmul_constant_zero_apply, ← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

end Cert.KernelIdeal.Tile

end
-- ==== Proof.Region2.lean ====
import proofs.«143043_j20512763806339_2_alg».proof.Proof.Tile

/-! # The third launch: the per-column affine map with its residual, and its projection

Each of the 25 grid points reads a tile of 2000 rows of the two node arrays and the resident scale row, bias row and
weight matrix, and writes back the same rows of the two outputs; the tiles cover the 50000 rows. -/

set_option maxRecDepth 16384

noncomputable section

namespace Cert.KernelIdeal.Region2

open Cert.KernelIdeal Cert.KernelIdeal.Gen Cert.KernelIdeal.Tile
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

/-- The first output's tile at row p and column q. -/
theorem pay1_at (x0 x1 : Vec Ideal S2000x128 .f32) (x2 x3 : Vec Ideal S1x128 .f32) (p : Fin 2000) (q : Fin 128) :
    k2_pay1 x0 x2 x3 x1 (ix2 p q) = max (x0 (ix2 p q) * x2 (ix2 0 q) + x3 (ix2 0 q)) 0 + x1 (ix2 p q) := by
  unfold k2_pay1
  simp only [shapeCast_self]
  show max (x0 (ix2 p q) * broadcastTo S2000x128 x2 _ (ix2 p q) + broadcastTo S2000x128 x3 _ (ix2 p q)) (Ideal.ofBits .f32 0x00000000#32) + x1 (ix2 p q) = _
  rw [broadcastTo_1b_ab_apply, broadcastTo_1b_ab_apply, Ideal.ofBits_zero_f32]

/-- The second output's tile at row p and column q: the first output's row p against the weight's column q. -/
theorem pay2_at (x0 x1 : Vec Ideal S2000x128 .f32) (x2 x3 : Vec Ideal S1x128 .f32) (x4 : Vec Ideal S128x64 .f32) (p : Fin 2000) (q : Fin 64) :
    k2_pay2 x0 x2 x3 x1 x4 (ix2 p q) = ∑ k : Fin 128, k2_pay1 x0 x2 x3 x1 (ix2 p k) * x4 (ix2 k q) := by
  unfold k2_pay2
  exact matmul_at (φ₁ := .bf16) (φ₂ := .bf16) (truncf .bf16 (k2_pay1 x0 x2 x3 x1) bitsLt_bf16_f32) (truncf .bf16 x4 bitsLt_bf16_f32) p q

/-- The printed index maps over the grid: the tiled windows move down the rows with the point, the resident ones stay. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0
    ∧ win2_6.index t (0 : Fin 2) = t.val ∧ win2_6.index t (1 : Fin 2) = 0 :=
  (by decide +kernel : ∀ t : Fin grid2.N, _)

/-! ## The windows' blocks, read at an index -/

/-- The first node array's tile at point t is rows 2000 t … 2000 t + 1999 of the array. -/
theorem blk0_at (c : Dev nD) (t : Fin cfg2.N) (j : S2000x128.Idx) (i : S50000x128.Idx)
    (hi0 : (i 0).val = t.val * 2000 + (j 0).val) (hi1 : (i 1).val = (j 1).val) :
    (iblk2 V c 0 t : Vec Ideal S2000x128 .f32) j = (V c (Pipeline.arrRef spec2 0) : S50000x128.Idx → Elt Ideal .f32) i := by
  obtain ⟨e0, e1, -⟩ := idx2 t
  unfold iblk2
  rw [View.read_apply]
  show V c (Pipeline.arrRef spec2 0) _ = V c (Pipeline.arrRef spec2 0) _
  refine congrArg _ (funext fun a => Fin.ext ?_)
  match a with
  | ⟨0, _⟩ => show win2_0.index t (0 : Fin 2) * 2000 + 1 * (j 0).val = (i 0).val; rw [e0, hi0]; omega
  | ⟨1, _⟩ => show win2_0.index t (1 : Fin 2) * 128 + 1 * (j 1).val = (i 1).val; rw [e1, hi1]; omega

/-- The second node array's tile likewise. -/
theorem blk1_at (c : Dev nD) (t : Fin cfg2.N) (j : S2000x128.Idx) (i : S50000x128.Idx)
    (hi0 : (i 0).val = t.val * 2000 + (j 0).val) (hi1 : (i 1).val = (j 1).val) :
    (iblk2 V c 1 t : Vec Ideal S2000x128 .f32) j = (V c (Pipeline.arrRef spec2 1) : S50000x128.Idx → Elt Ideal .f32) i := by
  obtain ⟨-, -, e0, e1, -⟩ := idx2 t
  unfold iblk2
  rw [View.read_apply]
  show V c (Pipeline.arrRef spec2 1) _ = V c (Pipeline.arrRef spec2 1) _
  refine congrArg _ (funext fun a => Fin.ext ?_)
  match a with
  | ⟨0, _⟩ => show win2_1.index t (0 : Fin 2) * 2000 + 1 * (j 0).val = (i 0).val; rw [e0, hi0]; omega
  | ⟨1, _⟩ => show win2_1.index t (1 : Fin 2) * 128 + 1 * (j 1).val = (i 1).val; rw [e1, hi1]; omega

/-- The resident scale row is the whole array at every point. -/
theorem blk2_eq (c : Dev nD) (t : Fin cfg2.N) :
    (iblk2 V c 2 t : Vec Ideal S1x128 .f32) = (V c (Pipeline.arrRef spec2 2) : S1x128.Idx → Elt Ideal .f32) := by
  obtain ⟨-, -, -, -, e0, e1, -⟩ := idx2 t
  funext j
  unfold iblk2
  rw [View.read_apply]
  show V c (Pipeline.arrRef spec2 2) _ = V c (Pipeline.arrRef spec2 2) _
  refine congrArg _ (funext fun a => Fin.ext ?_)
  match a with
  | ⟨0, _⟩ => show win2_2.index t (0 : Fin 2) * 1 + 1 * (j 0).val = (j 0).val; rw [e0]; omega
  | ⟨1, _⟩ => show win2_2.index t (1 : Fin 2) * 128 + 1 * (j 1).val = (j 1).val; rw [e1]; omega

/-- The resident bias row likewise. -/
theorem blk3_eq (c : Dev nD) (t : Fin cfg2.N) :
    (iblk2 V c 3 t : Vec Ideal S1x128 .f32) = (V c (Pipeline.arrRef spec2 3) : S1x128.Idx → Elt Ideal .f32) := by
  obtain ⟨-, -, -, -, -, -, e0, e1, -⟩ := idx2 t
  funext j
  unfold iblk2
  rw [View.read_apply]
  show V c (Pipeline.arrRef spec2 3) _ = V c (Pipeline.arrRef spec2 3) _
  refine congrArg _ (funext fun a => Fin.ext ?_)
  match a with
  | ⟨0, _⟩ => show win2_3.index t (0 : Fin 2) * 1 + 1 * (j 0).val = (j 0).val; rw [e0]; omega
  | ⟨1, _⟩ => show win2_3.index t (1 : Fin 2) * 128 + 1 * (j 1).val = (j 1).val; rw [e1]; omega

/-- The resident weight matrix likewise. -/
theorem blk4_eq (c : Dev nD) (t : Fin cfg2.N) :
    (iblk2 V c 4 t : Vec Ideal S128x64 .f32) = (V c (Pipeline.arrRef spec2 4) : S128x64.Idx → Elt Ideal .f32) := by
  obtain ⟨-, -, -, -, -, -, -, -, e0, e1, -⟩ := idx2 t
  funext j
  unfold iblk2
  rw [View.read_apply]
  show V c (Pipeline.arrRef spec2 4) _ = V c (Pipeline.arrRef spec2 4) _
  refine congrArg _ (funext fun a => Fin.ext ?_)
  match a with
  | ⟨0, _⟩ => show win2_4.index t (0 : Fin 2) * 128 + 1 * (j 0).val = (j 0).val; rw [e0]; omega
  | ⟨1, _⟩ => show win2_4.index t (1 : Fin 2) * 64 + 1 * (j 1).val = (j 1).val; rw [e1]; omega

/-! ## The first output -/

/-- A tile of the first output, at a tile index j that sits at index i of the array. -/
theorem tile5_at (x0 x1 : Vec Ideal S2000x128 .f32) (h x : Cert.Sage.Mat 50000 128) (sc bi : Cert.Sage.Mat 1 128)
    (j : S2000x128.Idx) (i : S50000x128.Idx) (hq : (i 1).val = (j 1).val) (h0 : x0 j = h i) (h1 : x1 j = x i) :
    k2_pay1 x0 sc bi x1 j = Cert.Sage.bnres h x sc bi i := by
  obtain ⟨p, q, rfl⟩ : ∃ (p : Fin 2000) (q : Fin 128), j = ix2 p q := ⟨j 0, j 1, eq_ix2 j⟩
  obtain ⟨r, q', rfl⟩ : ∃ (r : Fin 50000) (q' : Fin 128), i = ix2 r q' := ⟨i 0, i 1, eq_ix2 i⟩
  obtain rfl : q' = q := Fin.ext hq
  rw [pay1_at, h0, h1]
  rfl

/-- Where an element of point t's tile of the first output sits in the array. -/
theorem emb5 (t : Fin cfg2.N) (j : S2000x128.Idx) :
    ((((cfg2.win 5).blk t).view.emb j) 0).val = t.val * 2000 + (j 0).val ∧ ((((cfg2.win 5).blk t).view.emb j) 1).val = (j 1).val := by
  obtain ⟨-, -, -, -, -, -, -, -, -, -, e0, e1, -⟩ := idx2 t
  constructor
  · show win2_5.index t (0 : Fin 2) * 2000 + 1 * (j 0).val = _; rw [e0]; omega
  · show win2_5.index t (1 : Fin 2) * 128 + 1 * (j 1).val = _; rw [e1]; omega

/-- A write-back of a tile that agrees, element by element, with an array at the tile's place writes the array's tile. -/
theorem cut5_eq_read (t : Fin cfg2.N) (X : S2000x128.Idx → EReal) (G : S50000x128.Idx → EReal)
    (h : ∀ j : S2000x128.Idx, X j = G (((cfg2.win 5).blk t).view.emb j)) :
    (cfg2.win 5).cut (grid2.coords t) X = ((cfg2.win 5).blk t).view.read (Elt Ideal) G := funext h

/-- What point t writes back into the first output is the tile of the affine-clamp-residual array. -/
theorem flushed5_eq (c : Dev nD) (t : Fin cfg2.N) :
    (dat2 (F := Ideal) V c).flushed 5 t = ((cfg2.win 5).blk t).view.read (Elt Ideal)
      (Cert.Sage.bnres (V c (Pipeline.arrRef spec2 0)) (V c (Pipeline.arrRef spec2 1)) (V c (Pipeline.arrRef spec2 2)) (V c (Pipeline.arrRef spec2 3))) := by
  show (cfg2.win 5).cut (grid2.coords t) ((dat2 V c).after 5 t) = _
  rw [after2_5]
  unfold out2_5
  rw [View.canon_unit_zero hz]
  simp only [View.ld_unit_zero (S := S2000x128) hz, View.ld_unit_zero (S := S1x128) hz]
  rw [blk2_eq, blk3_eq]
  refine cut5_eq_read t _ _ fun j => ?_
  exact tile5_at (iblk2 V c 0 t) (iblk2 V c 1 t) (V c (Pipeline.arrRef spec2 0)) (V c (Pipeline.arrRef spec2 1)) (V c (Pipeline.arrRef spec2 2)) (V c (Pipeline.arrRef spec2 3))
    j (((cfg2.win 5).blk t).view.emb j) (emb5 t j).2 (blk0_at V c t j _ (emb5 t j).1 (emb5 t j).2) (blk1_at V c t j _ (emb5 t j).1 (emb5 t j).2)

/-- An index of the first output is in point t's tile iff each coordinate is in the tile's range on its axis. -/
theorem mem_blk5 (t : Fin cfg2.N) (i : S50000x128.Idx) :
    i ∈ ((cfg2.win 5).blk t).view.set ↔ ∀ a : Fin 2, win2_5.index t a * S2000x128.size a ≤ (i a).val ∧ (i a).val < win2_5.index t a * S2000x128.size a + S2000x128.size a := by
  show i ∈ ((View.whole main_v49_0).slice (win2_5.rect t)).set ↔ _
  rw [View.set_slice_whole, Rect.mem_set_unit]
  exact Iff.rfl

/-- Row r of the first output is in the tile of point r / 2000. -/
theorem cover5 (i : S50000x128.Idx) : ∃ t : Fin cfg2.N, (cfg2.win 5).flush t = true ∧ i ∈ ((cfg2.win 5).blk t).view.set := by
  have hi0 : (i 0).val < 50000 := (i 0).isLt
  have hi1 : (i 1).val < 128 := (i 1).isLt
  have hN : cfg2.N = 25 := N_2
  let t : Fin cfg2.N := ⟨(i 0).val / 2000, by rw [hN]; omega⟩
  obtain ⟨-, -, -, -, -, -, -, -, -, -, e0, e1, -⟩ := idx2 t
  have ht : t.val = (i 0).val / 2000 := rfl
  refine ⟨t, flush2_5 t, ?_⟩
  rw [mem_blk5]
  intro a
  match a with
  | ⟨0, _⟩ => show win2_5.index t (0 : Fin 2) * 2000 ≤ (i 0).val ∧ (i 0).val < win2_5.index t (0 : Fin 2) * 2000 + 2000; rw [e0, ht]; omega
  | ⟨1, _⟩ => show win2_5.index t (1 : Fin 2) * 128 ≤ (i 1).val ∧ (i 1).val < win2_5.index t (1 : Fin 2) * 128 + 128; rw [e1]; omega

/-- The first output after the launch: the affine map per column, clamped below at zero, plus the residual. -/
theorem final2_5 (c : Dev nD) :
    (dat2 (F := Ideal) V c).arrAt 5 cfg2.N = Cert.Sage.bnres (V c (Pipeline.arrRef spec2 0)) (V c (Pipeline.arrRef spec2 1)) (V c (Pipeline.arrRef spec2 2)) (V c (Pipeline.arrRef spec2 3)) :=
  (dat2 (F := Ideal) V c).arrAt_eq_of_cover 5 _ (fun t _ => flushed5_eq V c t) cover5

/-! ## The second output -/

/-- A tile of the second output, at a tile index j that sits at index i of the array, given the first output's row. -/
theorem tile6_at (x0 x1 : Vec Ideal S2000x128 .f32) (h x : Cert.Sage.Mat 50000 128) (sc bi : Cert.Sage.Mat 1 128) (w : Cert.Sage.Mat 128 64)
    (j : S2000x64.Idx) (i : S50000x64.Idx) (hq : (i 1).val = (j 1).val)
    (hrow : ∀ k : Fin 128, k2_pay1 x0 sc bi x1 (ix2 (j 0) k) = Cert.Sage.bnres h x sc bi (ix2 (i 0) k)) :
    k2_pay2 x0 sc bi x1 w j = Cert.Sage.proj (Cert.Sage.bnres h x sc bi) w i := by
  obtain ⟨p, q, rfl⟩ : ∃ (p : Fin 2000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q = q' := Fin.ext hq.symm
  rw [pay2_at]
  show _ = ∑ k : Fin 128, Cert.Sage.bnres h x sc bi (ix2 r k) * w (ix2 k q)
  exact Finset.sum_congr rfl fun k _ => congrArg (· * w (ix2 k q)) (hrow k)

/-- Where an element of point t's tile of the second output sits in the array. -/
theorem emb6 (t : Fin cfg2.N) (j : S2000x64.Idx) :
    ((((cfg2.win 6).blk t).view.emb j) 0).val = t.val * 2000 + (j 0).val ∧ ((((cfg2.win 6).blk t).view.emb j) 1).val = (j 1).val := by
  obtain ⟨-, -, -, -, -, -, -, -, -, -, -, -, e0, e1⟩ := idx2 t
  constructor
  · show win2_6.index t (0 : Fin 2) * 2000 + 1 * (j 0).val = _; rw [e0]; omega
  · show win2_6.index t (1 : Fin 2) * 64 + 1 * (j 1).val = _; rw [e1]; omega

/-- A write-back of a tile that agrees, element by element, with an array at the tile's place writes the array's tile. -/
theorem cut6_eq_read (t : Fin cfg2.N) (X : S2000x64.Idx → EReal) (G : S50000x64.Idx → EReal)
    (h : ∀ j : S2000x64.Idx, X j = G (((cfg2.win 6).blk t).view.emb j)) :
    (cfg2.win 6).cut (grid2.coords t) X = ((cfg2.win 6).blk t).view.read (Elt Ideal) G := funext h

/-- What point t writes back into the second output is the tile of the projected array. -/
theorem flushed6_eq (c : Dev nD) (t : Fin cfg2.N) :
    (dat2 (F := Ideal) V c).flushed 6 t = ((cfg2.win 6).blk t).view.read (Elt Ideal)
      (Cert.Sage.proj (Cert.Sage.bnres (V c (Pipeline.arrRef spec2 0)) (V c (Pipeline.arrRef spec2 1)) (V c (Pipeline.arrRef spec2 2)) (V c (Pipeline.arrRef spec2 3))) (V c (Pipeline.arrRef spec2 4))) := by
  show (cfg2.win 6).cut (grid2.coords t) ((dat2 V c).after 6 t) = _
  rw [after2_6]
  unfold out2_6
  rw [View.canon_unit_zero hz]
  simp only [View.ld_unit_zero (S := S2000x128) hz, View.ld_unit_zero (S := S1x128) hz, View.ld_unit_zero (S := S128x64) hz]
  rw [blk2_eq, blk3_eq, blk4_eq]
  refine cut6_eq_read t _ _ fun j => ?_
  refine tile6_at (iblk2 V c 0 t) (iblk2 V c 1 t) (V c (Pipeline.arrRef spec2 0)) (V c (Pipeline.arrRef spec2 1)) (V c (Pipeline.arrRef spec2 2)) (V c (Pipeline.arrRef spec2 3)) (V c (Pipeline.arrRef spec2 4))
    j (((cfg2.win 6).blk t).view.emb j) (emb6 t j).2 fun k => ?_
  exact tile5_at (iblk2 V c 0 t) (iblk2 V c 1 t) (V c (Pipeline.arrRef spec2 0)) (V c (Pipeline.arrRef spec2 1)) (V c (Pipeline.arrRef spec2 2)) (V c (Pipeline.arrRef spec2 3))
    (ix2 (j 0) k) (ix2 ((((cfg2.win 6).blk t).view.emb j) 0) k) rfl
    (blk0_at V c t (ix2 (j 0) k) (ix2 ((((cfg2.win 6).blk t).view.emb j) 0) k) (emb6 t j).1 rfl)
    (blk1_at V c t (ix2 (j 0) k) (ix2 ((((cfg2.win 6).blk t).view.emb j) 0) k) (emb6 t j).1 rfl)

/-- An index of the second output is in point t's tile iff each coordinate is in the tile's range on its axis. -/
theorem mem_blk6 (t : Fin cfg2.N) (i : S50000x64.Idx) :
    i ∈ ((cfg2.win 6).blk t).view.set ↔ ∀ a : Fin 2, win2_6.index t a * S2000x64.size a ≤ (i a).val ∧ (i a).val < win2_6.index t a * S2000x64.size a + S2000x64.size a := by
  show i ∈ ((View.whole main_v49_1).slice (win2_6.rect t)).set ↔ _
  rw [View.set_slice_whole, Rect.mem_set_unit]
  exact Iff.rfl

/-- Row r of the second output is in the tile of point r / 2000. -/
theorem cover6 (i : S50000x64.Idx) : ∃ t : Fin cfg2.N, (cfg2.win 6).flush t = true ∧ i ∈ ((cfg2.win 6).blk t).view.set := by
  have hi0 : (i 0).val < 50000 := (i 0).isLt
  have hi1 : (i 1).val < 64 := (i 1).isLt
  have hN : cfg2.N = 25 := N_2
  let t : Fin cfg2.N := ⟨(i 0).val / 2000, by rw [hN]; omega⟩
  obtain ⟨-, -, -, -, -, -, -, -, -, -, -, -, e0, e1⟩ := idx2 t
  have ht : t.val = (i 0).val / 2000 := rfl
  refine ⟨t, flush2_6 t, ?_⟩
  rw [mem_blk6]
  intro a
  match a with
  | ⟨0, _⟩ => show win2_6.index t (0 : Fin 2) * 2000 ≤ (i 0).val ∧ (i 0).val < win2_6.index t (0 : Fin 2) * 2000 + 2000; rw [e0, ht]; omega
  | ⟨1, _⟩ => show win2_6.index t (1 : Fin 2) * 64 ≤ (i 1).val ∧ (i 1).val < win2_6.index t (1 : Fin 2) * 64 + 64; rw [e1]; omega

/-- The second output after the launch: the first output times the weight matrix. -/
theorem final2_6 (c : Dev nD) :
    (dat2 (F := Ideal) V c).arrAt 6 cfg2.N = Cert.Sage.proj (Cert.Sage.bnres (V c (Pipeline.arrRef spec2 0)) (V c (Pipeline.arrRef spec2 1)) (V c (Pipeline.arrRef spec2 2)) (V c (Pipeline.arrRef spec2 3))) (V c (Pipeline.arrRef spec2 4)) :=
  (dat2 (F := Ideal) V c).arrAt_eq_of_cover 6 _ (fun t _ => flushed6_eq V c t) cover6

end Cert.KernelIdeal.Region2

end
-- ==== Proof.Pay3.lean ====
import proofs.«143043_j20512763806339_2_alg».proof.Proof.Tile
import proofs.«143043_j20512763806339_2_alg».proof.Proof.Gen.KernelIdeal.Skeleton

/-! # The last stage's payload at an index

The tile's value at row `p`, column `q` is the row-wise log-softmax of the logits: the logit less the row's maximum,
less the logarithm of the row's sum of exponentials of such differences.  A logit is the pre-projected entry times the
row's reciprocal degree, plus the row of the tile times the weight column, plus the bias. -/

set_option maxRecDepth 16384

noncomputable section

namespace Cert.KernelIdeal.Pay3

open Cert.KernelIdeal Cert.KernelIdeal.Gen Cert.KernelIdeal.Tile Idealize.ShloMosaic Idealize.ShloMosaic.ValueIdx
open scoped BigOperators

variable (x0 : Vec Ideal S2000x64 .f32) (x2 : Vec Ideal S2000x1 .f32) (x6 : Vec Ideal S2000x128 .f32)
  (x9 : Vec Ideal S128x64 .f32) (x13 : Vec Ideal S1x64 .f32)

/-- The logit at row `p`, column `q`. -/
def logit (x0 : Vec Ideal S2000x64 .f32) (x2 : Vec Ideal S2000x1 .f32) (x6 : Vec Ideal S2000x128 .f32)
    (x9 : Vec Ideal S128x64 .f32) (x13 : Vec Ideal S1x64 .f32) (p : Fin 2000) (q : Fin 64) : EReal :=
  (x0 (ix2 p q) * x2 (ix2 p 0) + ∑ k : Fin 128, x6 (ix2 p k) * x9 (ix2 k q)) + x13 (ix2 0 q)

/-- The maximum of row `p`'s logits. -/
def rmax (x0 : Vec Ideal S2000x64 .f32) (x2 : Vec Ideal S2000x1 .f32) (x6 : Vec Ideal S2000x128 .f32)
    (x9 : Vec Ideal S128x64 .f32) (x13 : Vec Ideal S1x64 .f32) (p : Fin 2000) : EReal :=
  (Finset.univ : Finset (Fin 64)).fold max ⊥ (fun j => logit x0 x2 x6 x9 x13 p j)

/-- The logits as an array. -/
def pre : FVec Ideal S2000x64 .f32 :=
  addf (addf (mulf x0 (broadcastTo S2000x64 x2 broadcasts_S2000x1_S2000x64))
      (matmul dot_S2000x128_S128x64_S2000x64_1_0_0_1_n_n none (truncf .bf16 x6 bitsLt_bf16_f32)
        (truncf .bf16 x9 bitsLt_bf16_f32) (constant S2000x64 .f32 0x00000000#32)))
    (broadcastTo S2000x64 x13 broadcasts_S1x64_S2000x64)

/-- The logits less their row maxima, as an array. -/
def shifted : FVec Ideal S2000x64 .f32 :=
  subf (pre x0 x2 x6 x9 x13) (broadcastTo S2000x64 (shapeCast S2000x1
    (multiReduction .maximumf [1] S2000 (pre x0 x2 x6 x9 x13) 0xFF800000#32 reduces_S2000x64_S2000 (.inl rfl) rfl)
    shapeCasts_S2000_S2000x1) broadcasts_S2000x1_S2000x64)

theorem pay3_eq : k3_pay1 x0 x2 x6 x9 x13
    = subf (shifted x0 x2 x6 x9 x13) (broadcastTo S2000x64 (log (shapeCast S2000x1
        (multiReduction .add [1] S2000 (exp (shifted x0 x2 x6 x9 x13)) 0x00000000#32 reduces_S2000x64_S2000 (.inl rfl) rfl)
        shapeCasts_S2000_S2000x1)) broadcasts_S2000x1_S2000x64) := by
  unfold k3_pay1 shifted pre
  simp only [shapeCast_self]

theorem pre_at (p : Fin 2000) (q : Fin 64) : pre x0 x2 x6 x9 x13 (ix2 p q) = logit x0 x2 x6 x9 x13 p q := by
  unfold pre logit
  rw [addf_apply, addf_apply, mulf_apply, broadcastTo_a1_ab_apply, matmul_at, broadcastTo_1b_ab_apply]
  rfl

/-- The word `0xFF800000` is `-∞`. -/
theorem ofBits_negInf : Ideal.ofBits .f32 0xFF800000#32 = (⊥ : EReal) := by
  simp [Ideal.ofBits, Ideal.ieee]

/-- The index a row and a column of the tile insert into the row's reduced index. -/
theorem lift_row (p : Fin 2000) (j : Fin 64) : reduces_S2000x64_S2000.lift (ix1 p) j = ix2 p j :=
  funext fun a => Fin.ext (match a with | ⟨0, _⟩ => rfl | ⟨1, _⟩ => rfl)

theorem rowmax_at (p : Fin 2000) :
    multiReduction .maximumf [1] S2000 (pre x0 x2 x6 x9 x13) 0xFF800000#32 reduces_S2000x64_S2000 (.inl rfl) rfl (ix1 p)
      = rmax x0 x2 x6 x9 x13 p := by
  refine (Ideal.multiReduction_maximumf_single (pre x0 x2 x6 x9 x13) 0xFF800000#32 reduces_S2000x64_S2000
    (.inl rfl) rfl (ix1 p)).trans ?_
  show (Finset.univ : Finset (Fin 64)).fold max (Ideal.ofBits .f32 0xFF800000#32)
    (fun j => pre x0 x2 x6 x9 x13 (reduces_S2000x64_S2000.lift (ix1 p) j)) = _
  rw [ofBits_negInf]
  exact congrArg (fun f => (Finset.univ : Finset (Fin 64)).fold max ⊥ f)
    (funext fun j => (congrArg (pre x0 x2 x6 x9 x13) (lift_row p j)).trans (pre_at x0 x2 x6 x9 x13 p j))

theorem shifted_at (p : Fin 2000) (q : Fin 64) :
    shifted x0 x2 x6 x9 x13 (ix2 p q) = logit x0 x2 x6 x9 x13 p q - rmax x0 x2 x6 x9 x13 p := by
  unfold shifted
  rw [subf_apply, pre_at, broadcastTo_a1_ab_apply, shapeCast_a_a1_apply, rowmax_at]

theorem rowsum_at (A : FVec Ideal S2000x64 .f32) (p : Fin 2000) :
    multiReduction .add [1] S2000 A 0x00000000#32 reduces_S2000x64_S2000 (.inl rfl) rfl (ix1 p)
      = ∑ j : Fin 64, A (ix2 p j) := by
  refine (Ideal.multiReduction_add_single A 0x00000000#32 reduces_S2000x64_S2000 (.inl rfl) rfl (ix1 p)).trans ?_
  exact Finset.sum_congr rfl fun j _ => congrArg A (lift_row p j)

theorem pay3_at (p : Fin 2000) (q : Fin 64) :
    k3_pay1 x0 x2 x6 x9 x13 (ix2 p q)
      = (logit x0 x2 x6 x9 x13 p q - rmax x0 x2 x6 x9 x13 p)
        - Ideal.log (∑ j : Fin 64, Ideal.exp (logit x0 x2 x6 x9 x13 p j - rmax x0 x2 x6 x9 x13 p)) := by
  rw [pay3_eq, subf_apply, shifted_at, broadcastTo_a1_ab_apply]
  show _ - Ideal.log (shapeCast S2000x1 (multiReduction .add [1] S2000 (exp (shifted x0 x2 x6 x9 x13)) 0x00000000#32
    reduces_S2000x64_S2000 (.inl rfl) rfl) shapeCasts_S2000_S2000x1 (ix2 p (0 : Fin 1))) = _
  rw [shapeCast_a_a1_apply, rowsum_at]
  exact congrArg (fun t => _ - Ideal.log t) (Finset.sum_congr rfl fun j _ =>
    congrArg Ideal.exp (shifted_at x0 x2 x6 x9 x13 p j))

end Cert.KernelIdeal.Pay3

end
-- ==== Proof.Region3.lean ====
/-
  Region 3 (the last layer: logits and row-wise log-softmax): the output array after the region, index by index.

  The region runs one body over 25 grid points.  Point `t` finds in its staging buffers rows `2000·t … 2000·t + 1999`
  of the pre-summed projected neighbour features, of the hidden features and of the reciprocal degrees, and the whole
  of the weight matrix and of the bias row (their blocks never move); it stores one 2000×64 tile and writes it back to
  rows `2000·t … 2000·t + 1999` of the output.  Row `p` of the stored tile is the shifted log-softmax of the row of
  logits built from row `p` of the three tiled blocks; every one of those 64 logits is the logit `Cert.Sage.pre3` of the
  whole arrays at row `2000·t + p`, hence so are the row's maximum and its sum of exponentials, and entry `(p, q)` of the
  tile is entry `(2000·t + p, q)` of `Cert.Sage.lsm (Cert.Sage.pre3 …)`.  Row `r` of the output lies in the block of point
  `r / 2000`, so the 25 blocks cover the array.
-/
import proofs.«143043_j20512763806339_2_alg».proof.Proof.Gen.KernelIdeal.Frame
import proofs.«143043_j20512763806339_2_alg».proof.Proof.Spec
import proofs.«143043_j20512763806339_2_alg».proof.Proof.Pay3
import Idealize.ShloMosaic.Lib.ValueIdx
import Idealize.ShloMosaic.Lib.Pipeline.Value

set_option maxRecDepth 16384

noncomputable section

namespace Cert.KernelIdeal.Region3

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Pay3
open Cert.Sage (Mat)

variable (V : (c : Dev nD) → (b : Ref sig .tc) → Buf (Elt Ideal) ((c : Thread nD τ).loc b))

theorem hz : (![0, 0] : Fin 2 → Nat) = fun _ => 0 := funext fun a => by fin_cases a <;> rfl

/-- The printed index maps, decided over the grid: the tiled windows (projected neighbour sums, hidden features,
    reciprocal degrees, output) sit at block `(t, 0)` at point `t`, the resident ones (weights, bias) at block `(0, 0)`. -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- An entry of the stored tile is the matching entry of the log-softmax of the logits of the whole arrays, once each
    block is known to be its rows of its array: stated over plain blocks and arrays, `T` the point's number.  Every
    logit of the tile's row `p` is the arrays' logit at row `T·2000 + p`, so the row's maximum and its sum of
    exponentials are the arrays' row's. -/
theorem tile_entry (A0 : Mat 50000 64) (A1 : Mat 50000 128) (A2 : Mat 50000 1) (A3 : Mat 128 64) (A4 : Mat 1 64)
    (x0 : Vec Ideal S2000x64 .f32) (x1 : Vec Ideal S2000x128 .f32) (x2 : Vec Ideal S2000x1 .f32)
    (x3 : Vec Ideal S128x64 .f32) (x4 : Vec Ideal S1x64 .f32) (T : ℕ)
    (h0 : ∀ (p : Fin 2000) (k : Fin 64) (r : Fin 50000), r.val = T * 2000 + p.val → x0 (ix2 p k) = A0 (ix2 r k))
    (h1 : ∀ (p : Fin 2000) (k : Fin 128) (r : Fin 50000), r.val = T * 2000 + p.val → x1 (ix2 p k) = A1 (ix2 r k))
    (h2 : ∀ (p : Fin 2000) (r : Fin 50000), r.val = T * 2000 + p.val → x2 (ix2 p 0) = A2 (ix2 r 0))
    (h3 : x3 = A3) (h4 : x4 = A4)
    (j : S2000x64.Idx) (i : S50000x64.Idx) (hi0 : (i 0).val = T * 2000 + (j 0).val) (hi1 : (i 1).val = (j 1).val) :
    k3_pay1 x0 x2 x1 x3 x4 j = Cert.Sage.lsm (Cert.Sage.pre3 A0 A1 A2 A3 A4) i := by
  obtain ⟨p, q, rfl⟩ : ∃ (p : Fin 2000) (q : Fin 64), j = ix2 p q := ⟨j 0, j 1, eq_ix2 j⟩
  obtain ⟨r, q', rfl⟩ : ∃ (r : Fin 50000) (q' : Fin 64), i = ix2 r q' := ⟨i 0, i 1, eq_ix2 i⟩
  obtain rfl : q = q' := (Fin.ext hi1).symm
  have hr : r.val = T * 2000 + p.val := hi0
  have hl : ∀ c : Fin 64, logit x0 x2 x1 x3 x4 p c = Cert.Sage.pre3 A0 A1 A2 A3 A4 (ix2 r c) := by
    intro c
    show logit x0 x2 x1 x3 x4 p c = Cert.Sage.pre3At A0 A1 A2 A3 A4 r c
    unfold logit Cert.Sage.pre3At
    rw [h3, h4]
    simp only [h0 p c r hr, fun k => h1 p k r hr, h2 p r hr]
  have hm : rmax x0 x2 x1 x3 x4 p = Cert.Sage.rowMax (Cert.Sage.pre3 A0 A1 A2 A3 A4) r := by
    unfold rmax Cert.Sage.rowMax
    simp only [hl]
  rw [pay3_at]
  show _ = Cert.Sage.lsmAt (Cert.Sage.pre3 A0 A1 A2 A3 A4) r q
  unfold Cert.Sage.lsmAt
  rw [hm]
  simp only [hl]

/-- The projected-neighbour block at point `t` is rows `2000·t …` of its array. -/
theorem blk0 (c : Dev nD) (t : Fin cfg3.N) (p : Fin 2000) (k : Fin 64) (r : Fin 50000) (hr : r.val = t.val * 2000 + p.val) :
    (iblk3 V c 0 t : Vec Ideal S2000x64 .f32) (ix2 p k) = ((V c (Pipeline.arrRef spec3 0)) : Mat 50000 64) (ix2 r k) := by
  obtain ⟨e0, e1, -⟩ := idx_facts t
  unfold iblk3
  rw [View.read_apply]
  show V c (Pipeline.arrRef spec3 0) _ = V c (Pipeline.arrRef spec3 0) _
  congr 1
  funext a
  apply Fin.ext
  match a with
  | ⟨0, _⟩ => show win3_0.index t 0 * 2000 + 1 * p.val = r.val; omega
  | ⟨1, _⟩ => show win3_0.index t 1 * 64 + 1 * k.val = k.val; omega

/-- The hidden-feature block at point `t` is rows `2000·t …` of its array. -/
theorem blk1 (c : Dev nD) (t : Fin cfg3.N) (p : Fin 2000) (k : Fin 128) (r : Fin 50000) (hr : r.val = t.val * 2000 + p.val) :
    (iblk3 V c 1 t : Vec Ideal S2000x128 .f32) (ix2 p k) = ((V c (Pipeline.arrRef spec3 1)) : Mat 50000 128) (ix2 r k) := by
  obtain ⟨-, -, e0, e1, -⟩ := idx_facts t
  unfold iblk3
  rw [View.read_apply]
  show V c (Pipeline.arrRef spec3 1) _ = V c (Pipeline.arrRef spec3 1) _
  congr 1
  funext a
  apply Fin.ext
  match a with
  | ⟨0, _⟩ => show win3_1.index t 0 * 2000 + 1 * p.val = r.val; omega
  | ⟨1, _⟩ => show win3_1.index t 1 * 128 + 1 * k.val = k.val; omega

/-- The reciprocal-degree block at point `t` is rows `2000·t …` of its one-column array. -/
theorem blk2 (c : Dev nD) (t : Fin cfg3.N) (p : Fin 2000) (r : Fin 50000) (hr : r.val = t.val * 2000 + p.val) :
    (iblk3 V c 2 t : Vec Ideal S2000x1 .f32) (ix2 p 0) = ((V c (Pipeline.arrRef spec3 2)) : Mat 50000 1) (ix2 r 0) := by
  obtain ⟨-, -, -, -, e0, e1, -⟩ := idx_facts t
  unfold iblk3
  rw [View.read_apply]
  show V c (Pipeline.arrRef spec3 2) _ = V c (Pipeline.arrRef spec3 2) _
  congr 1
  funext a
  apply Fin.ext
  match a with
  | ⟨0, _⟩ => show win3_2.index t 0 * 2000 + 1 * p.val = r.val; omega
  | ⟨1, _⟩ => show win3_2.index t 1 * 1 + 1 * 0 = 0; omega

/-- The weight matrix's block is the whole matrix at every point. -/
theorem blk3 (c : Dev nD) (t : Fin cfg3.N) :
    (iblk3 V c 3 t : Vec Ideal S128x64 .f32) = ((V c (Pipeline.arrRef spec3 3)) : Mat 128 64) := by
  obtain ⟨-, -, -, -, -, -, e0, e1, -⟩ := idx_facts t
  funext y
  unfold iblk3
  rw [View.read_apply]
  show V c (Pipeline.arrRef spec3 3) _ = V c (Pipeline.arrRef spec3 3) y
  congr 1
  funext a
  apply Fin.ext
  match a with
  | ⟨0, _⟩ => show win3_3.index t 0 * 128 + 1 * (y 0).val = (y 0).val; omega
  | ⟨1, _⟩ => show win3_3.index t 1 * 64 + 1 * (y 1).val = (y 1).val; omega

/-- The bias row's block is the whole row at every point. -/
theorem blk4 (c : Dev nD) (t : Fin cfg3.N) :
    (iblk3 V c 4 t : Vec Ideal S1x64 .f32) = ((V c (Pipeline.arrRef spec3 4)) : Mat 1 64) := by
  obtain ⟨-, -, -, -, -, -, -, -, e0, e1, -⟩ := idx_facts t
  funext y
  unfold iblk3
  rw [View.read_apply]
  show V c (Pipeline.arrRef spec3 4) _ = V c (Pipeline.arrRef spec3 4) y
  congr 1
  funext a
  apply Fin.ext
  match a with
  | ⟨0, _⟩ => show win3_4.index t 0 * 1 + 1 * (y 0).val = (y 0).val; omega
  | ⟨1, _⟩ => show win3_4.index t 1 * 64 + 1 * (y 1).val = (y 1).val; omega

/-- A tile whose entry `(p, q)` is entry `(2000·t + p, q)` of an array `G` is block `t` of `G`: what a write-back of
    the tile at point `t` writes is the output window's block of `G` there. -/
theorem block_of_entries (t : Fin cfg3.N) (P : Vec Ideal S2000x64 .f32) (G : Mat 50000 64)
    (key : ∀ (j : S2000x64.Idx) (i : S50000x64.Idx), (i 0).val = t.val * 2000 + (j 0).val → (i 1).val = (j 1).val → P j = G i) :
    (cfg3.win 5).cut (grid3.coords t) P = ((cfg3.win 5).blk t).view.read (Elt Ideal) G := by
  obtain ⟨-, -, -, -, -, -, -, -, -, -, e0, e1⟩ := idx_facts t
  funext j
  rw [View.read_apply]
  refine key j (((cfg3.win 5).blk t).view.emb j) ?_ ?_
  · show win3_5.index t 0 * 2000 + 1 * (j 0).val = t.val * 2000 + (j 0).val; omega
  · show win3_5.index t 1 * 64 + 1 * (j 1).val = (j 1).val; omega

/-- WHAT POINT `t` WRITES BACK is block `t` of the log-softmax of the logits of the arrays as the region finds them. -/
theorem flushed_eq (c : Dev nD) (t : Fin cfg3.N) :
    (dat3 (F := Ideal) V c).flushed 5 t = ((cfg3.win 5).blk t).view.read (Elt Ideal) (Cert.Sage.lsm (Cert.Sage.pre3 (V c (Pipeline.arrRef spec3 0)) (V c (Pipeline.arrRef spec3 1)) (V c (Pipeline.arrRef spec3 2)) (V c (Pipeline.arrRef spec3 3)) (V c (Pipeline.arrRef spec3 4)))) := by
  show (cfg3.win 5).cut (grid3.coords t) ((dat3 V c).after 5 t) = _
  rw [after3_5]
  unfold out3_5
  rw [View.canon_unit_zero hz]
  simp only [View.ld_unit_zero (S := S2000x64) hz, View.ld_unit_zero (S := S2000x128) hz, View.ld_unit_zero (S := S2000x1) hz,
    View.ld_unit_zero (S := S128x64) hz, View.ld_unit_zero (S := S1x64) hz]
  exact block_of_entries t _ _ fun j i g0 g1 => tile_entry (V c (Pipeline.arrRef spec3 0)) (V c (Pipeline.arrRef spec3 1)) (V c (Pipeline.arrRef spec3 2)) (V c (Pipeline.arrRef spec3 3)) (V c (Pipeline.arrRef spec3 4))
    (iblk3 V c 0 t) (iblk3 V c 1 t) (iblk3 V c 2 t) (iblk3 V c 3 t) (iblk3 V c 4 t) t.val
    (blk0 V c t) (blk1 V c t) (blk2 V c t) (blk3 V c t) (blk4 V c t) j i g0 g1

/-- An index of the output array is in point `t`'s block iff each coordinate is in the block's range on its axis. -/
theorem mem_blk (t : Fin cfg3.N) (i : S50000x64.Idx) :
    i ∈ ((cfg3.win 5).blk t).view.set ↔ ∀ a : Fin 2, win3_5.index t a * S2000x64.size a ≤ (i a).val ∧ (i a).val < win3_5.index t a * S2000x64.size a + S2000x64.size a := by
  show i ∈ ((View.whole (win3_5.arr.view.ref)).slice (win3_5.rect t)).set ↔ _
  rw [View.set_slice_whole, Rect.mem_set_unit]
  exact Iff.rfl

/-- The cover by arithmetic: row `r` of the output is in the block of point `r / 2000`. -/
theorem cover (i : S50000x64.Idx) :
    ∃ t : Fin cfg3.N, (cfg3.win 5).flush t = true ∧ i ∈ ((cfg3.win 5).blk t).view.set := by
  have hN : cfg3.N = 25 := N_3
  have hi0 : (i 0).val < 50000 := (i 0).isLt
  have hi1 : (i 1).val < 64 := (i 1).isLt
  obtain ⟨t, ht⟩ : ∃ t : Fin cfg3.N, t.val = (i 0).val / 2000 := ⟨⟨(i 0).val / 2000, by rw [hN]; omega⟩, rfl⟩
  obtain ⟨-, -, -, -, -, -, -, -, -, -, e0, e1⟩ := idx_facts t
  refine ⟨t, flush3_5 t, ?_⟩
  rw [mem_blk]
  intro a
  match a with
  | ⟨0, _⟩ => show win3_5.index t 0 * 2000 ≤ (i 0).val ∧ (i 0).val < win3_5.index t 0 * 2000 + 2000; omega
  | ⟨1, _⟩ => show win3_5.index t 1 * 64 ≤ (i 1).val ∧ (i 1).val < win3_5.index t 1 * 64 + 64; omega

/-- THE OUTPUT ARRAY after the region: the row-wise log-softmax of the logits of the five arrays the region found. -/
theorem final3 (c : Dev nD) :
    (dat3 (F := Ideal) V c).arrAt 5 cfg3.N = Cert.Sage.lsm (Cert.Sage.pre3 (V c (Pipeline.arrRef spec3 0)) (V c (Pipeline.arrRef spec3 1)) (V c (Pipeline.arrRef spec3 2)) (V c (Pipeline.arrRef spec3 3)) (V c (Pipeline.arrRef spec3 4))) :=
  (dat3 (F := Ideal) V c).arrAt_eq_of_cover 5 (Cert.Sage.lsm (Cert.Sage.pre3 (V c (Pipeline.arrRef spec3 0)) (V c (Pipeline.arrRef spec3 1)) (V c (Pipeline.arrRef spec3 2)) (V c (Pipeline.arrRef spec3 3)) (V c (Pipeline.arrRef spec3 4)))) (fun t _ => flushed_eq V c t) (fun i => cover i)

end Cert.KernelIdeal.Region3

end
-- ==== Proof.Alg.lean ====
/-
  Algebra on the extended reals used to join the two programs.

  The extended reals are not a ring: distributivity and the exchange of a product with a sum fail at the infinities.
  Every law below is therefore stated for FINITE entries (`IsR z`: `z` is the image of a real), proved by pulling
  the coercion out and working in `ℝ`.
-/
import Idealize.ShloMosaic.PureOps.Ideal
import Mathlib.Tactic.Ring
import Mathlib.Tactic.Linarith
import Mathlib.Tactic.Positivity

noncomputable section

namespace Cert.Sage.Alg

open Idealize.ShloMosaic

/-- `z` is a real number (neither infinity). -/
def IsR (z : EReal) : Prop := ∃ r : ℝ, z = (r : EReal)

theorem IsR.coe (r : ℝ) : IsR (r : EReal) := ⟨r, rfl⟩
theorem IsR.zero : IsR (0 : EReal) := ⟨0, rfl⟩
theorem IsR.one : IsR (1 : EReal) := ⟨1, rfl⟩

theorem IsR.add {a b : EReal} (ha : IsR a) (hb : IsR b) : IsR (a + b) := by
  obtain ⟨x, rfl⟩ := ha; obtain ⟨y, rfl⟩ := hb; exact ⟨x + y, (EReal.coe_add x y).symm⟩

theorem IsR.mul {a b : EReal} (ha : IsR a) (hb : IsR b) : IsR (a * b) := by
  obtain ⟨x, rfl⟩ := ha; obtain ⟨y, rfl⟩ := hb; exact ⟨x * y, (EReal.coe_mul x y).symm⟩

theorem IsR.sub {a b : EReal} (ha : IsR a) (hb : IsR b) : IsR (a - b) := by
  obtain ⟨x, rfl⟩ := ha; obtain ⟨y, rfl⟩ := hb; exact ⟨x - y, (EReal.coe_sub x y).symm⟩

theorem IsR.max {a b : EReal} (ha : IsR a) (hb : IsR b) : IsR (max a b) := by
  rcases le_total a b with h | h
  · rw [max_eq_right h]; exact hb
  · rw [max_eq_left h]; exact ha

/-- The coercion commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem IsR.sum {ι : Type*} (s : Finset ι) (f : ι → EReal) (h : ∀ i ∈ s, IsR (f i)) : IsR (∑ i ∈ s, f i) := by
  classical
  induction s using Finset.induction_on with
  | empty => simpa using IsR.zero
  | insert a s ha ih =>
    rw [Finset.sum_insert ha]
    exact (h a (Finset.mem_insert_self a s)).add (ih fun i hi => h i (Finset.mem_insert_of_mem hi))

/-- Division by a nonzero real is multiplication by its reciprocal, on every extended real. -/
theorem div_real {y : ℝ} (h : y ≠ 0) (x : EReal) : Ideal.div x (y : EReal) = x * ((1 / y : ℝ) : EReal) :=
  Ideal.div_coe h x

theorem IsR.div_real {a : EReal} (ha : IsR a) {y : ℝ} (h : y ≠ 0) : IsR (Ideal.div a (y : EReal)) := by
  rw [Alg.div_real h]; exact ha.mul (IsR.coe _)

/-- One over a nonzero real. -/
theorem one_div_real {y : ℝ} (h : y ≠ 0) : Ideal.div (1 : EReal) (y : EReal) = ((1 / y : ℝ) : EReal) := by
  rw [Alg.div_real h, one_mul]

/-- A count of ones is a natural number. -/
theorem sum_ones {ι : Type*} (s : Finset ι) : (0 : EReal) + ∑ _i ∈ s, (1 : EReal) = ((s.card : ℝ) : EReal) := by
  rw [zero_add]
  have : (∑ _i ∈ s, (1 : EReal)) = ∑ _i ∈ s, (((1 : ℝ)) : EReal) := by simp
  rw [this, ← coe_sum]; simp

/-- The clamped degree `max n 1` of a count `n` is a real that is at least one. -/
theorem max_card_one (n : ℕ) : max ((n : ℝ) : EReal) (1 : EReal) = ((max (n : ℝ) 1 : ℝ) : EReal) := by
  have : (1 : EReal) = ((1 : ℝ) : EReal) := rfl
  rw [this]
  rcases le_total (n : ℝ) 1 with h | h
  · rw [max_eq_right h, max_eq_right (EReal.coe_le_coe_iff.mpr h)]
  · rw [max_eq_left h, max_eq_left (EReal.coe_le_coe_iff.mpr h)]

theorem max_card_one_ne (n : ℕ) : (max (n : ℝ) 1 : ℝ) ≠ 0 := by
  have : (1 : ℝ) ≤ max (n : ℝ) 1 := le_max_right _ _
  linarith

/-- The reciprocal square root of a positive real is a real. -/
theorem rsqrt_pos {v : ℝ} (hv : 0 < v) : Ideal.rsqrt (v : EReal) = (((Real.sqrt v)⁻¹ : ℝ) : EReal) := by
  show (if v < 0 then (⊥ : EReal) else if v = 0 then ⊤ else ((Real.sqrt v)⁻¹ : ℝ)) = _
  rw [if_neg (not_lt.mpr hv.le), if_neg hv.ne']

/-- The normalisation in its two spellings: centre, scale by `rs` and `g`, shift by `bt`; or scale by `g · rs` and shift by
    `bt − mu · (g · rs)`. Equal on reals. -/
theorem bn_forms (h mu rs g bt : ℝ) :
    (((((h : EReal) - mu) * rs) * g) + bt) = (h : EReal) * ((g : EReal) * rs) + ((bt : EReal) - (mu : EReal) * ((g : EReal) * rs)) := by
  rw [← EReal.coe_sub, ← EReal.coe_mul, ← EReal.coe_mul, ← EReal.coe_add, ← EReal.coe_mul, ← EReal.coe_mul, ← EReal.coe_mul,
    ← EReal.coe_sub, ← EReal.coe_add]
  congr 1; ring

/-- Projecting after summing neighbours is summing projected neighbours: for real entries,
    `(Σ_e Σ_k h(e,k) · w(k)) · inv = Σ_k ((Σ_e h(e,k)) · inv) · w(k)`. -/
theorem proj_sum_exchange {ι κ : Type*} (S : Finset ι) (K : Finset κ) (h : ι → κ → ℝ) (w : κ → ℝ) (inv : ℝ) :
    ((0 : EReal) + ∑ e ∈ S, ∑ k ∈ K, ((h e k : ℝ) : EReal) * (w k : EReal)) * (inv : EReal)
      = ∑ k ∈ K, (((0 : EReal) + ∑ e ∈ S, ((h e k : ℝ) : EReal)) * (inv : EReal)) * (w k : EReal) := by
  have e1 : ∀ e ∈ S, (∑ k ∈ K, ((h e k : ℝ) : EReal) * (w k : EReal)) = ((∑ k ∈ K, h e k * w k : ℝ) : EReal) := by
    intro e _; rw [coe_sum]; exact Finset.sum_congr rfl fun k _ => (EReal.coe_mul _ _).symm
  rw [zero_add, Finset.sum_congr rfl e1, ← coe_sum, ← EReal.coe_mul]
  have e2 : ∀ k ∈ K, (((0 : EReal) + ∑ e ∈ S, ((h e k : ℝ) : EReal)) * (inv : EReal)) * (w k : EReal)
      = (((∑ e ∈ S, h e k) * inv * w k : ℝ) : EReal) := by
    intro k _; rw [zero_add, ← coe_sum, ← EReal.coe_mul, ← EReal.coe_mul]
  rw [Finset.sum_congr rfl e2, ← coe_sum]
  congr 1
  simp_rw [Finset.sum_mul]
  rw [Finset.sum_comm]
  exact Finset.sum_congr rfl fun k _ => Finset.sum_congr rfl fun e _ => by ring

end Cert.Sage.Alg

end
-- ==== Proof.Core.lean ====
/-
  The two programs joined stage by stage, index by index.

  Fix the graph as two data: `s e`, the row edge `e` reads, and `S r`, the set of edges whose update lands on row `r`.
  A neighbour sum is `nsumAt X r c = 0 + Σ_{e ∈ S r} X[s e, c]`; the in-degree is the count `0 + Σ_{e ∈ S r} 1`, a natural
  number, so its clamp `dcl r = max (deg r) 1` is a real that is at least one, and dividing by it is multiplying by its
  reciprocal on EVERY extended real (no finiteness needed): this joins the layers that multiply by `1/deg` to the ones
  that divide by `deg`.  The normalisation's two spellings and the exchange "project, then sum neighbours" against
  "sum neighbours, then project" are identities of real numbers; they are used where every entry is finite.
-/
import proofs.«143043_j20512763806339_2_alg».proof.Proof.Spec
import proofs.«143043_j20512763806339_2_alg».proof.Proof.Alg

noncomputable section

namespace Cert.Sage.Core

open Idealize.ShloMosaic Idealize.ShloMosaic.ValueIdx Cert.Sage Cert.Sage.Alg

variable (s : Fin 600000 → Fin 50000) (S : Fin 50000 → Finset (Fin 600000))

/-- The sum of the rows of `X` that the edges landing on row `r` read, at column `c`. -/
def nsumAt {n : Nat} (X : Mat 50000 n) (r : Fin 50000) (c : Fin n) : EReal := 0 + ∑ e ∈ S r, X (ix2 (s e) c)

/-- The clamped in-degree of row `r`. -/
def dcl (r : Fin 50000) : EReal := max (0 + ∑ _e ∈ S r, (1 : EReal)) 1

/-- It is a real number, and not zero. -/
theorem dcl_real (r : Fin 50000) : ∃ d : ℝ, d ≠ 0 ∧ dcl S r = (d : EReal) :=
  ⟨max ((S r).card : ℝ) 1, max_card_one_ne _, by unfold dcl; rw [sum_ones, max_card_one]⟩

theorem nsumAt_real {n : Nat} (X : Mat 50000 n) (hX : ∀ i, IsR (X i)) (r : Fin 50000) (c : Fin n) : IsR (nsumAt s S X r c) :=
  IsR.zero.add (IsR.sum _ _ fun e _ => hX _)

/-- Multiplying by the reciprocal of the clamped degree is dividing by it. -/
theorem mul_inv_eq_div (a inv : EReal) (r : Fin 50000) (hinv : inv = Ideal.div 1 (dcl S r)) : a * inv = Ideal.div a (dcl S r) := by
  obtain ⟨d, hd, e⟩ := dcl_real S r
  rw [hinv, e, one_div_real hd, div_real hd]

theorem inv_real (inv : EReal) (r : Fin 50000) (hinv : inv = Ideal.div 1 (dcl S r)) : IsR inv := by
  obtain ⟨d, hd, e⟩ := dcl_real S r
  rw [hinv, e, one_div_real hd]; exact IsR.coe _

/-- The layer that multiplies pre-summed neighbours by `1/deg` is the layer that divides them by `deg`. -/
theorem convAt_eq (A X : Mat 50000 128) (inv : Mat 50000 1) (hinv : ∀ r, inv (ix2 r 0) = Ideal.div 1 (dcl S r))
    (wl wr : Mat 128 128) (b : Mat 1 128) (r : Fin 50000) (c : Fin 128) :
    convAt A X inv wl wr b r c
      = ((∑ k : Fin 128, Ideal.div (A (ix2 r k)) (dcl S r) * wl (ix2 k c)) + ∑ k : Fin 128, X (ix2 r k) * wr (ix2 k c)) + b (ix2 0 c) := by
  unfold convAt
  congr 2
  exact Finset.sum_congr rfl fun k _ => by rw [mul_inv_eq_div S _ _ r (hinv r)]

/-- The layer's value is finite when its inputs are. -/
theorem convAt_real (A X : Mat 50000 128) (inv : Mat 50000 1) (hinv : ∀ r, inv (ix2 r 0) = Ideal.div 1 (dcl S r))
    (wl wr : Mat 128 128) (b : Mat 1 128) (hA : ∀ i, IsR (A i)) (hX : ∀ i, IsR (X i)) (hwl : ∀ i, IsR (wl i)) (hwr : ∀ i, IsR (wr i))
    (hb : ∀ i, IsR (b i)) (r : Fin 50000) (c : Fin 128) : IsR (convAt A X inv wl wr b r c) := by
  unfold convAt
  exact ((IsR.sum _ _ fun k _ => ((hA _).mul (inv_real S _ r (hinv r))).mul (hwl _)).add
    (IsR.sum _ _ fun k _ => (hX _).mul (hwr _))).add (hb _)

/-- The affine form of the normalisation is its centred form, on finite entries. -/
theorem bnresAt_eq (H x : Mat 50000 128) (scale bias : Mat 1 128) (mu rs g bt : Fin 128 → EReal)
    (hs : ∀ c, scale (ix2 0 c) = g c * rs c) (hbias : ∀ c, bias (ix2 0 c) = bt c - mu c * (g c * rs c))
    (hH : ∀ i, IsR (H i)) (hmu : ∀ c, IsR (mu c)) (hrs : ∀ c, IsR (rs c)) (hg : ∀ c, IsR (g c)) (hbt : ∀ c, IsR (bt c))
    (r : Fin 50000) (c : Fin 128) :
    bnresAt H x scale bias r c = max ((((H (ix2 r c) - mu c) * rs c) * g c) + bt c) 0 + x (ix2 r c) := by
  unfold bnresAt
  rw [hs c, hbias c]
  obtain ⟨h', eh⟩ := hH (ix2 r c); obtain ⟨m', em⟩ := hmu c; obtain ⟨r', er⟩ := hrs c
  obtain ⟨g', eg⟩ := hg c; obtain ⟨b', eb⟩ := hbt c
  rw [eh, em, er, eg, eb, bn_forms]

theorem bnresAt_real (H x : Mat 50000 128) (scale bias : Mat 1 128) (hH : ∀ i, IsR (H i)) (hx : ∀ i, IsR (x i))
    (hs : ∀ i, IsR (scale i)) (hb : ∀ i, IsR (bias i)) (r : Fin 50000) (c : Fin 128) : IsR (bnresAt H x scale bias r c) := by
  unfold bnresAt
  exact ((((hH _).mul (hs _)).add (hb _)).max IsR.zero).add (hx _)

/-- The last layer: neighbour sums of projected rows, times `1/deg`, are the projection of the neighbours' mean. -/
theorem pre3At_eq (P : Mat 50000 64) (h : Mat 50000 128) (W : Mat 128 64) (hP : ∀ r c, P (ix2 r c) = nsumAt s S (proj h W) r c)
    (inv : Mat 50000 1) (hinv : ∀ r, inv (ix2 r 0) = Ideal.div 1 (dcl S r)) (wr : Mat 128 64) (b : Mat 1 64)
    (hh : ∀ i, IsR (h i)) (hW : ∀ i, IsR (W i)) (r : Fin 50000) (c : Fin 64) :
    pre3At P h inv wr b r c
      = ((∑ k : Fin 128, Ideal.div (nsumAt s S h r k) (dcl S r) * W (ix2 k c)) + ∑ k : Fin 128, h (ix2 r k) * wr (ix2 k c)) + b (ix2 0 c) := by
  unfold pre3At
  congr 2
  obtain ⟨d, hd, e⟩ := dcl_real S r
  rw [hP r c, hinv r, e, one_div_real hd]
  choose h' eh using hh
  choose W' eW using hW
  have hl : nsumAt s S (proj h W) r c = 0 + ∑ e ∈ S r, ∑ k ∈ (Finset.univ : Finset (Fin 128)), ((h' (ix2 (s e) k) : ℝ) : EReal) * ((W' (ix2 k c) : ℝ) : EReal) := by
    unfold nsumAt proj projAt
    congr 1
    refine Finset.sum_congr rfl fun e _ => Finset.sum_congr rfl fun k _ => ?_
    rw [← eh, ← eW]
  rw [hl, proj_sum_exchange (S r) Finset.univ (fun e k => h' (ix2 (s e) k)) (fun k => W' (ix2 k c)) (1 / d)]
  refine Finset.sum_congr rfl fun k _ => ?_
  rw [div_real hd, ← eW]
  congr 2
  unfold nsumAt
  congr 1
  exact Finset.sum_congr rfl fun e _ => (eh _).symm

/-- A column's mean of finite entries is finite. -/
theorem mean_real (H : Mat 50000 128) (hH : ∀ i, IsR (H i)) (c : Fin 128) :
    IsR (Ideal.div (0 + ∑ r : Fin 50000, H (ix2 r c)) ((50000 : ℝ) : EReal)) :=
  (IsR.zero.add (IsR.sum _ _ fun r _ => hH _)).div_real (by norm_num)

/-- A column's mean square deviation is a nonnegative real; shifted by a positive real its reciprocal square root is finite. -/
theorem rsqrt_var_real (H : Mat 50000 128) (hH : ∀ i, IsR (H i)) (mu : EReal) (hmu : IsR mu) (eps : ℝ) (heps : 0 < eps) (c : Fin 128) :
    IsR (Ideal.rsqrt (Ideal.div (0 + ∑ r : Fin 50000, (H (ix2 r c) - mu) * (H (ix2 r c) - mu)) ((50000 : ℝ) : EReal) + (eps : EReal))) := by
  choose h' eh using hH
  obtain ⟨m', em⟩ := hmu
  have e1 : (0 : EReal) + ∑ r : Fin 50000, (H (ix2 r c) - mu) * (H (ix2 r c) - mu)
      = ((∑ r : Fin 50000, (h' (ix2 r c) - m') * (h' (ix2 r c) - m') : ℝ) : EReal) := by
    rw [zero_add, coe_sum]
    refine Finset.sum_congr rfl fun r _ => ?_
    rw [eh, em, ← EReal.coe_sub, ← EReal.coe_mul]
  rw [e1, div_real (by norm_num : (50000 : ℝ) ≠ 0), ← EReal.coe_mul, ← EReal.coe_add]
  have hpos : 0 < (∑ r : Fin 50000, (h' (ix2 r c) - m') * (h' (ix2 r c) - m')) * (1 / 50000) + eps := by
    have : 0 ≤ ∑ r : Fin 50000, (h' (ix2 r c) - m') * (h' (ix2 r c) - m') :=
      Finset.sum_nonneg fun r _ => mul_self_nonneg _
    have h1 : 0 ≤ (∑ r : Fin 50000, (h' (ix2 r c) - m') * (h' (ix2 r c) - m')) * (1 / 50000) :=
      mul_nonneg this (by norm_num)
    linarith
  rw [rsqrt_pos hpos]; exact IsR.coe _

end Cert.Sage.Core

end
-- ==== Proof.RefTerms.lean ====
/-
  The reference program's values, each named as one term of whole arrays: the edge-index columns, the clamped
  in-degree, neighbour sums and their mean, the SAGE layer at both output widths, the clamp at zero, the column
  statistics and the normalisation, the row-wise log-softmax, and their composition, the program's result.
-/
import proofs.«143043_j20512763806339_2_alg».proof.Proof.Gen.ReferenceIdeal
import Idealize.ShloMosaic.PureOps.Ideal

noncomputable section

namespace Cert.ReferenceIdeal.RefRun

open Idealize.ShloMosaic Cert.ReferenceIdeal Cert.ReferenceIdeal.Facts₀

/-- Row 0 of the edge list, as a vector. -/
def src1 (ei : IVec S2x600000 32) : IVec S600000 32 :=
  shapeCast S600000 (extractStridedSlice S1x600000 ![0, 0] ei slices_S2x600000_S1x600000_0_0) shapeCasts_S1x600000_S600000

/-- Row 1 of the edge list, as a vector. -/
def dst1 (ei : IVec S2x600000 32) : IVec S600000 32 :=
  shapeCast S600000 (extractStridedSlice S1x600000 ![1, 0] ei slices_S2x600000_S1x600000_1_0) shapeCasts_S1x600000_S600000

/-- The source column: negative entries wrapped once by the row count, as a one-column index array. -/
def srcI (ei : IVec S2x600000 32) : IVec S600000x1 32 :=
  broadcastInDim S600000x1 ![0] bcast_S600000_S600000x1_0
    (select (cmpi .slt (src1 ei) (broadcastInDim S600000 ![] bcast_S_S600000 (constantI S_ 32 0#32)))
      (addi (src1 ei) (broadcastInDim S600000 ![] bcast_S_S600000 (constantI S_ 32 50000#32))) (src1 ei))

/-- The destination column, as a one-column index array. -/
def dstI (ei : IVec S2x600000 32) : IVec S600000x1 32 :=
  broadcastInDim S600000x1 ![0] bcast_S600000_S600000x1_0 (dst1 ei)

/-- The clamped in-degree. -/
def dmax (ei : IVec S2x600000 32) : FVec Ideal S50000 .f32 :=
  maximumf
    (Host.scatterAdd scatter_S50000_S600000x1_S600000_n_0_0_1
      (broadcastInDim S50000 ![] bcast_S_S50000 (constant (F := Ideal) S_ .f32 0x00000000#32)) (dstI ei)
      (broadcastInDim S600000 ![] bcast_S_S600000 (constant (F := Ideal) S_ .f32 0x3F800000#32)))
    (broadcastInDim S50000 ![] bcast_S_S50000 (constant (F := Ideal) S_ .f32 0x3F800000#32))

/-- Neighbour sums. -/
def agg (X : FVec Ideal S50000x128 .f32) (ei : IVec S2x600000 32) : FVec Ideal S50000x128 .f32 :=
  Host.scatterAdd scatter_S50000x128_S600000x1_S600000x128_1_0_0_1
    (broadcastInDim S50000x128 ![] bcast_S_S50000x128 (constant (F := Ideal) S_ .f32 0x00000000#32)) (dstI ei)
    (Host.gather gather_S50000x128_S600000x1_S600000x128_1_0_n_n_0_1_1128 X (srcI ei))

/-- Neighbour means: the sums divided by the clamped in-degree. -/
def meanAgg (X : FVec Ideal S50000x128 .f32) (ei : IVec S2x600000 32) : FVec Ideal S50000x128 .f32 :=
  Host.divf (agg X ei)
    (broadcastInDim S50000x128 ![0, 1] bcast_S50000x1_S50000x128_0_1 (broadcastInDim S50000x1 ![0] bcast_S50000_S50000x1_0 (dmax ei)))

/-- The SAGE layer, 128 output columns. -/
def sage (X : FVec Ideal S50000x128 .f32) (ei : IVec S2x600000 32) (Wl Wr : FVec Ideal S128x128 .f32) (b : FVec Ideal S128 .f32) :
    FVec Ideal S50000x128 .f32 :=
  addf (addf (Host.dotGeneral dot_S50000x128_S128x128_S50000x128_1_0_0_1_n_n none (meanAgg X ei) Wl)
      (Host.dotGeneral dot_S50000x128_S128x128_S50000x128_1_0_0_1_n_n none X Wr))
    (broadcastInDim S50000x128 ![0, 1] bcast_S1x128_S50000x128_0_1 (broadcastInDim S1x128 ![1] bcast_S128_S1x128_1 b))

/-- The SAGE layer, 64 output columns. -/
def sage64 (X : FVec Ideal S50000x128 .f32) (ei : IVec S2x600000 32) (Wl Wr : FVec Ideal S128x64 .f32) (b : FVec Ideal S64 .f32) :
    FVec Ideal S50000x64 .f32 :=
  addf (addf (Host.dotGeneral dot_S50000x128_S128x64_S50000x64_1_0_0_1_n_n none (meanAgg X ei) Wl)
      (Host.dotGeneral dot_S50000x128_S128x64_S50000x64_1_0_0_1_n_n none X Wr))
    (broadcastInDim S50000x64 ![0, 1] bcast_S1x64_S50000x64_0_1 (broadcastInDim S1x64 ![1] bcast_S64_S1x64_1 b))

/-- The clamp below at zero. -/
def relu (X : FVec Ideal S50000x128 .f32) : FVec Ideal S50000x128 .f32 :=
  maximumf X (broadcastInDim S50000x128 ![] bcast_S_S50000x128 (constant (F := Ideal) S_ .f32 0x00000000#32))

/-- The column means. -/
def mean0 (H : FVec Ideal S50000x128 .f32) : FVec Ideal S128 .f32 :=
  Host.divf (Host.reduceAdd H (constant (F := Ideal) S_ .f32 0x00000000#32) reducesTo_S50000x128_S128_d0 h_S_)
    (broadcastInDim S128 ![] bcast_S_S128 (constant (F := Ideal) S_ .f32 0x47435000#32))

/-- The deviations from the column means, as the variance computes them. -/
def dev0 (H : FVec Ideal S50000x128 .f32) : FVec Ideal S50000x128 .f32 :=
  subf H (broadcastInDim S50000x128 ![0, 1] bcast_S1x128_S50000x128_0_1
    (Host.divf
      (broadcastInDim S1x128 ![1] bcast_S128_S1x128_1
        (Host.reduceAdd H (constant (F := Ideal) S_ .f32 0x00000000#32) reducesTo_S50000x128_S128_d0 h_S_))
      (broadcastInDim S1x128 ![] bcast_S_S1x128 (constant (F := Ideal) S_ .f32 0x47435000#32))))

/-- The count the variance divides by. -/
def cnt0 : FVec Ideal S_ .f32 :=
  subf (constant (F := Ideal) S_ .f32 0x47435000#32) (sitofp .f32 (constantI S_ 32 0#32))

/-- The column mean square deviations (guarded by the count being positive). -/
def var0 (H : FVec Ideal S50000x128 .f32) : FVec Ideal S128 .f32 :=
  select (broadcastInDim S128 ![] bcast_S_S128 (cmpf .ogt cnt0 (constant (F := Ideal) S_ .f32 0x00000000#32)))
    (Host.divf (Host.reduceAdd (mulf (dev0 H) (dev0 H)) (constant (F := Ideal) S_ .f32 0x00000000#32) reducesTo_S50000x128_S128_d0 h_S_)
      (broadcastInDim S128 ![] bcast_S_S128 cnt0))
    (broadcastInDim S128 ![] bcast_S_S128 (id (constant (F := Ideal) S_ .f32 0x7FC00000#32)))

/-- A vector as a row, repeated down the 50000 rows. -/
def rows (v : FVec Ideal S128 .f32) : FVec Ideal S50000x128 .f32 :=
  broadcastInDim S50000x128 ![0, 1] bcast_S1x128_S50000x128_0_1 (broadcastInDim S1x128 ![1] bcast_S128_S1x128_1 v)

/-- The normalisation: centre, scale by the reciprocal standard deviation and by `g`, shift by `bt`. -/
def bn (H : FVec Ideal S50000x128 .f32) (g bt : FVec Ideal S128 .f32) : FVec Ideal S50000x128 .f32 :=
  addf (mulf (mulf (subf H (rows (mean0 H)))
      (rows (Host.rsqrt (addf (var0 H) (broadcastInDim S128 ![] bcast_S_S128 (constant (F := Ideal) S_ .f32 0x3727C5AC#32))))))
    (rows g)) (rows bt)

/-- A column of row values repeated across the 64 columns. -/
def cols64 (v : FVec Ideal S50000 .f32) : FVec Ideal S50000x64 .f32 :=
  broadcastInDim S50000x64 ![0, 1] bcast_S50000x1_S50000x64_0_1 (broadcastInDim S50000x1 ![0] bcast_S50000_S50000x1_0 v)

/-- The rows shifted by their maxima. -/
def shifted (H : FVec Ideal S50000x64 .f32) : FVec Ideal S50000x64 .f32 :=
  subf H (cols64 (maximumf (broadcastInDim S50000 ![] bcast_S_S50000 (constant (F := Ideal) S_ .f32 0xFF800000#32))
    (Host.reduce FloatOps.maximumf H (constant (F := Ideal) S_ .f32 0xFF800000#32) reducesTo_S50000x64_S50000_d1 h_S_)))

/-- The row-wise log-softmax. -/
def lsm (H : FVec Ideal S50000x64 .f32) : FVec Ideal S50000x64 .f32 :=
  subf (shifted H) (broadcastInDim S50000x64 ![0, 1] bcast_S50000x1_S50000x64_0_1
    (Host.log (broadcastInDim S50000x1 ![0] bcast_S50000_S50000x1_0
      (Host.reduceAdd (Host.exp (shifted H)) (constant (F := Ideal) S_ .f32 0x00000000#32) reducesTo_S50000x64_S50000_d1 h_S_))))

/-- The program's result as one term of its arguments. -/
def result (x : FVec Ideal S50000x128 .f32) (ei : IVec S2x600000 32) (Wl0 Wr0 : FVec Ideal S128x128 .f32) (b0 : FVec Ideal S128 .f32)
    (Wl1 Wr1 : FVec Ideal S128x128 .f32) (b1 : FVec Ideal S128 .f32) (Wl2 Wr2 : FVec Ideal S128x64 .f32) (b2 : FVec Ideal S64 .f32)
    (g bt : FVec Ideal S128 .f32) : FVec Ideal S50000x64 .f32 :=
  lsm (sage64 (addf (relu (bn (sage (relu (sage x ei Wl0 Wr0 b0)) ei Wl1 Wr1 b1) g bt)) x) ei Wl2 Wr2 b2)

end Cert.ReferenceIdeal.RefRun

end
-- ==== Proof.GraphOps.lean ====
import proofs.«143043_j20512763806339_2_alg».proof.Proof.Gen.KernelIdeal
import proofs.«143043_j20512763806339_2_alg».proof.Proof.Gen.ReferenceIdeal
import Idealize.ShloMosaic.PureOps.Ideal
import Idealize.ShloMosaic.Lib.ValueIdx

/-!
# The neighbour gather and the scatter-add, read at an index

Both programs aggregate neighbours as a gather of rows `x[src]` followed by a scatter-add of those rows
at `dst`.  Here the gather is read at one result element (row `e`, column `c` is the operand's row
`srcRow idx e`, column `c`, the row number read signed and clamped into the operand), and the
scatter-add at one operand element (row `i` receives the update rows of the edges `e` whose row number,
read signed, is exactly `i`; a row number outside the operand lands nowhere).
-/

open Idealize.ShloMosaic Idealize.ShloMosaic.ValueIdx
open scoped BigOperators

namespace Cert.Sage.Graph

/-- The operand row the gather reads for edge `e`: the row number read signed, clamped into `[0, 49999]`. -/
noncomputable def srcRow (idx : IVec (⟨2, ![600000, 1]⟩ : Shape) 32) (e : Fin 600000) : Fin 50000 :=
  ⟨min (idx (ix2 e (0 : Fin 1))).toInt.toNat 49999, by omega⟩

/-- Edge `e`'s update lands on row `i`: its row number, read signed, is `i`. -/
def hits (idx : IVec (⟨2, ![600000, 1]⟩ : Shape) 32) (e : Fin 600000) (i : Fin 50000) : Prop :=
  (idx (ix2 e (0 : Fin 1))).toInt = (i.val : Int)

instance (idx : IVec (⟨2, ![600000, 1]⟩ : Shape) 32) (e : Fin 600000) (i : Fin 50000) : Decidable (hits idx e i) := by
  unfold hits; infer_instance

theorem gatherK_eq : Cert.KernelIdeal.gather_S50000x128_S600000x1_S600000x128_1_0_n_n_0_1_1128
    = Cert.ReferenceIdeal.gather_S50000x128_S600000x1_S600000x128_1_0_n_n_0_1_1128 := rfl
theorem scatter128K_eq : Cert.KernelIdeal.scatter_S50000x128_S600000x1_S600000x128_1_0_0_1
    = Cert.ReferenceIdeal.scatter_S50000x128_S600000x1_S600000x128_1_0_0_1 := rfl
theorem scatter1K_eq : Cert.KernelIdeal.scatter_S50000_S600000x1_S600000_n_0_0_1
    = Cert.ReferenceIdeal.scatter_S50000_S600000x1_S600000_n_0_0_1 := rfl

/-! ## Row gather and row scatter at general extents -/

section Rows
variable {N R C : Nat}

/-- The dimension numbers of `x[idx]` for a table `x : [N, C]` and row numbers `idx : [R, 1]`: whole rows are read. -/
abbrev rowGather (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The gather read at row `e`, column `c`: the table's row `idx[e, 0]` (read signed, clamped into `[0, N − 1]`), column `c`. -/
theorem rowGather_apply {α : Type} (hN : 0 < N)
    (wf : GatherDims.WF ⟨2, ![N, C]⟩ ⟨2, ![R, 1]⟩ ⟨2, ![R, C]⟩ [1] [0] [] [0] [] 1 ![1, C])
    (X : (⟨2, ![N, C]⟩ : Shape).Idx → α) (idx : IVec (⟨2, ![R, 1]⟩ : Shape) 32) (e : Fin R) (c : Fin C) :
    Host.gather (rowGather N R C wf) X idx (ix2 e c)
      = X (ix2 (⟨min (idx (ix2 e (0 : Fin 1))).toInt.toNat (N - 1), by omega⟩ : Fin N) c) := by
  unfold Host.gather
  congr 1
  funext a
  refine Fin.ext ?_
  match a with
  | ⟨0, _⟩ =>
    show GatherDims.start _ (ix2 e c) idx 0 + GatherDims.batchCoord _ (ix2 e c) 0 + GatherDims.offCoord _ (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGather N R C wf).startIndexMap from List.mem_singleton.mpr rfl)]
    have hsi : (rowGather N R C wf).siIdx (ix2 e c)
        ⟨List.idxOf (0 : Fin 2) (rowGather N R C wf).startIndexMap,
          List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show GatherDims.start _ (ix2 e c) idx 1 + GatherDims.batchCoord _ (ix2 e c) 1 + GatherDims.offCoord _ (ix2 e c) 1 = _
    rw [GatherDims.batchCoord_eq_zero _ _ _ List.not_mem_nil]
    unfold GatherDims.start
    rw [dif_neg (show (1 : Fin 2) ∉ (rowGather N R C wf).startIndexMap from (by decide : (1 : Fin 2) ∉ ([0] : List (Fin 2))))]
    simp only [Nat.add_zero, Nat.zero_add]
    rfl

/-- The dimension numbers of a scatter of update rows `[R, C]` into a table `[N, C]` at row numbers `idx : [R, 1]`. -/
abbrev rowScatter (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

section
variable (wf : ScatterDims.WF ⟨2, ![N, C]⟩ ⟨2, ![R, 1]⟩ ⟨2, ![R, C]⟩ [1] [0] [0] 1)
  (idx : IVec (⟨2, ![R, 1]⟩ : Shape) 32) (e : Fin R) (b : Fin C)

theorem rowScatter_start0 : (rowScatter N R C wf).start (ix2 e b) idx 0 = (idx (ix2 e (0 : Fin 1))).toInt := by
  unfold ScatterDims.start
  rw [dif_pos (show (0 : Fin 2) ∈ (rowScatter N R C wf).scatterDimsToOperandDims from List.mem_singleton.mpr rfl)]
  have hsi : (rowScatter N R C wf).siIdx (ix2 e b)
      ⟨List.idxOf (0 : Fin 2) (rowScatter N R C wf).scatterDimsToOperandDims,
        List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem rowScatter_start1 : (rowScatter N R C wf).start (ix2 e b) idx 1 = 0 := by
  unfold ScatterDims.start
  rw [dif_neg (show (1 : Fin 2) ∉ (rowScatter N R C wf).scatterDimsToOperandDims from (by decide : (1 : Fin 2) ∉ ([0] : List (Fin 2))))]

theorem rowScatter_window0 : (rowScatter N R C wf).window (ix2 e b) 0 = 0 := by
  unfold ScatterDims.window
  rw [dif_neg (show (0 : Fin 2) ∉ (rowScatter N R C wf).sKept from
    (by decide : (0 : Fin 2) ∉ (List.finRange 2).filter (fun a => a ∉ ([0] : List (Fin 2)))))]

theorem rowScatter_window1 : (rowScatter N R C wf).window (ix2 e b) 1 = b.val := by
  unfold ScatterDims.window
  rw [dif_pos (show (1 : Fin 2) ∈ (rowScatter N R C wf).sKept from
    (by decide : (1 : Fin 2) ∈ (List.finRange 2).filter (fun a => a ∉ ([0] : List (Fin 2)))))]
  rfl

/-- Update element `(e, b)` lands on table element `(i, c)` exactly when `idx[e, 0]`, read signed, is `i` and `b = c`. -/
theorem rowScatter_resultIdx_iff (i : Fin N) (c : Fin C) :
    (rowScatter N R C wf).resultIdx? (ix2 e b) idx = some (ix2 i c)
      ↔ (idx (ix2 e (0 : Fin 1))).toInt = (i.val : Int) ∧ b = c := by
  have h0s := rowScatter_start0 wf idx e b
  have h1s := rowScatter_start1 wf idx e b
  have h0w := rowScatter_window0 wf e b
  have h1w := rowScatter_window1 wf e b
  unfold ScatterDims.resultIdx?
  constructor
  · intro h
    split at h
    · rename_i hall
      have hf := Option.some.inj h
      have e0 := congrArg (fun f => (f 0).val) hf
      have e1 := congrArg (fun f => (f 1).val) hf
      have a0 := hall 0
      simp only [h0s, h0w, h1s, h1w] at e0 e1 a0
      refine ⟨?_, Fin.ext ?_⟩
      · have : ((ix2 i c : (⟨2, ![N, C]⟩ : Shape).Idx) 0).val = i.val := rfl
        omega
      · have : ((ix2 i c : (⟨2, ![N, C]⟩ : Shape).Idx) 1).val = c.val := rfl
        omega
    · exact absurd h (by simp)
  · rintro ⟨hi, rfl⟩
    have hall : ∀ a, 0 ≤ (rowScatter N R C wf).start (ix2 e b) idx a + ((rowScatter N R C wf).window (ix2 e b) a : Int) ∧
        (rowScatter N R C wf).start (ix2 e b) idx a + ((rowScatter N R C wf).window (ix2 e b) a : Int) < ((⟨2, ![N, C]⟩ : Shape).size a : Int) := by
      intro a
      match a with
      | ⟨0, _⟩ =>
        show 0 ≤ (rowScatter N R C wf).start (ix2 e b) idx 0 + ((rowScatter N R C wf).window (ix2 e b) 0 : Int) ∧
          (rowScatter N R C wf).start (ix2 e b) idx 0 + ((rowScatter N R C wf).window (ix2 e b) 0 : Int) < (N : Int)
        rw [h0s, h0w, hi]; have := i.isLt; omega
      | ⟨1, _⟩ =>
        show 0 ≤ (rowScatter N R C wf).start (ix2 e b) idx 1 + ((rowScatter N R C wf).window (ix2 e b) 1 : Int) ∧
          (rowScatter N R C wf).start (ix2 e b) idx 1 + ((rowScatter N R C wf).window (ix2 e b) 1 : Int) < (C : Int)
        rw [h1s, h1w]; have := b.isLt; omega
    rw [dif_pos hall]
    congr 1
    funext a
    refine Fin.ext ?_
    match a with
    | ⟨0, _⟩ =>
      show ((rowScatter N R C wf).start (ix2 e b) idx 0 + ((rowScatter N R C wf).window (ix2 e b) 0 : Int)).toNat = i.val
      rw [h0s, h0w, hi]; omega
    | ⟨1, _⟩ =>
      show ((rowScatter N R C wf).start (ix2 e b) idx 1 + ((rowScatter N R C wf).window (ix2 e b) 1 : Int)).toNat = b.val
      rw [h1s, h1w]; omega

end

/-- The scatter-add of update rows read at table element `(i, c)`: the table's element plus column `c` of the update
    rows of the edges whose row number, read signed, is `i` (`P` is that condition on an edge). -/
theorem rowScatter_apply (wf : ScatterDims.WF ⟨2, ![N, C]⟩ ⟨2, ![R, 1]⟩ ⟨2, ![R, C]⟩ [1] [0] [0] 1)
    (Z : FVec Ideal (⟨2, ![N, C]⟩ : Shape) .f32) (idx : IVec (⟨2, ![R, 1]⟩ : Shape) 32)
    (U : FVec Ideal (⟨2, ![R, C]⟩ : Shape) .f32) (i : Fin N) (c : Fin C)
    (P : Fin R → Prop) [DecidablePred P] (hP : ∀ e, P e ↔ (idx (ix2 e (0 : Fin 1))).toInt = (i.val : Int)) :
    Host.scatterAdd (rowScatter N R C wf) Z idx U (ix2 i c)
      = Z (ix2 i c) + ∑ e ∈ Finset.univ.filter P, U (ix2 e c) := by
  show Ideal.hostScatterAdd (rowScatter N R C wf) Z idx U (ix2 i c) = _
  unfold Ideal.hostScatterAdd
  congr 1
  rw [Finset.sum_filter, sum_idx2, Finset.sum_filter]
  refine Finset.sum_congr rfl fun a _ => ?_
  by_cases h : P a
  · rw [if_pos h, Finset.sum_eq_single c]
    · exact if_pos ((rowScatter_resultIdx_iff wf idx a c i c).2 ⟨(hP a).1 h, rfl⟩)
    · intro b _ hb
      exact if_neg (fun hh => hb ((rowScatter_resultIdx_iff wf idx a b i c).1 hh).2)
    · intro hc; exact absurd (Finset.mem_univ c) hc
  · rw [if_neg h]
    exact Finset.sum_eq_zero fun b _ =>
      if_neg (fun hh => h ((hP a).2 ((rowScatter_resultIdx_iff wf idx a b i c).1 hh).1))

end Rows

/-! ## Scatter of scalars into a vector -/

section Vec
variable {N R : Nat}

/-- A rank-1 index is its coordinate. -/
def idxEquiv1 {n : Nat} : (⟨1, ![n]⟩ : Shape).Idx ≃ Fin n where
  toFun j := j 0
  invFun a := ix1 a
  left_inv j := (eq_ix1 j).symm
  right_inv _ := rfl

theorem sum_idx1 {M : Type*} [AddCommMonoid M] {n : Nat} (f : (⟨1, ![n]⟩ : Shape).Idx → M) :
    ∑ j, f j = ∑ a : Fin n, f (ix1 a) := by
  rw [← Equiv.sum_comp (idxEquiv1 (n := n)).symm f]
  rfl

/-- The dimension numbers of a scatter of scalars `[R]` into a vector `[N]` at positions `idx : [R, 1]`. -/
abbrev vecScatter (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

variable (wf : ScatterDims.WF ⟨1, ![N]⟩ ⟨2, ![R, 1]⟩ ⟨1, ![R]⟩ [] [0] [0] 1)
  (idx : IVec (⟨2, ![R, 1]⟩ : Shape) 32) (e : Fin R)

theorem vecScatter_start0 : (vecScatter N R wf).start (ix1 e) idx 0 = (idx (ix2 e (0 : Fin 1))).toInt := by
  unfold ScatterDims.start
  rw [dif_pos (show (0 : Fin 1) ∈ (vecScatter N R wf).scatterDimsToOperandDims from List.mem_singleton.mpr rfl)]
  have hsi : (vecScatter N R wf).siIdx (ix1 e)
      ⟨List.idxOf (0 : Fin 1) (vecScatter N R wf).scatterDimsToOperandDims,
        List.idxOf_lt_length_iff.2 (List.mem_singleton.mpr rfl)⟩ = ix2 e (0 : Fin 1) := by
    funext a; refine Fin.ext ?_
    match a with
    | ⟨0, _⟩ => rfl
    | ⟨1, _⟩ => rfl
  rw [hsi]

theorem vecScatter_window0 : (vecScatter N R wf).window (ix1 e) 0 = 0 := by
  unfold ScatterDims.window
  rw [dif_neg (show (0 : Fin 1) ∉ (vecScatter N R wf).sKept from
    (by decide : (0 : Fin 1) ∉ (List.finRange 1).filter (fun a => a ∉ ([0] : List (Fin 1)))))]

/-- Update element `e` lands on vector element `i` exactly when `idx[e, 0]`, read signed, is `i`. -/
theorem vecScatter_resultIdx_iff (i : Fin N) :
    (vecScatter N R wf).resultIdx? (ix1 e) idx = some (ix1 i)
      ↔ (idx (ix2 e (0 : Fin 1))).toInt = (i.val : Int) := by
  have h0s := vecScatter_start0 wf idx e
  have h0w := vecScatter_window0 wf e
  unfold ScatterDims.resultIdx?
  constructor
  · intro h
    split at h
    · rename_i hall
      have hf := Option.some.inj h
      have e0 := congrArg (fun f => (f 0).val) hf
      have a0 := hall 0
      simp only [h0s, h0w] at e0 a0
      have : ((ix1 i : (⟨1, ![N]⟩ : Shape).Idx) 0).val = i.val := rfl
      omega
    · exact absurd h (by simp)
  · intro hi
    have hall : ∀ a, 0 ≤ (vecScatter N R wf).start (ix1 e) idx a + ((vecScatter N R wf).window (ix1 e) a : Int) ∧
        (vecScatter N R wf).start (ix1 e) idx a + ((vecScatter N R wf).window (ix1 e) a : Int) < ((⟨1, ![N]⟩ : Shape).size a : Int) := by
      intro a
      match a with
      | ⟨0, _⟩ =>
        show 0 ≤ (vecScatter N R wf).start (ix1 e) idx 0 + ((vecScatter N R wf).window (ix1 e) 0 : Int) ∧
          (vecScatter N R wf).start (ix1 e) idx 0 + ((vecScatter N R wf).window (ix1 e) 0 : Int) < (N : Int)
        rw [h0s, h0w, hi]; have := i.isLt; omega
    rw [dif_pos hall]
    congr 1
    funext a
    refine Fin.ext ?_
    match a with
    | ⟨0, _⟩ =>
      show ((vecScatter N R wf).start (ix1 e) idx 0 + ((vecScatter N R wf).window (ix1 e) 0 : Int)).toNat = i.val
      rw [h0s, h0w, hi]; omega

/-- The scatter-add of scalars read at vector element `i`: the vector's element plus the updates of the edges whose
    position, read signed, is `i` (`P` is that condition on an edge). -/
theorem vecScatter_apply (Z : FVec Ideal (⟨1, ![N]⟩ : Shape) .f32)
    (U : FVec Ideal (⟨1, ![R]⟩ : Shape) .f32) (i : Fin N)
    (P : Fin R → Prop) [DecidablePred P] (hP : ∀ e, P e ↔ (idx (ix2 e (0 : Fin 1))).toInt = (i.val : Int)) :
    Host.scatterAdd (vecScatter N R wf) Z idx U (ix1 i)
      = Z (ix1 i) + ∑ e ∈ Finset.univ.filter P, U (ix1 e) := by
  show Ideal.hostScatterAdd (vecScatter N R wf) Z idx U (ix1 i) = _
  unfold Ideal.hostScatterAdd
  congr 1
  rw [Finset.sum_filter, sum_idx1, Finset.sum_filter]
  refine Finset.sum_congr rfl fun a _ => ?_
  by_cases h : P a
  · rw [if_pos h]
    exact if_pos ((vecScatter_resultIdx_iff wf idx a i).2 ((hP a).1 h))
  · rw [if_neg h]
    exact if_neg (fun hh => h ((hP a).2 ((vecScatter_resultIdx_iff wf idx a i).1 hh)))

end Vec

/-! ## The two programs' gathers and scatters -/

section Programs
variable (idx : IVec (⟨2, ![600000, 1]⟩ : Shape) 32)

theorem gather128_apply (X : FVec Ideal Cert.ReferenceIdeal.S50000x128 .f32) (e : Fin 600000) (c : Fin 128) :
    Host.gather Cert.ReferenceIdeal.gather_S50000x128_S600000x1_S600000x128_1_0_n_n_0_1_1128 X idx (ix2 e c)
      = X (ix2 (srcRow idx e) c) :=
  rowGather_apply (N := 50000) (R := 600000) (C := 128) (by decide)
    Cert.ReferenceIdeal.gather_S50000x128_S600000x1_S600000x128_1_0_n_n_0_1_1128.wf X idx e c

theorem gather64_apply (X : FVec Ideal Cert.KernelIdeal.S50000x64 .f32) (e : Fin 600000) (c : Fin 64) :
    Host.gather Cert.KernelIdeal.gather_S50000x64_S600000x1_S600000x64_1_0_n_n_0_1_164 X idx (ix2 e c)
      = X (ix2 (srcRow idx e) c) :=
  rowGather_apply (N := 50000) (R := 600000) (C := 64) (by decide)
    Cert.KernelIdeal.gather_S50000x64_S600000x1_S600000x64_1_0_n_n_0_1_164.wf X idx e c

theorem scatter128_apply (Z : FVec Ideal Cert.ReferenceIdeal.S50000x128 .f32)
    (U : FVec Ideal Cert.ReferenceIdeal.S600000x128 .f32) (i : Fin 50000) (c : Fin 128) :
    Host.scatterAdd Cert.ReferenceIdeal.scatter_S50000x128_S600000x1_S600000x128_1_0_0_1 Z idx U (ix2 i c)
      = Z (ix2 i c) + ∑ e ∈ Finset.univ.filter (fun e : Fin 600000 => hits idx e i), U (ix2 e c) :=
  rowScatter_apply (N := 50000) (R := 600000) (C := 128)
    Cert.ReferenceIdeal.scatter_S50000x128_S600000x1_S600000x128_1_0_0_1.wf Z idx U i c
    (fun e => hits idx e i) (fun _ => Iff.rfl)

theorem scatter64_apply (Z : FVec Ideal Cert.KernelIdeal.S50000x64 .f32)
    (U : FVec Ideal Cert.KernelIdeal.S600000x64 .f32) (i : Fin 50000) (c : Fin 64) :
    Host.scatterAdd Cert.KernelIdeal.scatter_S50000x64_S600000x1_S600000x64_1_0_0_1 Z idx U (ix2 i c)
      = Z (ix2 i c) + ∑ e ∈ Finset.univ.filter (fun e : Fin 600000 => hits idx e i), U (ix2 e c) :=
  rowScatter_apply (N := 50000) (R := 600000) (C := 64)
    Cert.KernelIdeal.scatter_S50000x64_S600000x1_S600000x64_1_0_0_1.wf Z idx U i c
    (fun e => hits idx e i) (fun _ => Iff.rfl)

theorem scatter1_apply (Z : FVec Ideal Cert.ReferenceIdeal.S50000 .f32)
    (U : FVec Ideal Cert.ReferenceIdeal.S600000 .f32) (i : Fin 50000) :
    Host.scatterAdd Cert.ReferenceIdeal.scatter_S50000_S600000x1_S600000_n_0_0_1 Z idx U (ix1 i)
      = Z (ix1 i) + ∑ e ∈ Finset.univ.filter (fun e : Fin 600000 => hits idx e i), U (ix1 e) :=
  vecScatter_apply (N := 50000) (R := 600000)
    Cert.ReferenceIdeal.scatter_S50000_S600000x1_S600000_n_0_0_1.wf idx Z U i
    (fun e => hits idx e i) (fun _ => Iff.rfl)

/-! The kernel program's copies of the three shared records, read the same way. -/

theorem gather128K_apply (X : FVec Ideal Cert.KernelIdeal.S50000x128 .f32) (e : Fin 600000) (c : Fin 128) :
    Host.gather Cert.KernelIdeal.gather_S50000x128_S600000x1_S600000x128_1_0_n_n_0_1_1128 X idx (ix2 e c)
      = X (ix2 (srcRow idx e) c) :=
  gather128_apply idx X e c

theorem scatter128K_apply (Z : FVec Ideal Cert.KernelIdeal.S50000x128 .f32)
    (U : FVec Ideal Cert.KernelIdeal.S600000x128 .f32) (i : Fin 50000) (c : Fin 128) :
    Host.scatterAdd Cert.KernelIdeal.scatter_S50000x128_S600000x1_S600000x128_1_0_0_1 Z idx U (ix2 i c)
      = Z (ix2 i c) + ∑ e ∈ Finset.univ.filter (fun e : Fin 600000 => hits idx e i), U (ix2 e c) :=
  scatter128_apply idx Z U i c

theorem scatter1K_apply (Z : FVec Ideal Cert.KernelIdeal.S50000 .f32)
    (U : FVec Ideal Cert.KernelIdeal.S600000 .f32) (i : Fin 50000) :
    Host.scatterAdd Cert.KernelIdeal.scatter_S50000_S600000x1_S600000_n_0_0_1 Z idx U (ix1 i)
      = Z (ix1 i) + ∑ e ∈ Finset.univ.filter (fun e : Fin 600000 => hits idx e i), U (ix1 e) :=
  scatter1_apply idx Z U i

/-! The gathers at an index variable (its coordinates are the edge and the column). -/

theorem gather128_idx (X : FVec Ideal Cert.ReferenceIdeal.S50000x128 .f32) (j : Cert.ReferenceIdeal.S600000x128.Idx) :
    Host.gather Cert.ReferenceIdeal.gather_S50000x128_S600000x1_S600000x128_1_0_n_n_0_1_1128 X idx j
      = X (ix2 (srcRow idx (j 0)) (j 1)) :=
  (congrArg (Host.gather Cert.ReferenceIdeal.gather_S50000x128_S600000x1_S600000x128_1_0_n_n_0_1_1128 X idx) (eq_ix2 j)).trans
    (gather128_apply idx X (j 0) (j 1))

theorem gather64_idx (X : FVec Ideal Cert.KernelIdeal.S50000x64 .f32) (j : Cert.KernelIdeal.S600000x64.Idx) :
    Host.gather Cert.KernelIdeal.gather_S50000x64_S600000x1_S600000x64_1_0_n_n_0_1_164 X idx j
      = X (ix2 (srcRow idx (j 0)) (j 1)) :=
  (congrArg (Host.gather Cert.KernelIdeal.gather_S50000x64_S600000x1_S600000x64_1_0_n_n_0_1_164 X idx) (eq_ix2 j)).trans
    (gather64_apply idx X (j 0) (j 1))

end Programs

end Cert.Sage.Graph
-- ==== Proof.KernelRead.lean ====
import proofs.«143043_j20512763806339_2_alg».proof.Proof.KernelTerms
import proofs.«143043_j20512763806339_2_alg».proof.Proof.GraphOps
import proofs.«143043_j20512763806339_2_alg».proof.Proof.Core
import Idealize.ShloMosaic.Lib.Pipeline.Value
import Idealize.ShloMosaic.Lib.IdealHost
import Idealize.ShloMosaic.Lib.ValueIdx
import Idealize.ShloMosaic.PureOps.Ideal.Laws

/-!
# The kernel program's host-side values, read at an index

Each whole-array term between the tiled stages is read at one element: the neighbour sums are sums over the edges
landing on a row of the rows those edges read, the clamped in-degree is the count of those edges (at least one), the
bias rows are the bias vectors, and the column statistics are sums over the 50000 rows divided by 50000.
-/

noncomputable section

open Idealize.ShloMosaic Idealize.ShloMosaic.ValueIdx
open scoped BigOperators

namespace Cert.KernelIdeal.KRead

open Cert.KernelIdeal Cert.KernelIdeal.KRun Cert.KernelIdeal.Facts₀

/-- The row edge `e` reads: the wrapped source column's entry, read signed and clamped into the table. -/
abbrev sK (ei : IVec Cert.KernelIdeal.S2x600000 32) : Fin 600000 → Fin 50000 := Cert.Sage.Graph.srcRow (srcK ei)

/-- The edges landing on row `r`: those whose destination entry, read signed, is `r`. -/
abbrev SK (ei : IVec Cert.KernelIdeal.S2x600000 32) : Fin 50000 → Finset (Fin 600000) :=
  fun r => Finset.univ.filter (fun e => Cert.Sage.Graph.hits (dstK ei) e r)

/-- The word `0x3F800000` is one. -/
theorem ofBits_one : Ideal.ofBits .f32 0x3F800000#32 = 1 := by
  simp [Ideal.ofBits, Ideal.ieee]
  rw [← EReal.coe_mul, ← EReal.coe_one, EReal.coe_eq_coe_iff]
  norm_num

variable (ei : IVec Cert.KernelIdeal.S2x600000 32)

/-- A scalar constant broadcast to any shape reads the constant's value. -/
theorem bcast_const {T : Shape} (h : S_.BroadcastsInDim T (![] : Fin 0 → Fin T.rank)) (w : BitVec 32) (j : T.Idx) :
    broadcastInDim T ![] h (constant (F := Ideal) S_ .f32 w) j = Ideal.ofBits .f32 w :=
  broadcastInDim_scalar_apply h _ j

theorem aggK_apply (X : FVec Ideal Cert.KernelIdeal.S50000x128 .f32) (r : Fin 50000) (k : Fin 128) :
    aggK X ei (ix2 r k) = Cert.Sage.Core.nsumAt (sK ei) (SK ei) X r k := by
  rw [Cert.Sage.Core.nsumAt, aggK, Cert.Sage.Graph.scatter128K_apply, bcast_const, Ideal.ofBits_zero_f32]
  exact congrArg (fun t => (0 : EReal) + t)
    (Finset.sum_congr rfl fun e _ => Cert.Sage.Graph.gather128K_apply (srcK ei) X e k)

theorem agg64K_apply (P : FVec Ideal Cert.KernelIdeal.S50000x64 .f32) (r : Fin 50000) (c : Fin 64) :
    agg64K P ei (ix2 r c) = Cert.Sage.Core.nsumAt (sK ei) (SK ei) P r c := by
  rw [Cert.Sage.Core.nsumAt, agg64K, Cert.Sage.Graph.scatter64_apply, bcast_const, Ideal.ofBits_zero_f32]
  exact congrArg (fun t => (0 : EReal) + t)
    (Finset.sum_congr rfl fun e _ => Cert.Sage.Graph.gather64_apply (srcK ei) P e c)

theorem dmaxK_apply (r : Fin 50000) : dmaxK ei (ix1 r) = Cert.Sage.Core.dcl (SK ei) r := by
  rw [Cert.Sage.Core.dcl, dmaxK, maximumf_apply, Cert.Sage.Graph.scatter1K_apply, bcast_const, bcast_const, Ideal.ofBits_zero_f32, ofBits_one]
  exact congrArg (fun t => max ((0 : EReal) + t) 1)
    (Finset.sum_congr rfl fun e _ => by rw [bcast_const, ofBits_one])

theorem invdegK_apply (r : Fin 50000) :
    invdegK ei (ix2 r (0 : Fin 1)) = Ideal.div 1 (Cert.Sage.Core.dcl (SK ei) r) := by
  unfold invdegK
  rw [broadcastInDim_apply _ _ _ (ix2 r (0 : Fin 1)) (ix1 r) (fun a => match a with | ⟨0, _⟩ => rfl),
    hostDivf_apply, bcast_const, ofBits_one, dmaxK_apply]

theorem rowK_apply (b : FVec Ideal Cert.KernelIdeal.S128 .f32) (c : Fin 128) :
    rowK b (ix2 (0 : Fin 1) c) = b (ix1 c) := by
  unfold rowK
  refine shapeCast_apply b _ (ix2 (0 : Fin 1) c) (ix1 c) ?_
  rw [Shape.rowMajor_val_one, Shape.rowMajor_val_two]
  show c.val = (0 : Nat) * 128 + c.val
  omega

theorem row64K_apply (b : FVec Ideal Cert.KernelIdeal.S64 .f32) (c : Fin 64) :
    row64K b (ix2 (0 : Fin 1) c) = b (ix1 c) := by
  unfold row64K
  refine shapeCast_apply b _ (ix2 (0 : Fin 1) c) (ix1 c) ?_
  rw [Shape.rowMajor_val_one, Shape.rowMajor_val_two]
  show c.val = (0 : Nat) * 64 + c.val
  omega

/-! ## The column statistics -/

/-- The word `0x47435000` is fifty thousand. -/
theorem ofBits_50000 : Ideal.ofBits .f32 0x47435000#32 = ((50000 : ℝ) : EReal) := by
  simp [Ideal.ofBits, Ideal.ieee]
  rw [← EReal.coe_mul, EReal.coe_eq_coe_iff]
  norm_num

/-- The word `0x3727C5AC` is a positive real. -/
theorem eps_pos : ∃ ε : ℝ, 0 < ε ∧ Ideal.ofBits .f32 0x3727C5AC#32 = ((ε : ℝ) : EReal) := by
  simp [Ideal.ofBits, Ideal.ieee]
  exact ⟨10995116 * (2 ^ 40)⁻¹, by positivity, (EReal.coe_mul _ _).symm⟩

/-- Removing the row axis of a `[50000, 128]` array leaves its columns. -/
theorem red128 : Cert.KernelIdeal.S50000x128.Reduces [0] Cert.KernelIdeal.S128 := by decide

/-- A column sum from zero, read at column `c`. -/
theorem colsum_apply (H : FVec Ideal Cert.KernelIdeal.S50000x128 .f32) (c : Fin 128) :
    Host.reduceAdd H (constant (F := Ideal) S_ .f32 0x00000000#32) reducesTo_S50000x128_S128_d0 h_S_ (ix1 c)
      = 0 + ∑ r : Fin 50000, H (ix2 r c) := by
  rw [hostReduceAdd_apply, Ideal.hostReduceAdd_single _ red128, constant_apply, Ideal.ofBits_zero_f32]
  exact congrArg (fun t => (0 : EReal) + t) (Finset.sum_congr rfl fun r _ =>
    congrArg H (funext fun a => Fin.ext (match a with | ⟨0, _⟩ => rfl | ⟨1, _⟩ => rfl)))

theorem muK_apply (H : FVec Ideal Cert.KernelIdeal.S50000x128 .f32) (c : Fin 128) :
    muK H (ix1 c) = Ideal.div (0 + ∑ r : Fin 50000, H (ix2 r c)) ((50000 : ℝ) : EReal) := by
  rw [muK, hostDivf_apply, colsum_apply, bcast_const, ofBits_50000]

/-- The deviation the variance squares: the entry less its column's mean. -/
theorem devK_apply (H : FVec Ideal Cert.KernelIdeal.S50000x128 .f32) (r : Fin 50000) (c : Fin 128) :
    devK H (ix2 r c) = H (ix2 r c) - muK H (ix1 c) := by
  rw [devK, subf_apply,
    broadcastInDim_apply _ _ _ (ix2 r c) (ix2 (0 : Fin 1) c) (fun a => match a with | ⟨0, _⟩ => rfl | ⟨1, _⟩ => rfl),
    hostDivf_apply,
    broadcastInDim_apply _ _ _ (ix2 (0 : Fin 1) c) (ix1 c) (fun a => match a with | ⟨0, _⟩ => rfl),
    bcast_const, muK, hostDivf_apply, bcast_const]

/-- The count the variance divides by is fifty thousand. -/
theorem cntK_apply (j : S_.Idx) : cntK j = ((50000 : ℝ) : EReal) := by
  show Ideal.ofBits .f32 0x47435000#32 - (((0#32 : BitVec 32).toInt : ℝ) : EReal) = _
  rw [ofBits_50000]
  simp

theorem varK_apply (H : FVec Ideal Cert.KernelIdeal.S50000x128 .f32) (c : Fin 128) :
    varK H (ix1 c) = Ideal.div (0 + ∑ r : Fin 50000,
      (H (ix2 r c) - muK H (ix1 c)) * (H (ix2 r c) - muK H (ix1 c))) ((50000 : ℝ) : EReal) := by
  have hc : (broadcastInDim S128 ![] bcast_S_S128 (cmpf .ogt cntK (constant (F := Ideal) S_ .f32 0x00000000#32))) (ix1 c)
      = 1#1 := by
    rw [broadcastInDim_scalar_apply, cmpf_apply, cntK_apply, constant_apply, Ideal.ofBits_zero_f32]
    show Ideal.cmp .ogt _ _ = 1#1
    simp [Ideal.cmp]
  rw [varK, select_apply, hc, select_one, hostDivf_apply, broadcastInDim_scalar_apply, cntK_apply, colsum_apply]
  exact congrArg (fun t => Ideal.div ((0 : EReal) + t) ((50000 : ℝ) : EReal)) (Finset.sum_congr rfl fun r _ => by
    rw [mulf_apply, devK_apply])

/-- The per-column factor, read at column `c`. -/
theorem scale1K_apply (H : FVec Ideal Cert.KernelIdeal.S50000x128 .f32) (g : FVec Ideal Cert.KernelIdeal.S128 .f32)
    (c : Fin 128) :
    scale1K H g (ix1 c) = g (ix1 c) * Ideal.rsqrt (varK H (ix1 c) + Ideal.ofBits .f32 0x3727C5AC#32) := by
  rw [scale1K, mulf_apply]
  show g (ix1 c) * Ideal.rsqrt (addf (varK H) (broadcastInDim S128 ![] bcast_S_S128
    (constant (F := Ideal) S_ .f32 0x3727C5AC#32)) (ix1 c)) = _
  rw [addf_apply, bcast_const]

theorem scaleK_apply (H : FVec Ideal Cert.KernelIdeal.S50000x128 .f32) (g : FVec Ideal Cert.KernelIdeal.S128 .f32)
    (c : Fin 128) :
    scaleK H g (ix2 (0 : Fin 1) c)
      = g (ix1 c) * Ideal.rsqrt (varK H (ix1 c) + Ideal.ofBits .f32 0x3727C5AC#32) :=
  (rowK_apply (scale1K H g) c).trans (scale1K_apply H g c)

theorem biasK_apply (H : FVec Ideal Cert.KernelIdeal.S50000x128 .f32) (g bt : FVec Ideal Cert.KernelIdeal.S128 .f32)
    (c : Fin 128) :
    biasK H g bt (ix2 (0 : Fin 1) c)
      = bt (ix1 c) - muK H (ix1 c) * (g (ix1 c) * Ideal.rsqrt (varK H (ix1 c) + Ideal.ofBits .f32 0x3727C5AC#32)) := by
  refine (rowK_apply (subf bt (mulf (muK H) (scale1K H g))) c).trans ?_
  rw [subf_apply, mulf_apply, scale1K_apply]

end Cert.KernelIdeal.KRead

end
-- ==== Proof.RefRead.lean ====
/-
  The reference program's terms read at an index.

  Every named term of the reference run is an array; here each is read at one row and one column (or one entry) as an
  expression of extended reals over its arguments read at indices: a neighbour sum is the sum over the edges landing on
  the row, a layer is two finite sums of products plus a bias, a column statistic is a sum over the 50000 rows divided
  by the count, and the log-softmax is the row-wise one of the specification.
-/
import proofs.«143043_j20512763806339_2_alg».proof.Proof.RefTerms
import proofs.«143043_j20512763806339_2_alg».proof.Proof.GraphOps
import proofs.«143043_j20512763806339_2_alg».proof.Proof.Core
import proofs.«143043_j20512763806339_2_alg».proof.Proof.Spec
import Idealize.ShloMosaic.Lib.ValueIdx
import Idealize.ShloMosaic.Lib.IdealHost
import Idealize.ShloMosaic.Lib.Pipeline.Value
import Idealize.ShloMosaic.Lib.StackMember
import Idealize.ShloMosaic.PureOps.Ideal.Laws

noncomputable section

namespace Cert.ReferenceIdeal.RefRead

open Cert.ReferenceIdeal Cert.ReferenceIdeal.RefRun Idealize.ShloMosaic Idealize.ShloMosaic.ValueIdx
open Cert.ReferenceIdeal.Facts₀
open scoped BigOperators

/-- The row an edge reads. -/
abbrev sI (ei : IVec S2x600000 32) : Fin 600000 → Fin 50000 := Cert.Sage.Graph.srcRow (srcI ei)

/-- The edges whose update lands on a row. -/
abbrev SI (ei : IVec S2x600000 32) : Fin 50000 → Finset (Fin 600000) :=
  fun r => Finset.univ.filter (fun e => Cert.Sage.Graph.hits (dstI ei) e r)

/-! ## Broadcasts read at an index -/

/-- A column of row values repeated across 128 columns reads the row's value. -/
theorem colBcast128_apply (v : FVec Ideal S50000 .f32) (r : Fin 50000) (k : Fin 128) :
    broadcastInDim S50000x128 ![0, 1] bcast_S50000x1_S50000x128_0_1 (broadcastInDim S50000x1 ![0] bcast_S50000_S50000x1_0 v) (ix2 r k)
      = v (ix1 r) := by
  rw [broadcastInDim_apply _ _ _ (ix2 r k) (ix2 r (0 : Fin 1)) (by intro a; fin_cases a <;> rfl),
    broadcastInDim_apply _ _ _ (ix2 r (0 : Fin 1)) (ix1 r) (by intro a; fin_cases a; rfl)]

/-- A vector repeated down the rows reads the column's entry. -/
theorem rows_apply (v : FVec Ideal S128 .f32) (r : Fin 50000) (c : Fin 128) : rows v (ix2 r c) = v (ix1 c) := by
  unfold rows
  rw [broadcastInDim_apply _ _ _ (ix2 r c) (ix2 (0 : Fin 1) c) (by intro a; fin_cases a <;> rfl),
    broadcastInDim_apply _ _ _ (ix2 (0 : Fin 1) c) (ix1 c) (by intro a; fin_cases a; rfl)]

/-! ## The graph operations -/

theorem agg_apply (X : FVec Ideal S50000x128 .f32) (ei : IVec S2x600000 32) (r : Fin 50000) (k : Fin 128) :
    agg X ei (ix2 r k) = Cert.Sage.Core.nsumAt (sI ei) (SI ei) X r k := by
  unfold agg Cert.Sage.Core.nsumAt
  rw [Cert.Sage.Graph.scatter128_apply, broadcastInDim_scalar_apply, constant_apply, Ideal.ofBits_zero_f32]
  exact congrArg (fun z : EReal => 0 + z) (Finset.sum_congr rfl fun e _ => Cert.Sage.Graph.gather128_apply _ X e k)

theorem dmax_apply (ei : IVec S2x600000 32) (r : Fin 50000) : dmax ei (ix1 r) = Cert.Sage.Core.dcl (SI ei) r := by
  unfold dmax Cert.Sage.Core.dcl
  rw [maximumf_apply, Cert.Sage.Graph.scatter1_apply, broadcastInDim_scalar_apply, broadcastInDim_scalar_apply,
    constant_apply, constant_apply, Ideal.ofBits_zero_f32, Ideal.ofBits_one_f32]
  exact congrArg (fun z : EReal => max (0 + z) 1)
    (Finset.sum_congr rfl fun e _ => by rw [broadcastInDim_scalar_apply, constant_apply, Ideal.ofBits_one_f32])

theorem meanAgg_apply (X : FVec Ideal S50000x128 .f32) (ei : IVec S2x600000 32) (r : Fin 50000) (k : Fin 128) :
    meanAgg X ei (ix2 r k) = Ideal.div (agg X ei (ix2 r k)) (dmax ei (ix1 r)) := by
  unfold meanAgg
  rw [hostDivf_apply, colBcast128_apply]

/-! ## The layers -/

theorem dot128_apply (A : FVec Ideal S50000x128 .f32) (W : FVec Ideal S128x128 .f32) (r : Fin 50000) (c : Fin 128) :
    Host.dotGeneral dot_S50000x128_S128x128_S50000x128_1_0_0_1_n_n none A W (ix2 r c) = ∑ k : Fin 128, A (ix2 r k) * W (ix2 k c) :=
  StackMember.dotGeneral_plain_apply (m := 50000) (n := 128) (k := 128) none A W r c

theorem dot64_apply (A : FVec Ideal S50000x128 .f32) (W : FVec Ideal S128x64 .f32) (r : Fin 50000) (c : Fin 64) :
    Host.dotGeneral dot_S50000x128_S128x64_S50000x64_1_0_0_1_n_n none A W (ix2 r c) = ∑ k : Fin 128, A (ix2 r k) * W (ix2 k c) :=
  StackMember.dotGeneral_plain_apply (m := 50000) (n := 64) (k := 128) none A W r c

theorem sage_apply (X : FVec Ideal S50000x128 .f32) (ei : IVec S2x600000 32) (Wl Wr : FVec Ideal S128x128 .f32) (b : FVec Ideal S128 .f32)
    (r : Fin 50000) (c : Fin 128) :
    sage X ei Wl Wr b (ix2 r c)
      = ((∑ k : Fin 128, Ideal.div (agg X ei (ix2 r k)) (dmax ei (ix1 r)) * Wl (ix2 k c)) + ∑ k : Fin 128, X (ix2 r k) * Wr (ix2 k c))
        + b (ix1 c) := by
  unfold sage
  rw [addf_apply, addf_apply, dot128_apply, dot128_apply, ← rows, rows_apply]
  exact congrArg (fun z : EReal => (z + ∑ k : Fin 128, X (ix2 r k) * Wr (ix2 k c)) + b (ix1 c))
    (Finset.sum_congr rfl fun k _ => by rw [meanAgg_apply])

/-- A 64-entry vector repeated down the rows reads the column's entry. -/
theorem rows64_apply (v : FVec Ideal S64 .f32) (r : Fin 50000) (c : Fin 64) :
    broadcastInDim S50000x64 ![0, 1] bcast_S1x64_S50000x64_0_1 (broadcastInDim S1x64 ![1] bcast_S64_S1x64_1 v) (ix2 r c) = v (ix1 c) := by
  rw [broadcastInDim_apply _ _ _ (ix2 r c) (ix2 (0 : Fin 1) c) (by intro a; fin_cases a <;> rfl),
    broadcastInDim_apply _ _ _ (ix2 (0 : Fin 1) c) (ix1 c) (by intro a; fin_cases a; rfl)]

theorem sage64_apply (X : FVec Ideal S50000x128 .f32) (ei : IVec S2x600000 32) (Wl Wr : FVec Ideal S128x64 .f32) (b : FVec Ideal S64 .f32)
    (r : Fin 50000) (c : Fin 64) :
    sage64 X ei Wl Wr b (ix2 r c)
      = ((∑ k : Fin 128, Ideal.div (agg X ei (ix2 r k)) (dmax ei (ix1 r)) * Wl (ix2 k c)) + ∑ k : Fin 128, X (ix2 r k) * Wr (ix2 k c))
        + b (ix1 c) := by
  unfold sage64
  rw [addf_apply, addf_apply, dot64_apply, dot64_apply, rows64_apply]
  exact congrArg (fun z : EReal => (z + ∑ k : Fin 128, X (ix2 r k) * Wr (ix2 k c)) + b (ix1 c))
    (Finset.sum_congr rfl fun k _ => by rw [meanAgg_apply])

theorem relu_apply (X : FVec Ideal S50000x128 .f32) (i : S50000x128.Idx) : relu X i = max (X i) 0 := by
  unfold relu
  rw [maximumf_apply, broadcastInDim_scalar_apply, constant_apply, Ideal.ofBits_zero_f32]

end Cert.ReferenceIdeal.RefRead

end
-- ==== Proof.RefReadStat.lean ====
/-
  The reference's normalisation and its row-wise log-softmax read at an index.

  The normalisation at row `r`, column `c` is the centred entry times the reciprocal root of the shifted column
  variance, times the scale, plus the shift.  The log-softmax term is the specification's: the host's maximum over a
  row from `-∞` is the fold of `max` from `⊥` over the row's 64 entries, a further maximum with `-∞` changes
  nothing, and the host's sum from zero over a row is the row's sum.
-/
import proofs.«143043_j20512763806339_2_alg».proof.Proof.RefRead
import Idealize.ShloMosaic.PureOps.Reduce

noncomputable section

namespace Cert.ReferenceIdeal.RefRead

open Cert.ReferenceIdeal Cert.ReferenceIdeal.RefRun Idealize.ShloMosaic Idealize.ShloMosaic.ValueIdx
open Cert.ReferenceIdeal.Facts₀
open scoped BigOperators

/-! ## The normalisation -/

theorem hostRsqrt_apply {s : Shape} (a : FVec Ideal s .f32) (i : s.Idx) : Host.rsqrt a i = Ideal.rsqrt (a i) := rfl
theorem hostExp_apply {s : Shape} (a : FVec Ideal s .f32) (i : s.Idx) : Host.exp a i = Ideal.exp (a i) := rfl
theorem hostLog_apply {s : Shape} (a : FVec Ideal s .f32) (i : s.Idx) : Host.log a i = Ideal.log (a i) := rfl

theorem bn_apply (H : FVec Ideal S50000x128 .f32) (g bt : FVec Ideal S128 .f32) (r : Fin 50000) (c : Fin 128) :
    bn H g bt (ix2 r c)
      = (((H (ix2 r c) - mean0 H (ix1 c)) * Ideal.rsqrt (var0 H (ix1 c) + Ideal.ofBits .f32 0x3727C5AC#32)) * g (ix1 c)) + bt (ix1 c) := by
  unfold bn
  rw [addf_apply, mulf_apply, mulf_apply, subf_apply, rows_apply, rows_apply, rows_apply, rows_apply, hostRsqrt_apply, addf_apply,
    broadcastInDim_scalar_apply, constant_apply]

/-! ## The log-softmax -/

/-- A column of row values repeated across the 64 columns reads the row's value. -/
theorem colBcast64_apply (w : FVec Ideal S50000x1 .f32) (r : Fin 50000) (c : Fin 64) :
    broadcastInDim S50000x64 ![0, 1] bcast_S50000x1_S50000x64_0_1 w (ix2 r c) = w (ix2 r (0 : Fin 1)) :=
  broadcastInDim_apply _ _ _ (ix2 r c) (ix2 r (0 : Fin 1)) (by intro a; fin_cases a <;> rfl)

theorem col_apply (v : FVec Ideal S50000 .f32) (r : Fin 50000) :
    broadcastInDim S50000x1 ![0] bcast_S50000_S50000x1_0 v (ix2 r (0 : Fin 1)) = v (ix1 r) :=
  broadcastInDim_apply _ _ _ (ix2 r (0 : Fin 1)) (ix1 r) (by intro a; fin_cases a; rfl)

theorem cols64_apply (v : FVec Ideal S50000 .f32) (r : Fin 50000) (c : Fin 64) : cols64 v (ix2 r c) = v (ix1 r) := by
  unfold cols64
  rw [colBcast64_apply, col_apply]

/-- The witness naming the index a row's reduction inserts. -/
theorem red1 : S50000x64.Reduces [1] S50000 := by decide

/-- Row `r` with column `k` put back is (r, k). -/
theorem lift1 (r : Fin 50000) (k : Fin 64) : red1.lift (ix1 r) k = ix2 r k := by
  funext a; apply Fin.ext
  fin_cases a <;> rfl

/-- The word 0xFF800000 is `-∞`. -/
theorem ofBits_negInf : Ideal.ofBits .f32 0xFF800000#32 = (⊥ : EReal) := by
  simp [Ideal.ofBits, Ideal.ieee]

/-- The host's maximum over a row from `-∞` is the row's maximum. -/
theorem hostRowMax_apply (H : FVec Ideal S50000x64 .f32) (r : Fin 50000) :
    Host.reduce FloatOps.maximumf H (constant (F := Ideal) S_ .f32 0xFF800000#32) reducesTo_S50000x64_S50000_d1 h_S_ (ix1 r)
      = Cert.Sage.rowMax H r := by
  rw [Host.reduce_eq_fold_single FloatOps.maximumf H _ reducesTo_S50000x64_S50000_d1 red1 h_S_, constant_apply, ofBits_negInf]
  unfold Cert.Sage.rowMax
  have hf : (H ∘ red1.lift (ix1 r)) = fun k : Fin 64 => H (ix2 r k) := funext fun k => congrArg H (lift1 r k)
  exact congrArg (fun f => Finset.fold max (⊥ : EReal) f (Finset.univ : Finset (Fin 64))) hf

theorem shifted_apply (H : FVec Ideal S50000x64 .f32) (r : Fin 50000) (c : Fin 64) :
    shifted H (ix2 r c) = H (ix2 r c) - Cert.Sage.rowMax H r := by
  unfold shifted
  rw [subf_apply, cols64_apply, maximumf_apply, broadcastInDim_scalar_apply, constant_apply, ofBits_negInf, hostRowMax_apply]
  exact congrArg (fun z : EReal => H (ix2 r c) - z) (max_bot_left _)

/-- The host's sum over a row from zero is the row's sum. -/
theorem hostRowSum_apply (A : FVec Ideal S50000x64 .f32) (r : Fin 50000) :
    Host.reduceAdd A (constant (F := Ideal) S_ .f32 0x00000000#32) reducesTo_S50000x64_S50000_d1 h_S_ (ix1 r)
      = ∑ k : Fin 64, A (ix2 r k) := by
  rw [hostReduceAdd_apply, Ideal.hostReduceAdd_single reducesTo_S50000x64_S50000_d1 red1, constant_apply, Ideal.ofBits_zero_f32, zero_add]
  exact Finset.sum_congr rfl fun k _ => congrArg A (lift1 r k)

theorem lsm_apply (H : FVec Ideal S50000x64 .f32) (r : Fin 50000) (c : Fin 64) :
    Cert.ReferenceIdeal.RefRun.lsm H (ix2 r c) = Cert.Sage.lsmAt H r c := by
  unfold Cert.ReferenceIdeal.RefRun.lsm Cert.Sage.lsmAt
  rw [subf_apply, shifted_apply, colBcast64_apply, hostLog_apply, col_apply, hostRowSum_apply]
  exact congrArg (fun z : EReal => (H (ix2 r c) - Cert.Sage.rowMax H r) - Ideal.log z)
    (Finset.sum_congr rfl fun k _ => by rw [hostExp_apply, shifted_apply])

theorem lsm_eq (H : FVec Ideal S50000x64 .f32) : Cert.ReferenceIdeal.RefRun.lsm H = Cert.Sage.lsm H := by
  funext i
  obtain ⟨r, c, rfl⟩ : ∃ (r : Fin 50000) (c : Fin 64), i = ix2 r c := ⟨i 0, i 1, eq_ix2 i⟩
  exact lsm_apply H r c

end Cert.ReferenceIdeal.RefRead

end
-- ==== Proof.Bridge.lean ====
/-
  The kernel program's value is the reference's.

  Both programs aggregate over one graph: the source rows `s` and the landing sets `S` read off the same two
  index columns.  Stage by stage: the first two layers agree because multiplying by the reciprocal of the clamped
  in-degree is dividing by it; the normalisation agrees in its affine and its centred form because every entry of the
  second layer's output, the column means and the reciprocal standard deviations are finite (the inputs are, and
  sums, products and the clamp keep finiteness); the last layer agrees because projecting and then summing
  neighbours is summing neighbours and then projecting, again on finite entries; the log-softmax is one function.
-/
import proofs.«143043_j20512763806339_2_alg».proof.Proof.Core
import proofs.«143043_j20512763806339_2_alg».proof.Proof.KernelTerms
import proofs.«143043_j20512763806339_2_alg».proof.Proof.RefTerms
import proofs.«143043_j20512763806339_2_alg».proof.Proof.KernelRead
import proofs.«143043_j20512763806339_2_alg».proof.Proof.RefRead
import proofs.«143043_j20512763806339_2_alg».proof.Proof.RefReadStat

noncomputable section

namespace Cert.Sage.Bridge

open Idealize.ShloMosaic Idealize.ShloMosaic.ValueIdx Cert.Sage Cert.Sage.Alg Cert.Sage.Core
open Cert.KernelIdeal.KRun Cert.KernelIdeal.KRead Cert.ReferenceIdeal.RefRun Cert.ReferenceIdeal.RefRead

variable (ei : IVec (⟨2, ![2, 600000]⟩ : Shape) 32)

/-- The two programs read the same index columns. -/
theorem srcK_eq : srcK ei = srcI ei := rfl
theorem dstK_eq : dstK ei = dstI ei := rfl
theorem sI_eq : sI ei = sK ei := rfl
theorem SI_eq : SI ei = SK ei := rfl
/-- and compute the same column statistics. -/
theorem muK_eq (H : Mat 50000 128) : muK H = mean0 H := rfl
theorem varK_eq (H : Mat 50000 128) : varK H = var0 H := rfl

/-- A one-row array's index is `(0, c)`. -/
theorem row_idx {n : Nat} (i : (⟨2, ![1, n]⟩ : Shape).Idx) : ∃ c : Fin n, i = ix2 (0 : Fin 1) c :=
  ⟨i 1, by
    funext d
    match d with
    | ⟨0, h⟩ => exact Fin.eq_zero (i ⟨0, h⟩ : Fin 1)
    | ⟨1, _⟩ => rfl⟩

/-- The neighbour sums on the kernel's side are the reference's. -/
theorem aggK_eq (X : Mat 50000 128) (r : Fin 50000) (k : Fin 128) : aggK X ei (ix2 r k) = agg X ei (ix2 r k) := by
  rw [aggK_apply, agg_apply, sI_eq, SI_eq]

theorem dmax_eq (r : Fin 50000) : dmax ei (ix1 r) = dcl (SK ei) r := by rw [dmax_apply, SI_eq]

/-- The first two layers: `1/deg` multiplied in, against the division. -/
theorem conv_eq (X : Mat 50000 128) (Wl Wr : Mat 128 128) (b : FVec Ideal (⟨1, ![128]⟩ : Shape) .f32) (r : Fin 50000) (c : Fin 128) :
    convAt (aggK X ei) X (invdegK ei) Wl Wr (rowK b) r c = sage X ei Wl Wr b (ix2 r c) := by
  rw [convAt_eq (SK ei) _ _ _ (fun r => invdegK_apply ei r), sage_apply, rowK_apply]
  have h : ∀ k : Fin 128, Ideal.div (aggK X ei (ix2 r k)) (dcl (SK ei) r) * Wl (ix2 k c)
      = Ideal.div (agg X ei (ix2 r k)) (dmax ei (ix1 r)) * Wl (ix2 k c) := fun k => by rw [aggK_eq, dmax_eq]
  rw [Finset.sum_congr rfl fun k _ => h k]

theorem stage1 (X : Mat 50000 128) (Wl Wr : Mat 128 128) (b : FVec Ideal (⟨1, ![128]⟩ : Shape) .f32) :
    conv (aggK X ei) X (invdegK ei) Wl Wr (rowK b) = sage X ei Wl Wr b := by
  funext i
  obtain ⟨r, c, rfl⟩ : ∃ (r : Fin 50000) (c : Fin 128), i = ix2 r c := ⟨i 0, i 1, eq_ix2 i⟩
  exact conv_eq ei X Wl Wr b r c

theorem stage0 (X : Mat 50000 128) (Wl Wr : Mat 128 128) (b : FVec Ideal (⟨1, ![128]⟩ : Shape) .f32) :
    layer0 (aggK X ei) X (invdegK ei) Wl Wr (rowK b) = relu (sage X ei Wl Wr b) := by
  funext i
  obtain ⟨r, c, rfl⟩ : ∃ (r : Fin 50000) (c : Fin 128), i = ix2 r c := ⟨i 0, i 1, eq_ix2 i⟩
  rw [relu_apply, ← conv_eq ei X Wl Wr b r c]
  rfl

/-! ## Finiteness along the kernel's stages -/

theorem aggK_real (X : Mat 50000 128) (hX : ∀ i, IsR (X i)) (i : (⟨2, ![50000, 128]⟩ : Shape).Idx) : IsR (aggK X ei i) := by
  obtain ⟨r, c, rfl⟩ : ∃ (r : Fin 50000) (c : Fin 128), i = ix2 r c := ⟨i 0, i 1, eq_ix2 i⟩
  rw [aggK_apply]; exact nsumAt_real _ _ X hX r c

theorem rowK_real (b : FVec Ideal (⟨1, ![128]⟩ : Shape) .f32) (hb : ∀ i, IsR (b i)) (i : (⟨2, ![1, 128]⟩ : Shape).Idx) : IsR (rowK b i) := by
  obtain ⟨c, rfl⟩ := row_idx i
  rw [rowK_apply]; exact hb _

theorem conv_real (X : Mat 50000 128) (Wl Wr : Mat 128 128) (b : FVec Ideal (⟨1, ![128]⟩ : Shape) .f32)
    (hX : ∀ i, IsR (X i)) (hWl : ∀ i, IsR (Wl i)) (hWr : ∀ i, IsR (Wr i)) (hb : ∀ i, IsR (b i)) (i : (⟨2, ![50000, 128]⟩ : Shape).Idx) :
    IsR (conv (aggK X ei) X (invdegK ei) Wl Wr (rowK b) i) :=
  convAt_real (SK ei) _ _ _ (fun r => invdegK_apply ei r) _ _ _ (aggK_real ei X hX) hX hWl hWr (rowK_real b hb) (i 0) (i 1)

theorem layer0_real (X : Mat 50000 128) (Wl Wr : Mat 128 128) (b : FVec Ideal (⟨1, ![128]⟩ : Shape) .f32)
    (hX : ∀ i, IsR (X i)) (hWl : ∀ i, IsR (Wl i)) (hWr : ∀ i, IsR (Wr i)) (hb : ∀ i, IsR (b i)) (i : (⟨2, ![50000, 128]⟩ : Shape).Idx) :
    IsR (layer0 (aggK X ei) X (invdegK ei) Wl Wr (rowK b) i) :=
  (conv_real ei X Wl Wr b hX hWl hWr hb i).max IsR.zero

/-! ## The normalisation -/

theorem mu_real (H : Mat 50000 128) (hH : ∀ i, IsR (H i)) (c : Fin 128) : IsR (muK H (ix1 c)) := by
  rw [muK_apply]; exact mean_real H hH c

theorem rs_real (H : Mat 50000 128) (hH : ∀ i, IsR (H i)) (c : Fin 128) :
    IsR (Ideal.rsqrt (varK H (ix1 c) + Ideal.ofBits .f32 0x3727C5AC#32)) := by
  obtain ⟨ε, hε, e⟩ := eps_pos
  rw [varK_apply, e]; exact rsqrt_var_real H hH _ (mu_real H hH c) ε hε c

theorem stage2 (H x : Mat 50000 128) (g bt : FVec Ideal (⟨1, ![128]⟩ : Shape) .f32)
    (hH : ∀ i, IsR (H i)) (hg : ∀ i, IsR (g i)) (hbt : ∀ i, IsR (bt i)) :
    bnres H x (scaleK H g) (biasK H g bt) = addf (relu (bn H g bt)) x := by
  funext i
  obtain ⟨r, c, rfl⟩ : ∃ (r : Fin 50000) (c : Fin 128), i = ix2 r c := ⟨i 0, i 1, eq_ix2 i⟩
  rw [addf_apply, relu_apply, bn_apply, ← muK_eq, ← varK_eq]
  exact bnresAt_eq H x _ _ (fun c => muK H (ix1 c)) (fun c => Ideal.rsqrt (varK H (ix1 c) + Ideal.ofBits .f32 0x3727C5AC#32))
    (fun c => g (ix1 c)) (fun c => bt (ix1 c)) (fun c => scaleK_apply H g c) (fun c => biasK_apply H g bt c)
    hH (mu_real H hH) (rs_real H hH) (fun c => hg _) (fun c => hbt _) r c

theorem bnres_real (H x : Mat 50000 128) (g bt : FVec Ideal (⟨1, ![128]⟩ : Shape) .f32)
    (hH : ∀ i, IsR (H i)) (hx : ∀ i, IsR (x i)) (hg : ∀ i, IsR (g i)) (hbt : ∀ i, IsR (bt i)) (i : (⟨2, ![50000, 128]⟩ : Shape).Idx) :
    IsR (bnres H x (scaleK H g) (biasK H g bt) i) := by
  refine bnresAt_real H x _ _ hH hx (fun j => ?_) (fun j => ?_) (i 0) (i 1)
  · obtain ⟨c, rfl⟩ := row_idx j
    rw [scaleK_apply]; exact (hg _).mul (rs_real H hH _)
  · obtain ⟨c, rfl⟩ := row_idx j
    rw [biasK_apply]; exact (hbt _).sub ((mu_real H hH _).mul ((hg _).mul (rs_real H hH _)))

/-! ## The last layer -/

theorem stage3 (h : Mat 50000 128) (Wl Wr : Mat 128 64) (b : FVec Ideal (⟨1, ![64]⟩ : Shape) .f32)
    (hh : ∀ i, IsR (h i)) (hWl : ∀ i, IsR (Wl i)) :
    pre3 (agg64K (proj h Wl) ei) h (invdegK ei) Wr (row64K b) = sage64 h ei Wl Wr b := by
  funext i
  obtain ⟨r, c, rfl⟩ : ∃ (r : Fin 50000) (c : Fin 64), i = ix2 r c := ⟨i 0, i 1, eq_ix2 i⟩
  rw [sage64_apply]
  refine (pre3At_eq (sK ei) (SK ei) _ h Wl (fun r c => agg64K_apply ei _ r c) _ (fun r => invdegK_apply ei r) Wr _ hh hWl r c).trans ?_
  rw [row64K_apply]
  have h' : ∀ k : Fin 128, Ideal.div (nsumAt (sK ei) (SK ei) h r k) (dcl (SK ei) r) * Wl (ix2 k c)
      = Ideal.div (agg h ei (ix2 r k)) (dmax ei (ix1 r)) * Wl (ix2 k c) := fun k => by rw [agg_apply, dmax_eq, sI_eq, SI_eq]
  rw [Finset.sum_congr rfl fun k _ => h' k]

/-! ## The whole network -/

theorem network (x : Mat 50000 128) (Wl0 Wr0 Wl1 Wr1 : Mat 128 128) (Wl2 Wr2 : Mat 128 64)
    (b0 b1 g bt : FVec Ideal (⟨1, ![128]⟩ : Shape) .f32) (b2 : FVec Ideal (⟨1, ![64]⟩ : Shape) .f32)
    (hx : ∀ i, IsR (x i)) (hWl0 : ∀ i, IsR (Wl0 i)) (hWr0 : ∀ i, IsR (Wr0 i)) (hb0 : ∀ i, IsR (b0 i))
    (hWl1 : ∀ i, IsR (Wl1 i)) (hWr1 : ∀ i, IsR (Wr1 i)) (hb1 : ∀ i, IsR (b1 i)) (hWl2 : ∀ i, IsR (Wl2 i))
    (hg : ∀ i, IsR (g i)) (hbt : ∀ i, IsR (bt i))
    (H0 H1 H2 : Mat 50000 128)
    (e0 : H0 = layer0 (aggK x ei) x (invdegK ei) Wl0 Wr0 (rowK b0))
    (e1 : H1 = conv (aggK H0 ei) H0 (invdegK ei) Wl1 Wr1 (rowK b1))
    (e2 : H2 = bnres H1 x (scaleK H1 g) (biasK H1 g bt)) :
    Cert.Sage.lsm (pre3 (agg64K (proj H2 Wl2) ei) H2 (invdegK ei) Wr2 (row64K b2))
      = result x ei Wl0 Wr0 b0 Wl1 Wr1 b1 Wl2 Wr2 b2 g bt := by
  have r0 : ∀ i, IsR (H0 i) := fun i => e0 ▸ layer0_real ei x Wl0 Wr0 b0 hx hWl0 hWr0 hb0 i
  have r1 : ∀ i, IsR (H1 i) := fun i => e1 ▸ conv_real ei H0 Wl1 Wr1 b1 r0 hWl1 hWr1 hb1 i
  have r2 : ∀ i, IsR (H2 i) := fun i => e2 ▸ bnres_real H1 x g bt r1 hx hg hbt i
  have f0 : H0 = relu (sage x ei Wl0 Wr0 b0) := e0.trans (stage0 ei x Wl0 Wr0 b0)
  have f1 : H1 = sage H0 ei Wl1 Wr1 b1 := e1.trans (stage1 ei H0 Wl1 Wr1 b1)
  have f2 : H2 = addf (relu (bn H1 g bt)) x := e2.trans (stage2 H1 x g bt r1 hg hbt)
  unfold result
  rw [lsm_eq, stage3 ei H2 Wl2 Wr2 b2 r2 hWl2, f2, f1, f0]

end Cert.Sage.Bridge

end
-- ==== Proof.Finite.lean ====
/-
  From the precondition to "every float input entry is a real number".

  The precondition is a conjunction (a chain of `and` on one-bit words) of twelve all-reductions, one per float
  argument array `x`: the reduction by `and` of the array of comparisons `|x i| < +∞` is 1. An all-reduction
  that is 1 has a 1 at every index; `max x (-x) < ⊤` in the extended reals excludes both infinities, so `x i`
  is the image of a real.
-/
import Idealize.ShloMosaic.Lib.ReduceAll
import proofs.«143043_j20512763806339_2_alg».proof.Defs
import proofs.«143043_j20512763806339_2_alg».proof.Proof.Gen.Pre_finite_inputs
import proofs.«143043_j20512763806339_2_alg».proof.Proof.Gen.KernelIdeal
import proofs.«143043_j20512763806339_2_alg».proof.Proof.Alg

noncomputable section

namespace Cert.Sage.Finite

open Idealize.ShloMosaic Idealize.SL.Sem Cert.Sage.Alg

/-- The rank-0 shape has exactly one index. -/
instance : Subsingleton Cert.Pre_finite_inputs.S_.Idx := ⟨fun a b => funext fun d => d.elim0⟩

/-- The f32 pattern `0x7F800000` denotes `+∞`. -/
theorem ofBits_inf : Ideal.ofBits .f32 0x7F800000#32 = (⊤ : EReal) := by
  simp [Ideal.ofBits, Ideal.ieee]

/-- An extended real whose absolute value `max x (-x)` is below `+∞` is a real number. -/
theorem isR_of_abs_lt_top (x : EReal) (h : max x (-x) < (⊤ : EReal)) : IsR x := by
  induction x using EReal.rec with
  | bot => simp at h
  | coe r => exact ⟨r, rfl⟩
  | top => simp at h

/-- The element fact: the comparison `|x| < +∞` printed as a one-bit word being 1 makes `x` a real. -/
theorem isR_of_cmp (x : Ideal .f32)
    (h : FloatOps.cmpf (F := Ideal) .olt (FloatOps.hostAbsf x) (FloatOps.ofBits .f32 0x7F800000#32) = 1#1) : IsR x := by
  refine isR_of_abs_lt_top x ?_
  have h' : Ideal.cmp .olt (max x (-x)) (Ideal.ofBits .f32 0x7F800000#32) = 1#1 := h
  rw [ofBits_inf] at h'
  by_contra hn
  rw [Ideal.cmp] at h'
  simp only [decide_eq_false hn] at h'
  exact absurd h' (by decide)

open Cert.Pre_finite_inputs in
/-- One all-reduction read back: if the reduction by `and` of `|x i| < +∞` over every index is 1,
    every entry of `x` is a real number. -/
theorem all_isR {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi
        (cmpf .olt (Host.absf x) (broadcastInDim s ![] hb (constant (F := Ideal) S_ .f32 0x7F800000#32)))
        (constantI S_ 1 1#1) hr hu j = 1#1) (i : s.Idx) : IsR (x i) :=
  isR_of_cmp (x i) (Host.reduce_andi_all _ _ hr hu _ e i)

/-- Every entry of each of the twelve float argument arrays is a real number, under the precondition. -/
theorem of_pre (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsR (((m ((c.tc : Thread Cert.KernelIdeal.nD Cert.KernelIdeal.τ).loc Cert.KernelIdeal.main_arg0)) : FVec Ideal Cert.KernelIdeal.S50000x128 .f32) i))
    ∧ (∀ i, IsR (((m ((c.tc : Thread Cert.KernelIdeal.nD Cert.KernelIdeal.τ).loc Cert.KernelIdeal.main_arg2)) : FVec Ideal Cert.KernelIdeal.S128x128 .f32) i))
    ∧ (∀ i, IsR (((m ((c.tc : Thread Cert.KernelIdeal.nD Cert.KernelIdeal.τ).loc Cert.KernelIdeal.main_arg3)) : FVec Ideal Cert.KernelIdeal.S128x128 .f32) i))
    ∧ (∀ i, IsR (((m ((c.tc : Thread Cert.KernelIdeal.nD Cert.KernelIdeal.τ).loc Cert.KernelIdeal.main_arg4)) : FVec Ideal Cert.KernelIdeal.S128 .f32) i))
    ∧ (∀ i, IsR (((m ((c.tc : Thread Cert.KernelIdeal.nD Cert.KernelIdeal.τ).loc Cert.KernelIdeal.main_arg5)) : FVec Ideal Cert.KernelIdeal.S128x128 .f32) i))
    ∧ (∀ i, IsR (((m ((c.tc : Thread Cert.KernelIdeal.nD Cert.KernelIdeal.τ).loc Cert.KernelIdeal.main_arg6)) : FVec Ideal Cert.KernelIdeal.S128x128 .f32) i))
    ∧ (∀ i, IsR (((m ((c.tc : Thread Cert.KernelIdeal.nD Cert.KernelIdeal.τ).loc Cert.KernelIdeal.main_arg7)) : FVec Ideal Cert.KernelIdeal.S128 .f32) i))
    ∧ (∀ i, IsR (((m ((c.tc : Thread Cert.KernelIdeal.nD Cert.KernelIdeal.τ).loc Cert.KernelIdeal.main_arg8)) : FVec Ideal Cert.KernelIdeal.S128x64 .f32) i))
    ∧ (∀ i, IsR (((m ((c.tc : Thread Cert.KernelIdeal.nD Cert.KernelIdeal.τ).loc Cert.KernelIdeal.main_arg9)) : FVec Ideal Cert.KernelIdeal.S128x64 .f32) i))
    ∧ (∀ i, IsR (((m ((c.tc : Thread Cert.KernelIdeal.nD Cert.KernelIdeal.τ).loc Cert.KernelIdeal.main_arg10)) : FVec Ideal Cert.KernelIdeal.S64 .f32) i))
    ∧ (∀ i, IsR (((m ((c.tc : Thread Cert.KernelIdeal.nD Cert.KernelIdeal.τ).loc Cert.KernelIdeal.main_arg11)) : FVec Ideal Cert.KernelIdeal.S128 .f32) i))
    ∧ (∀ i, IsR (((m ((c.tc : Thread Cert.KernelIdeal.nD Cert.KernelIdeal.τ).loc Cert.KernelIdeal.main_arg12)) : FVec Ideal Cert.KernelIdeal.S128 .f32) i)) := by
  have h0 := congrFun (h c) (fun a => a.elim0)
  dsimp only [Cert.Pre_finite_inputs.fn, Cert.Pre_finite_inputs.fn_part1, Cert.Pre_finite_inputs.fn_part2,
    Cert.Pre_finite_inputs.fn_part3, Idealize.ShloMosaic.andi] at h0
  simp only [IntOp.andi_eq_one] at h0
  obtain ⟨⟨⟨⟨⟨⟨⟨⟨⟨⟨⟨e0, e2⟩, e3⟩, e4⟩, e5⟩, e6⟩, e7⟩, e8⟩, e9⟩, e10⟩, e11⟩, e12⟩ := h0
  exact ⟨all_isR _ _ _ _ _ e0, all_isR _ _ _ _ _ e2, all_isR _ _ _ _ _ e3, all_isR _ _ _ _ _ e4,
    all_isR _ _ _ _ _ e5, all_isR _ _ _ _ _ e6, all_isR _ _ _ _ _ e7, all_isR _ _ _ _ _ e8,
    all_isR _ _ _ _ _ e9, all_isR _ _ _ _ _ e10, all_isR _ _ _ _ _ e11, all_isR _ _ _ _ _ e12⟩

end Cert.Sage.Finite
-- ==== Proof.KernelValue.lean ====
/-
  The kernel program's result array, as the reference's term of the arguments.

  The result is the last tiled stage's output.  Each stage's output is the stage's function (module Spec) of its input
  arrays; each input array is a host-side aggregate of earlier outputs or an argument.  Composing the four stages and
  joining the composition to the reference's (module Bridge) gives the value, for finite arguments.
-/
import proofs.«143043_j20512763806339_2_alg».proof.Defs
import proofs.«143043_j20512763806339_2_alg».proof.Proof.KernelWire
import proofs.«143043_j20512763806339_2_alg».proof.Proof.KernelWire01
import proofs.«143043_j20512763806339_2_alg».proof.Proof.Region0
import proofs.«143043_j20512763806339_2_alg».proof.Proof.Region1
import proofs.«143043_j20512763806339_2_alg».proof.Proof.Region2
import proofs.«143043_j20512763806339_2_alg».proof.Proof.Region3
import proofs.«143043_j20512763806339_2_alg».proof.Proof.Bridge
import proofs.«143043_j20512763806339_2_alg».proof.Proof.Finite

noncomputable section

namespace Cert.Sage.KernelValue

open Idealize.ShloMosaic Idealize.ShloMosaic.TcCoe Idealize.SL.Sem Cert.KernelIdeal Cert.KernelIdeal.Gen Cert.KernelIdeal.KRun
open Cert.Sage Cert.Sage.Alg

variable (m : (ℓ : Loc nD τ sig) → Buf (Elt Ideal) ℓ) (ρ : Dev nD → PrngReg) (c : Dev nD)

/-- The first stage's output. -/
theorem out0 : H0 m ρ c = layer0 (aggK (m ((c.tc : Thread nD τ).loc main_arg0)) (m ((c.tc : Thread nD τ).loc main_arg1)))
    (m ((c.tc : Thread nD τ).loc main_arg0)) (invdegK (m ((c.tc : Thread nD τ).loc main_arg1)))
    (m ((c.tc : Thread nD τ).loc main_arg2)) (m ((c.tc : Thread nD τ).loc main_arg3)) (rowK (m ((c.tc : Thread nD τ).loc main_arg4))) := by
  unfold H0
  rw [Cert.KernelIdeal.Region0.final0 (V1 m ρ) c, in0_0 m ρ c, in0_1 m ρ c, in0_2 m ρ c, in0_3 m ρ c, in0_4 m ρ c, in0_5 m ρ c]

/-- The second stage's output. -/
theorem out1 : H1 m ρ c = conv (aggK (H0 m ρ c) (m ((c.tc : Thread nD τ).loc main_arg1))) (H0 m ρ c)
    (invdegK (m ((c.tc : Thread nD τ).loc main_arg1))) (m ((c.tc : Thread nD τ).loc main_arg5)) (m ((c.tc : Thread nD τ).loc main_arg6))
    (rowK (m ((c.tc : Thread nD τ).loc main_arg7))) := by
  unfold H1
  rw [Cert.KernelIdeal.Region1.final1 (V3 m ρ) c, in1_0 m ρ c, in1_1 m ρ c, in1_2 m ρ c, in1_3 m ρ c, in1_4 m ρ c, in1_5 m ρ c]

/-- The third stage's two outputs. -/
theorem out2 : H2h m ρ c = bnres (H1 m ρ c) (m ((c.tc : Thread nD τ).loc main_arg0))
    (scaleK (H1 m ρ c) (m ((c.tc : Thread nD τ).loc main_arg11)))
    (biasK (H1 m ρ c) (m ((c.tc : Thread nD τ).loc main_arg11)) (m ((c.tc : Thread nD τ).loc main_arg12))) := by
  unfold H2h
  rw [Cert.KernelIdeal.Region2.final2_5 (V7 m ρ) c, in2_0 m ρ c, in2_1 m ρ c, in2_2 m ρ c, in2_3 m ρ c]

theorem out2p : H2p m ρ c = proj (H2h m ρ c) (m ((c.tc : Thread nD τ).loc main_arg8)) := by
  unfold H2p H2h
  rw [Cert.KernelIdeal.Region2.final2_6 (V7 m ρ) c, Cert.KernelIdeal.Region2.final2_5 (V7 m ρ) c, in2_4 m ρ c]

/-- The last stage's output. -/
theorem out3 : OUT m ρ c = lsm (pre3 (agg64K (H2p m ρ c) (m ((c.tc : Thread nD τ).loc main_arg1))) (H2h m ρ c)
    (invdegK (m ((c.tc : Thread nD τ).loc main_arg1))) (m ((c.tc : Thread nD τ).loc main_arg9)) (row64K (m ((c.tc : Thread nD τ).loc main_arg10)))) := by
  unfold OUT
  rw [Cert.KernelIdeal.Region3.final3 (V9 m ρ) c, in3_0 m ρ c, in3_1 m ρ c, in3_2 m ρ c, in3_3 m ρ c, in3_4 m ρ c]

/-- The composition, over abstract stage outputs. -/
theorem assemble (ei : IVec (⟨2, ![2, 600000]⟩ : Shape) 32) (x : Mat 50000 128) (Wl0 Wr0 Wl1 Wr1 : Mat 128 128) (Wl2 Wr2 : Mat 128 64)
    (b0 b1 g bt : FVec Ideal (⟨1, ![128]⟩ : Shape) .f32) (b2 : FVec Ideal (⟨1, ![64]⟩ : Shape) .f32)
    (hx : ∀ i, IsR (x i)) (hWl0 : ∀ i, IsR (Wl0 i)) (hWr0 : ∀ i, IsR (Wr0 i)) (hb0 : ∀ i, IsR (b0 i))
    (hWl1 : ∀ i, IsR (Wl1 i)) (hWr1 : ∀ i, IsR (Wr1 i)) (hb1 : ∀ i, IsR (b1 i)) (hWl2 : ∀ i, IsR (Wl2 i))
    (hg : ∀ i, IsR (g i)) (hbt : ∀ i, IsR (bt i))
    (h0 h1 h2 : Mat 50000 128) (p o : Mat 50000 64)
    (e0 : h0 = layer0 (aggK x ei) x (invdegK ei) Wl0 Wr0 (rowK b0))
    (e1 : h1 = conv (aggK h0 ei) h0 (invdegK ei) Wl1 Wr1 (rowK b1))
    (e2 : h2 = bnres h1 x (scaleK h1 g) (biasK h1 g bt))
    (e2p : p = proj h2 Wl2)
    (e3 : o = lsm (pre3 (agg64K p ei) h2 (invdegK ei) Wr2 (row64K b2))) :
    o = Cert.ReferenceIdeal.RefRun.result x ei Wl0 Wr0 b0 Wl1 Wr1 b1 Wl2 Wr2 b2 g bt := by
  subst e2p
  rw [e3]
  exact Cert.Sage.Bridge.network ei x Wl0 Wr0 Wl1 Wr1 Wl2 Wr2 b0 b1 g bt b2 hx hWl0 hWr0 hb0 hWl1 hWr1 hb1 hWl2 hg hbt h0 h1 h2 e0 e1 e2

theorem value (hpre : Cert.Pre_KernelIdeal m) :
    W10 m ρ c (Proc.devRef .tc main_v61)
      = Cert.ReferenceIdeal.RefRun.result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (m ((c.tc : Thread nD τ).loc main_arg9)) (m ((c.tc : Thread nD τ).loc main_arg10))
          (m ((c.tc : Thread nD τ).loc main_arg11)) (m ((c.tc : Thread nD τ).loc main_arg12)) := by
  obtain ⟨f0, f2, f3, f4, f5, f6, f7, f8, _f9, _f10, f11, f12⟩ := Cert.Sage.Finite.of_pre m hpre c
  rw [out_eq m ρ c]
  exact assemble _ _ _ _ _ _ _ _ _ _ _ _ _ f0 f2 f3 f4 f5 f6 f7 f8 f11 f12 (H0 m ρ c) (H1 m ρ c) (H2h m ρ c) (H2p m ρ c) (OUT m ρ c)
    (out0 m ρ c) (out1 m ρ c) (out2 m ρ c) (out2p m ρ c) (out3 m ρ c)

end Cert.Sage.KernelValue

end
-- ==== Proof.RefRun.lean ====
import proofs.«143043_j20512763806339_2_alg».proof.Proof.Gen.ReferenceIdeal
import Idealize.ShloMosaic.Lib.StableHlo.Run
import proofs.«143043_j20512763806339_2_alg».proof.Proof.RefTerms

/-! The reference program's run, read back as one composed term of its thirteen arguments.

@main of the reference is a straight line of host operations once its four calls (`relu` twice, `_var` with its inner
`_where`, `log_softmax`) are replaced by their bodies over the calls' own buffers. The line is listed here in three
consecutive pieces (one per printed window of @main), each window is shown equal to the sequence of its piece, and
the final contents of the result buffer are read off the fold of the operations' results. -/

noncomputable section

namespace Cert.ReferenceIdeal.RefRun

open Cert.ReferenceIdeal Cert.ReferenceIdeal.Gen Idealize.ShloMosaic Idealize.ShloMosaic.TcCoe Idealize.SL.Sem Idealize.ShloMosaic.StableHlo

section Line

variable {F : FTy → Type} [FloatOps F]

/-- @main's first window: layer 1 (gather, segment sum, degree, the two products, the bias), `relu`'s three operations, and layer 2 up to the degree's broadcast. -/
abbrev ops0 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S600000 ![] bcast_S_S600000 : (⟨S_, .f32⟩ : BufTy).Contents (Elt F) → (⟨S600000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S600000x1 ![0] bcast_S600000_S600000x1_0 : (⟨S600000, .i32⟩ : BufTy).Contents (Elt F) → (⟨S600000x1, .i32⟩ : BufTy).Contents (Elt F)),
    StableHlo.ternary main_v15 main_v16 main_v14 main_v17 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v23 main_v24 main_v25 (addf : (⟨S50000x128, .f32⟩ : BufTy).Contents (Elt F) → (⟨S50000x128, .f32⟩ : BufTy).Contents (Elt F) → (⟨S50000x128, .f32⟩ : BufTy).Contents (Elt F)),
    StableHlo.unary main_arg4 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v27 main_v28 (addf : (⟨S50000x128, .f32⟩ : BufTy).Contents (Elt F) → (⟨S50000x128, .f32⟩ : BufTy).Contents (Elt F) → (⟨S50000x128, .f32⟩ : BufTy).Contents (Elt F)),
    StableHlo.TRef.nullary main_call0.cst (constant S_ .f32 0x00000000#32),
    StableHlo.TRef.unary main_call0.cst main_call0.v0 (broadcastInDim S50000x128 ![] bcast_S_S50000x128),
    StableHlo.TRef.binary (.of main_v28 : StableHlo.TRef sig ⟨S50000x128, .f32⟩) main_call0.v0 main_call0.v1 maximumf,
    StableHlo.nullary main_c_4 (constantI S_ 32 0#32),
    StableHlo.unary main_c_4 main_v30 (broadcastInDim S600000 ![] bcast_S_S600000 : (⟨S_, .i32⟩ : BufTy).Contents (Elt F) → (⟨S600000, .i32⟩ : BufTy).Contents (Elt F)),
    StableHlo.binary main_v1 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 50000#32),
    StableHlo.unary main_c_5 main_v32 (broadcastInDim S600000 ![] bcast_S_S600000 : (⟨S_, .i32⟩ : BufTy).Contents (Elt F) → (⟨S600000, .i32⟩ : BufTy).Contents (Elt F)),
    StableHlo.binary main_v1 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_v1 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_v29 main_v35 main_v36 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_6 (constant S_ .f32 0x00000000#32),
    StableHlo.unary main_cst_6 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S600000x1 ![0] bcast_S600000_S600000x1_0 : (⟨S600000, .i32⟩ : BufTy).Contents (Elt F) → (⟨S600000x1, .i32⟩ : BufTy).Contents (Elt F)),
    StableHlo.ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_7 (constant S_ .f32 0x3F800000#32),
    StableHlo.unary main_cst_7 main_v40 (broadcastInDim S600000 ![] bcast_S_S600000 : (⟨S_, .f32⟩ : BufTy).Contents (Elt F) → (⟨S600000, .f32⟩ : BufTy).Contents (Elt F)),
    StableHlo.nullary main_cst_8 (constant S_ .f32 0x00000000#32),
    StableHlo.unary main_cst_8 main_v41 (broadcastInDim S50000 ![] bcast_S_S50000 : (⟨S_, .f32⟩ : BufTy).Contents (Elt F) → (⟨S50000, .f32⟩ : BufTy).Contents (Elt F)),
    StableHlo.unary main_v3 main_v42 (broadcastInDim S600000x1 ![0] bcast_S600000_S600000x1_0 : (⟨S600000, .i32⟩ : BufTy).Contents (Elt F) → (⟨S600000x1, .i32⟩ : BufTy).Contents (Elt F)),
    StableHlo.ternary main_v41 main_v42 main_v40 main_v43 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_9 (constant S_ .f32 0x3F800000#32),
    StableHlo.unary main_cst_9 main_v44 (broadcastInDim S50000 ![] bcast_S_S50000 : (⟨S_, .f32⟩ : BufTy).Contents (Elt F) → (⟨S50000, .f32⟩ : BufTy).Contents (Elt F)),
    StableHlo.binary main_v43 main_v44 main_v45 (maximumf : (⟨S50000, .f32⟩ : BufTy).Contents (Elt F) → (⟨S50000, .f32⟩ : BufTy).Contents (Elt F) → (⟨S50000, .f32⟩ : BufTy).Contents (Elt F)),
    StableHlo.unary main_v45 main_v46 (broadcastInDim S50000x1 ![0] bcast_S50000_S50000x1_0 : (⟨S50000, .f32⟩ : BufTy).Contents (Elt F) → (⟨S50000x1, .f32⟩ : BufTy).Contents (Elt F)),
    StableHlo.unary main_v46 main_v47 (broadcastInDim S50000x128 ![0, 1] bcast_S50000x1_S50000x128_0_1 : (⟨S50000x1, .f32⟩ : BufTy).Contents (Elt F) → (⟨S50000x128, .f32⟩ : BufTy).Contents (Elt F)) ]

/-- @main's second window: the rest of layer 2, the batch statistics (`_var`'s nineteen operations and `_where`'s three), the normalisation, `relu`, the residual sum, and layer 3 up to the sum of its two products. -/
abbrev ops1 : List (HloOp τ sig (Elt F)) :=
  [ StableHlo.binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    StableHlo.binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v29 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v49 main_v50 main_v51 (addf : (⟨S50000x128, .f32⟩ : BufTy).Contents (Elt F) → (⟨S50000x128, .f32⟩ : BufTy).Contents (Elt F) → (⟨S50000x128, .f32⟩ : BufTy).Contents (Elt F)),
    StableHlo.unary main_arg7 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)),
    StableHlo.nullary main_cst_10 (constant S_ .f32 0x00000000#32),
    StableHlo.binary main_v54 main_cst_10 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call1.cst (constant S_ .f32 0x00000000#32),
    StableHlo.TRef.binary (.of main_v54 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v54 : StableHlo.TRef sig ⟨S50000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v60 main_v61 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v62 (broadcastInDim S128 ![] bcast_S_S128 : (⟨S_, .f32⟩ : BufTy).Contents (Elt F) → (⟨S128, .f32⟩ : BufTy).Contents (Elt F)),
    StableHlo.binary main_v58 main_v62 main_v63 (addf : (⟨S128, .f32⟩ : BufTy).Contents (Elt F) → (⟨S128, .f32⟩ : BufTy).Contents (Elt F) → (⟨S128, .f32⟩ : BufTy).Contents (Elt F)),
    StableHlo.unary main_v63 main_v64 (Host.rsqrt : (⟨S128, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg11 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg12 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (addf : (⟨S50000x128, .f32⟩ : BufTy).Contents (Elt F) → (⟨S50000x128, .f32⟩ : BufTy).Contents (Elt F) → (⟨S50000x128, .f32⟩ : BufTy).Contents (Elt F)),
    StableHlo.TRef.nullary main_call2.cst (constant S_ .f32 0x00000000#32),
    StableHlo.TRef.unary main_call2.cst main_call2.v0 (broadcastInDim S50000x128 ![] bcast_S_S50000x128),
    StableHlo.TRef.binary (.of main_v73 : StableHlo.TRef sig ⟨S50000x128, .f32⟩) main_call2.v0 main_call2.v1 maximumf,
    StableHlo.binary main_v74 main_arg0 main_v75 (addf : (⟨S50000x128, .f32⟩ : BufTy).Contents (Elt F) → (⟨S50000x128, .f32⟩ : BufTy).Contents (Elt F) → (⟨S50000x128, .f32⟩ : BufTy).Contents (Elt F)),
    StableHlo.nullary main_c_14 (constantI S_ 32 0#32),
    StableHlo.unary main_c_14 main_v76 (broadcastInDim S600000 ![] bcast_S_S600000 : (⟨S_, .i32⟩ : BufTy).Contents (Elt F) → (⟨S600000, .i32⟩ : BufTy).Contents (Elt F)),
    StableHlo.binary main_v1 main_v76 main_v77 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 50000#32),
    StableHlo.unary main_c_15 main_v78 (broadcastInDim S600000 ![] bcast_S_S600000 : (⟨S_, .i32⟩ : BufTy).Contents (Elt F) → (⟨S600000, .i32⟩ : BufTy).Contents (Elt F)),
    StableHlo.binary main_v1 main_v78 main_v79 (addi : (⟨S600000, .i32⟩ : BufTy).Contents (Elt F) → (⟨S600000, .i32⟩ : BufTy).Contents (Elt F) → (⟨S600000, .i32⟩ : BufTy).Contents (Elt F)),
    StableHlo.ternary main_v77 main_v79 main_v1 main_v80 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v80 main_v81 (broadcastInDim S600000x1 ![0] bcast_S600000_S600000x1_0 : (⟨S600000, .i32⟩ : BufTy).Contents (Elt F) → (⟨S600000x1, .i32⟩ : BufTy).Contents (Elt F)),
    StableHlo.binary main_v75 main_v81 main_v82 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_16 (constant S_ .f32 0x00000000#32),
    StableHlo.unary main_cst_16 main_v83 (broadcastInDim S50000x128 ![] bcast_S_S50000x128 : (⟨S_, .f32⟩ : BufTy).Contents (Elt F) → (⟨S50000x128, .f32⟩ : BufTy).Contents (Elt F)),
    StableHlo.unary main_v3 main_v84 (broadcastInDim S600000x1 ![0] bcast_S600000_S600000x1_0 : (⟨S600000, .i32⟩ : BufTy).Contents (Elt F) → (⟨S600000x1, .i32⟩ : BufTy).Contents (Elt F)),
    StableHlo.ternary main_v83 main_v84 main_v82 main_v85 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_17 (constant S_ .f32 0x3F800000#32),
    StableHlo.unary main_cst_17 main_v86 (broadcastInDim S600000 ![] bcast_S_S600000 : (⟨S_, .f32⟩ : BufTy).Contents (Elt F) → (⟨S600000, .f32⟩ : BufTy).Contents (Elt F)),
    StableHlo.nullary main_cst_18 (constant S_ .f32 0x00000000#32),
    StableHlo.unary main_cst_18 main_v87 (broadcastInDim S50000 ![] bcast_S_S50000 : (⟨S_, .f32⟩ : BufTy).Contents (Elt F) → (⟨S50000, .f32⟩ : BufTy).Contents (Elt F)),
    StableHlo.unary main_v3 main_v88 (broadcastInDim S600000x1 ![0] bcast_S600000_S600000x1_0 : (⟨S600000, .i32⟩ : BufTy).Contents (Elt F) → (⟨S600000x1, .i32⟩ : BufTy).Contents (Elt F)),
    StableHlo.ternary main_v87 main_v88 main_v86 main_v89 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_19 (constant S_ .f32 0x3F800000#32),
    StableHlo.unary main_cst_19 main_v90 (broadcastInDim S50000 ![] bcast_S_S50000 : (⟨S_, .f32⟩ : BufTy).Contents (Elt F) → (⟨S50000, .f32⟩ : BufTy).Contents (Elt F)),
    StableHlo.binary main_v89 main_v90 main_v91 (maximumf : (⟨S50000, .f32⟩ : BufTy).Contents (Elt F) → (⟨S50000, .f32⟩ : BufTy).Contents (Elt F) → (⟨S50000, .f32⟩ : BufTy).Contents (Elt F)),
    StableHlo.unary main_v91 main_v92 (broadcastInDim S50000x1 ![0] bcast_S50000_S50000x1_0 : (⟨S50000, .f32⟩ : BufTy).Contents (Elt F) → (⟨S50000x1, .f32⟩ : BufTy).Contents (Elt F)),
    StableHlo.unary main_v92 main_v93 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v93 main_v94 (Host.divf : (⟨S50000x128, .f32⟩ : BufTy).Contents (Elt F) → (⟨S50000x128, .f32⟩ : BufTy).Contents (Elt F) → (⟨S50000x128, .f32⟩ : BufTy).Contents (Elt F)),
    StableHlo.binary main_v94 main_arg8 main_v95 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v75 main_arg9 main_v96 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v95 main_v96 main_v97 (addf : (⟨S50000x64, .f32⟩ : BufTy).Contents (Elt F) → (⟨S50000x64, .f32⟩ : BufTy).Contents (Elt F) → (⟨S50000x64, .f32⟩ : BufTy).Contents (Elt F)) ]

/-- @main's third window: layer 3's bias and `log_softmax`'s fifteen operations. -/
abbrev ops2 : List (HloOp τ sig (Elt F)) :=
  [ StableHlo.unary main_arg10 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v97 main_v99 main_v100 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0xFF800000#32),
    StableHlo.TRef.binary (.of main_v100 : StableHlo.TRef sig ⟨S50000x64, .f32⟩) main_call3.cst main_call3.v0 (fun x v => Host.reduce FloatOps.maximumf x v reducesTo_S50000x64_S50000_d1 h_S_),
    StableHlo.TRef.nullary main_call3.cst_0 (constant S_ .f32 0xFF800000#32),
    StableHlo.TRef.unary main_call3.cst_0 main_call3.v1 (broadcastInDim S50000 ![] bcast_S_S50000),
    StableHlo.TRef.binary main_call3.v1 main_call3.v0 main_call3.v2 maximumf,
    StableHlo.TRef.unary main_call3.v2 main_call3.v3 (broadcastInDim S50000x1 ![0] bcast_S50000_S50000x1_0),
    StableHlo.TRef.unary main_call3.v3 main_call3.v4 (broadcastInDim S50000x64 ![0, 1] bcast_S50000x1_S50000x64_0_1),
    StableHlo.TRef.binary (.of main_v100 : StableHlo.TRef sig ⟨S50000x64, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S50000x64_S50000_d1 h_S_),
    StableHlo.TRef.unary main_call3.v7 main_call3.v8 (broadcastInDim S50000x1 ![0] bcast_S50000_S50000x1_0),
    StableHlo.TRef.unary main_call3.v8 main_call3.v9 Host.log,
    StableHlo.TRef.unary main_call3.v9 main_call3.v10 (broadcastInDim S50000x64 ![0, 1] bcast_S50000x1_S50000x64_0_1),
    StableHlo.TRef.binary main_call3.v5 main_call3.v10 main_call3.v11 subf ]

/-- The whole line. -/
abbrev ops : List (HloOp τ sig (Elt F)) := ops0 ++ (ops1 ++ ops2)

theorem part0_eq (c : Dev nD) : main_part0 (F := F) c = seq ops0 := rfl
theorem part1_eq (c : Dev nD) : main_part1 (F := F) c = seq ops1 := rfl
theorem part2_eq (c : Dev nD) : main_part2 (F := F) c = seq ops2 := rfl

theorem main_eq (c : Dev nD) : main (F := F) c = seq ops := by
  rw [seq_append, seq_append, ← part0_eq c, ← part1_eq c, ← part2_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub ..⟩
theorem ops1_sub : (ops1 : List (HloOp τ sig (Elt F))).Forall fun op => op.bufs ⊆ tcRefs τ sig :=
  ⟨binary_bufs_sub .., binary_bufs_sub .., binary_bufs_sub .., binary_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub ..⟩
theorem ops2_sub : (ops2 : List (HloOp τ sig (Elt F))).Forall fun op => op.bufs ⊆ tcRefs τ sig :=
  ⟨unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

theorem ops_sub : (ops : List (HloOp τ sig (Elt F))).Forall fun op => op.bufs ⊆ tcRefs τ sig :=
  List.forall_append.mpr ⟨ops0_sub, List.forall_append.mpr ⟨ops1_sub, ops2_sub⟩⟩

/-- No operation of the line leaves a buffer undetermined. -/
theorem ops0_fresh : ∀ op ∈ (ops0 : List (HloOp τ sig (Elt F))), op.fresh = ∅ := by
  intro _ h; (repeat (cases h with | head => rfl | tail _ h => ?_)); exact nomatch h
theorem ops1_fresh : ∀ op ∈ (ops1 : List (HloOp τ sig (Elt F))), op.fresh = ∅ := by
  intro _ h; (repeat (cases h with | head => rfl | tail _ h => ?_)); exact nomatch h
theorem ops2_fresh : ∀ op ∈ (ops2 : List (HloOp τ sig (Elt F))), op.fresh = ∅ := by
  intro _ h; (repeat (cases h with | head => rfl | tail _ h => ?_)); exact nomatch h
theorem ops_fresh : ∀ op ∈ (ops : List (HloOp τ sig (Elt F))), op.fresh = ∅ := by
  intro op h
  rcases List.mem_append.mp h with h | h
  · exact ops0_fresh op h
  rcases List.mem_append.mp h with h | h
  · exact ops1_fresh op h
  · exact ops2_fresh op h

/-- The fold over two lines in a row is the fold over the second from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- Every weakly fair execution of @main terminates with each TensorCore buffer at the fold of the line's results over
    its launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ (fun _ => ops_fresh)

/-! ## The line in eight stages

The same operations cut where the network's stages end, so that each stage's result is read on its own, from any contents. -/

/-- Layer 1 up to its bias. -/
abbrev S1 : List (HloOp τ sig (Elt F)) :=
  [ StableHlo.unary main_arg1 main_v0 ((extractStridedSlice S1x600000 ![0, 0] · slices_S2x600000_S1x600000_0_0) : (⟨S2x600000, .i32⟩ : BufTy).Contents (Elt F) → (⟨S1x600000, .i32⟩ : BufTy).Contents (Elt F)),
    StableHlo.reshape main_v0 main_v1 rfl shapeCasts_S1x600000_S600000,
    StableHlo.unary main_arg1 main_v2 ((extractStridedSlice S1x600000 ![1, 0] · slices_S2x600000_S1x600000_1_0) : (⟨S2x600000, .i32⟩ : BufTy).Contents (Elt F) → (⟨S1x600000, .i32⟩ : BufTy).Contents (Elt F)),
    StableHlo.reshape main_v2 main_v3 rfl shapeCasts_S1x600000_S600000,
    StableHlo.nullary main_c (constantI S_ 32 0#32),
    StableHlo.unary main_c main_v4 (broadcastInDim S600000 ![] bcast_S_S600000 : (⟨S_, .i32⟩ : BufTy).Contents (Elt F) → (⟨S600000, .i32⟩ : BufTy).Contents (Elt F)),
    StableHlo.binary main_v1 main_v4 main_v5 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 50000#32),
    StableHlo.unary main_c_0 main_v6 (broadcastInDim S600000 ![] bcast_S_S600000 : (⟨S_, .i32⟩ : BufTy).Contents (Elt F) → (⟨S600000, .i32⟩ : BufTy).Contents (Elt F)),
    StableHlo.binary main_v1 main_v6 main_v7 (addi : (⟨S600000, .i32⟩ : BufTy).Contents (Elt F) → (⟨S600000, .i32⟩ : BufTy).Contents (Elt F) → (⟨S600000, .i32⟩ : BufTy).Contents (Elt F)),
    StableHlo.ternary main_v5 main_v7 main_v1 main_v8 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v8 main_v9 (broadcastInDim S600000x1 ![0] bcast_S600000_S600000x1_0 : (⟨S600000, .i32⟩ : BufTy).Contents (Elt F) → (⟨S600000x1, .i32⟩ : BufTy).Contents (Elt F)),
    StableHlo.binary main_arg0 main_v9 main_v10 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S600000x1 ![0] bcast_S600000_S600000x1_0 : (⟨S600000, .i32⟩ : BufTy).Contents (Elt F) → (⟨S600000x1, .i32⟩ : BufTy).Contents (Elt F)),
    StableHlo.ternary main_v11 main_v12 main_v10 main_v13 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_1 (constant S_ .f32 0x3F800000#32),
    StableHlo.unary main_cst_1 main_v14 (broadcastInDim S600000 ![] bcast_S_S600000 : (⟨S_, .f32⟩ : BufTy).Contents (Elt F) → (⟨S600000, .f32⟩ : BufTy).Contents (Elt F)),
    StableHlo.nullary main_cst_2 (constant S_ .f32 0x00000000#32),
    StableHlo.unary main_cst_2 main_v15 (broadcastInDim S50000 ![] bcast_S_S50000 : (⟨S_, .f32⟩ : BufTy).Contents (Elt F) → (⟨S50000, .f32⟩ : BufTy).Contents (Elt F)),
    StableHlo.unary main_v3 main_v16 (broadcastInDim S600000x1 ![0] bcast_S600000_S600000x1_0 : (⟨S600000, .i32⟩ : BufTy).Contents (Elt F) → (⟨S600000x1, .i32⟩ : BufTy).Contents (Elt F)),
    StableHlo.ternary main_v15 main_v16 main_v14 main_v17 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_3 (constant S_ .f32 0x3F800000#32),
    StableHlo.unary main_cst_3 main_v18 (broadcastInDim S50000 ![] bcast_S_S50000 : (⟨S_, .f32⟩ : BufTy).Contents (Elt F) → (⟨S50000, .f32⟩ : BufTy).Contents (Elt F)),
    StableHlo.binary main_v17 main_v18 main_v19 (maximumf : (⟨S50000, .f32⟩ : BufTy).Contents (Elt F) → (⟨S50000, .f32⟩ : BufTy).Contents (Elt F) → (⟨S50000, .f32⟩ : BufTy).Contents (Elt F)),
    StableHlo.unary main_v19 main_v20 (broadcastInDim S50000x1 ![0] bcast_S50000_S50000x1_0 : (⟨S50000, .f32⟩ : BufTy).Contents (Elt F) → (⟨S50000x1, .f32⟩ : BufTy).Contents (Elt F)),
    StableHlo.unary main_v20 main_v21 (broadcastInDim S50000x128 ![0, 1] bcast_S50000x1_S50000x128_0_1 : (⟨S50000x1, .f32⟩ : BufTy).Contents (Elt F) → (⟨S50000x128, .f32⟩ : BufTy).Contents (Elt F)),
    StableHlo.binary main_v13 main_v21 main_v22 (Host.divf : (⟨S50000x128, .f32⟩ : BufTy).Contents (Elt F) → (⟨S50000x128, .f32⟩ : BufTy).Contents (Elt F) → (⟨S50000x128, .f32⟩ : BufTy).Contents (Elt F)),
    StableHlo.binary main_v22 main_arg2 main_v23 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_arg0 main_arg3 main_v24 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v23 main_v24 main_v25 (addf : (⟨S50000x128, .f32⟩ : BufTy).Contents (Elt F) → (⟨S50000x128, .f32⟩ : BufTy).Contents (Elt F) → (⟨S50000x128, .f32⟩ : BufTy).Contents (Elt F)),
    StableHlo.unary main_arg4 main_v26 (broadcastInDim S1x128 ![1] bcast_S128_S1x128_1 : (⟨S128, .f32⟩ : BufTy).Contents (Elt F) → (⟨S1x128, .f32⟩ : BufTy).Contents (Elt F)),
    StableHlo.unary main_v26 main_v27 (broadcastInDim S50000x128 ![0, 1] bcast_S1x128_S50000x128_0_1 : (⟨S1x128, .f32⟩ : BufTy).Contents (Elt F) → (⟨S50000x128, .f32⟩ : BufTy).Contents (Elt F)),
    StableHlo.binary main_v25 main_v27 main_v28 (addf : (⟨S50000x128, .f32⟩ : BufTy).Contents (Elt F) → (⟨S50000x128, .f32⟩ : BufTy).Contents (Elt F) → (⟨S50000x128, .f32⟩ : BufTy).Contents (Elt F)) ]

/-- The first clamp. -/
abbrev S2 : List (HloOp τ sig (Elt F)) :=
  [ StableHlo.TRef.nullary main_call0.cst (constant S_ .f32 0x00000000#32),
    StableHlo.TRef.unary main_call0.cst main_call0.v0 (broadcastInDim S50000x128 ![] bcast_S_S50000x128),
    StableHlo.TRef.binary (.of main_v28 : StableHlo.TRef sig ⟨S50000x128, .f32⟩) main_call0.v0 main_call0.v1 maximumf ]

/-- Layer 2 up to its bias. -/
abbrev S3 : List (HloOp τ sig (Elt F)) :=
  [ StableHlo.nullary main_c_4 (constantI S_ 32 0#32),
    StableHlo.unary main_c_4 main_v30 (broadcastInDim S600000 ![] bcast_S_S600000 : (⟨S_, .i32⟩ : BufTy).Contents (Elt F) → (⟨S600000, .i32⟩ : BufTy).Contents (Elt F)),
    StableHlo.binary main_v1 main_v30 main_v31 (cmpi .slt : (⟨S600000, .i32⟩ : BufTy).Contents (Elt F) → (⟨S600000, .i32⟩ : BufTy).Contents (Elt F) → (⟨S600000, .i1⟩ : BufTy).Contents (Elt F)),
    StableHlo.nullary main_c_5 (constantI S_ 32 50000#32),
    StableHlo.unary main_c_5 main_v32 (broadcastInDim S600000 ![] bcast_S_S600000 : (⟨S_, .i32⟩ : BufTy).Contents (Elt F) → (⟨S600000, .i32⟩ : BufTy).Contents (Elt F)),
    StableHlo.binary main_v1 main_v32 main_v33 (addi : (⟨S600000, .i32⟩ : BufTy).Contents (Elt F) → (⟨S600000, .i32⟩ : BufTy).Contents (Elt F) → (⟨S600000, .i32⟩ : BufTy).Contents (Elt F)),
    StableHlo.ternary main_v31 main_v33 main_v1 main_v34 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v34 main_v35 (broadcastInDim S600000x1 ![0] bcast_S600000_S600000x1_0 : (⟨S600000, .i32⟩ : BufTy).Contents (Elt F) → (⟨S600000x1, .i32⟩ : BufTy).Contents (Elt F)),
    StableHlo.binary main_v29 main_v35 main_v36 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_6 (constant S_ .f32 0x00000000#32),
    StableHlo.unary main_cst_6 main_v37 (broadcastInDim S50000x128 ![] bcast_S_S50000x128 : (⟨S_, .f32⟩ : BufTy).Contents (Elt F) → (⟨S50000x128, .f32⟩ : BufTy).Contents (Elt F)),
    StableHlo.unary main_v3 main_v38 (broadcastInDim S600000x1 ![0] bcast_S600000_S600000x1_0 : (⟨S600000, .i32⟩ : BufTy).Contents (Elt F) → (⟨S600000x1, .i32⟩ : BufTy).Contents (Elt F)),
    StableHlo.ternary main_v37 main_v38 main_v36 main_v39 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_7 (constant S_ .f32 0x3F800000#32),
    StableHlo.unary main_cst_7 main_v40 (broadcastInDim S600000 ![] bcast_S_S600000 : (⟨S_, .f32⟩ : BufTy).Contents (Elt F) → (⟨S600000, .f32⟩ : BufTy).Contents (Elt F)),
    StableHlo.nullary main_cst_8 (constant S_ .f32 0x00000000#32),
    StableHlo.unary main_cst_8 main_v41 (broadcastInDim S50000 ![] bcast_S_S50000 : (⟨S_, .f32⟩ : BufTy).Contents (Elt F) → (⟨S50000, .f32⟩ : BufTy).Contents (Elt F)),
    StableHlo.unary main_v3 main_v42 (broadcastInDim S600000x1 ![0] bcast_S600000_S600000x1_0 : (⟨S600000, .i32⟩ : BufTy).Contents (Elt F) → (⟨S600000x1, .i32⟩ : BufTy).Contents (Elt F)),
    StableHlo.ternary main_v41 main_v42 main_v40 main_v43 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_9 (constant S_ .f32 0x3F800000#32),
    StableHlo.unary main_cst_9 main_v44 (broadcastInDim S50000 ![] bcast_S_S50000 : (⟨S_, .f32⟩ : BufTy).Contents (Elt F) → (⟨S50000, .f32⟩ : BufTy).Contents (Elt F)),
    StableHlo.binary main_v43 main_v44 main_v45 (maximumf : (⟨S50000, .f32⟩ : BufTy).Contents (Elt F) → (⟨S50000, .f32⟩ : BufTy).Contents (Elt F) → (⟨S50000, .f32⟩ : BufTy).Contents (Elt F)),
    StableHlo.unary main_v45 main_v46 (broadcastInDim S50000x1 ![0] bcast_S50000_S50000x1_0 : (⟨S50000, .f32⟩ : BufTy).Contents (Elt F) → (⟨S50000x1, .f32⟩ : BufTy).Contents (Elt F)),
    StableHlo.unary main_v46 main_v47 (broadcastInDim S50000x128 ![0, 1] bcast_S50000x1_S50000x128_0_1 : (⟨S50000x1, .f32⟩ : BufTy).Contents (Elt F) → (⟨S50000x128, .f32⟩ : BufTy).Contents (Elt F)),
    StableHlo.binary main_v39 main_v47 main_v48 (Host.divf : (⟨S50000x128, .f32⟩ : BufTy).Contents (Elt F) → (⟨S50000x128, .f32⟩ : BufTy).Contents (Elt F) → (⟨S50000x128, .f32⟩ : BufTy).Contents (Elt F)),
    StableHlo.binary main_v48 main_arg5 main_v49 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v29 main_arg6 main_v50 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.binary main_v49 main_v50 main_v51 (addf : (⟨S50000x128, .f32⟩ : BufTy).Contents (Elt F) → (⟨S50000x128, .f32⟩ : BufTy).Contents (Elt F) → (⟨S50000x128, .f32⟩ : BufTy).Contents (Elt F)),
    StableHlo.unary main_arg7 main_v52 (broadcastInDim S1x128 ![1] bcast_S128_S1x128_1 : (⟨S128, .f32⟩ : BufTy).Contents (Elt F) → (⟨S1x128, .f32⟩ : BufTy).Contents (Elt F)),
    StableHlo.unary main_v52 main_v53 (broadcastInDim S50000x128 ![0, 1] bcast_S1x128_S50000x128_0_1 : (⟨S1x128, .f32⟩ : BufTy).Contents (Elt F) → (⟨S50000x128, .f32⟩ : BufTy).Contents (Elt F)),
    StableHlo.binary main_v51 main_v53 main_v54 (addf : (⟨S50000x128, .f32⟩ : BufTy).Contents (Elt F) → (⟨S50000x128, .f32⟩ : BufTy).Contents (Elt F) → (⟨S50000x128, .f32⟩ : BufTy).Contents (Elt F)) ]

/-- The column means and the column mean square deviations of layer 2's output. -/
abbrev S4 : List (HloOp τ sig (Elt F)) :=
  [ StableHlo.nullary main_cst_10 (constant S_ .f32 0x00000000#32),
    StableHlo.binary main_v54 main_cst_10 main_v55 ((fun x v => Host.reduceAdd x v reducesTo_S50000x128_S128_d0 h_S_) : (⟨S50000x128, .f32⟩ : BufTy).Contents (Elt F) → (⟨S_, .f32⟩ : BufTy).Contents (Elt F) → (⟨S128, .f32⟩ : BufTy).Contents (Elt F)),
    StableHlo.nullary main_cst_11 (constant S_ .f32 0x47435000#32),
    StableHlo.unary main_cst_11 main_v56 (broadcastInDim S128 ![] bcast_S_S128 : (⟨S_, .f32⟩ : BufTy).Contents (Elt F) → (⟨S128, .f32⟩ : BufTy).Contents (Elt F)),
    StableHlo.binary main_v55 main_v56 main_v57 (Host.divf : (⟨S128, .f32⟩ : BufTy).Contents (Elt F) → (⟨S128, .f32⟩ : BufTy).Contents (Elt F) → (⟨S128, .f32⟩ : BufTy).Contents (Elt F)),
    StableHlo.nullary main_c_12 (constantI S_ 32 0#32),
    StableHlo.TRef.nullary main_call1.cst (constant S_ .f32 0x00000000#32),
    StableHlo.TRef.binary (.of main_v54 : StableHlo.TRef sig ⟨S50000x128, .f32⟩) main_call1.cst main_call1.v0 (fun x v => Host.reduceAdd x v reducesTo_S50000x128_S128_d0 h_S_),
    StableHlo.TRef.unary main_call1.v0 main_call1.v1 (broadcastInDim S1x128 ![1] bcast_S128_S1x128_1),
    StableHlo.TRef.nullary main_call1.cst_0 (constant S_ .f32 0x47435000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S50000x128 ![0, 1] bcast_S1x128_S50000x128_0_1),
    StableHlo.TRef.binary (.of main_v54 : StableHlo.TRef sig ⟨S50000x128, .f32⟩) main_call1.v4 main_call1.v5 subf,
    StableHlo.TRef.binary main_call1.v5 main_call1.v5 main_call1.v6 mulf,
    StableHlo.TRef.unary (.of main_c_12 : StableHlo.TRef sig ⟨S_, .i32⟩) main_call1.v7 (sitofp .f32),
    StableHlo.TRef.nullary main_call1.cst_1 (constant S_ .f32 0x47435000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S50000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b) ]

/-- The normalisation. -/
abbrev S5 : List (HloOp τ sig (Elt F)) :=
  [ StableHlo.unary main_v57 main_v59 (broadcastInDim S1x128 ![1] bcast_S128_S1x128_1 : (⟨S128, .f32⟩ : BufTy).Contents (Elt F) → (⟨S1x128, .f32⟩ : BufTy).Contents (Elt F)),
    StableHlo.unary main_v59 main_v60 (broadcastInDim S50000x128 ![0, 1] bcast_S1x128_S50000x128_0_1 : (⟨S1x128, .f32⟩ : BufTy).Contents (Elt F) → (⟨S50000x128, .f32⟩ : BufTy).Contents (Elt F)),
    StableHlo.binary main_v54 main_v60 main_v61 (subf : (⟨S50000x128, .f32⟩ : BufTy).Contents (Elt F) → (⟨S50000x128, .f32⟩ : BufTy).Contents (Elt F) → (⟨S50000x128, .f32⟩ : BufTy).Contents (Elt F)),
    StableHlo.nullary main_cst_13 (constant S_ .f32 0x3727C5AC#32),
    StableHlo.unary main_cst_13 main_v62 (broadcastInDim S128 ![] bcast_S_S128 : (⟨S_, .f32⟩ : BufTy).Contents (Elt F) → (⟨S128, .f32⟩ : BufTy).Contents (Elt F)),
    StableHlo.binary main_v58 main_v62 main_v63 (addf : (⟨S128, .f32⟩ : BufTy).Contents (Elt F) → (⟨S128, .f32⟩ : BufTy).Contents (Elt F) → (⟨S128, .f32⟩ : BufTy).Contents (Elt F)),
    StableHlo.unary main_v63 main_v64 (Host.rsqrt : (⟨S128, .f32⟩ : BufTy).Contents (Elt F) → (⟨S128, .f32⟩ : BufTy).Contents (Elt F)),
    StableHlo.unary main_v64 main_v65 (broadcastInDim S1x128 ![1] bcast_S128_S1x128_1 : (⟨S128, .f32⟩ : BufTy).Contents (Elt F) → (⟨S1x128, .f32⟩ : BufTy).Contents (Elt F)),
    StableHlo.unary main_v65 main_v66 (broadcastInDim S50000x128 ![0, 1] bcast_S1x128_S50000x128_0_1 : (⟨S1x128, .f32⟩ : BufTy).Contents (Elt F) → (⟨S50000x128, .f32⟩ : BufTy).Contents (Elt F)),
    StableHlo.binary main_v61 main_v66 main_v67 (mulf : (⟨S50000x128, .f32⟩ : BufTy).Contents (Elt F) → (⟨S50000x128, .f32⟩ : BufTy).Contents (Elt F) → (⟨S50000x128, .f32⟩ : BufTy).Contents (Elt F)),
    StableHlo.unary main_arg11 main_v68 (broadcastInDim S1x128 ![1] bcast_S128_S1x128_1 : (⟨S128, .f32⟩ : BufTy).Contents (Elt F) → (⟨S1x128, .f32⟩ : BufTy).Contents (Elt F)),
    StableHlo.unary main_v68 main_v69 (broadcastInDim S50000x128 ![0, 1] bcast_S1x128_S50000x128_0_1 : (⟨S1x128, .f32⟩ : BufTy).Contents (Elt F) → (⟨S50000x128, .f32⟩ : BufTy).Contents (Elt F)),
    StableHlo.binary main_v67 main_v69 main_v70 (mulf : (⟨S50000x128, .f32⟩ : BufTy).Contents (Elt F) → (⟨S50000x128, .f32⟩ : BufTy).Contents (Elt F) → (⟨S50000x128, .f32⟩ : BufTy).Contents (Elt F)),
    StableHlo.unary main_arg12 main_v71 (broadcastInDim S1x128 ![1] bcast_S128_S1x128_1 : (⟨S128, .f32⟩ : BufTy).Contents (Elt F) → (⟨S1x128, .f32⟩ : BufTy).Contents (Elt F)),
    StableHlo.unary main_v71 main_v72 (broadcastInDim S50000x128 ![0, 1] bcast_S1x128_S50000x128_0_1 : (⟨S1x128, .f32⟩ : BufTy).Contents (Elt F) → (⟨S50000x128, .f32⟩ : BufTy).Contents (Elt F)),
    StableHlo.binary main_v70 main_v72 main_v73 (addf : (⟨S50000x128, .f32⟩ : BufTy).Contents (Elt F) → (⟨S50000x128, .f32⟩ : BufTy).Contents (Elt F) → (⟨S50000x128, .f32⟩ : BufTy).Contents (Elt F)) ]

/-- The second clamp and the residual sum. -/
abbrev S6 : List (HloOp τ sig (Elt F)) :=
  [ StableHlo.TRef.nullary main_call2.cst (constant S_ .f32 0x00000000#32),
    StableHlo.TRef.unary main_call2.cst main_call2.v0 (broadcastInDim S50000x128 ![] bcast_S_S50000x128),
    StableHlo.TRef.binary (.of main_v73 : StableHlo.TRef sig ⟨S50000x128, .f32⟩) main_call2.v0 main_call2.v1 maximumf,
    StableHlo.binary main_v74 main_arg0 main_v75 (addf : (⟨S50000x128, .f32⟩ : BufTy).Contents (Elt F) → (⟨S50000x128, .f32⟩ : BufTy).Contents (Elt F) → (⟨S50000x128, .f32⟩ : BufTy).Contents (Elt F)) ]

/-- Layer 3 up to its bias. -/
abbrev S7 : List (HloOp τ sig (Elt F)) :=
  [ StableHlo.nullary main_c_14 (constantI S_ 32 0#32),
    StableHlo.unary main_c_14 main_v76 (broadcastInDim S600000 ![] bcast_S_S600000 : (⟨S_, .i32⟩ : BufTy).Contents (Elt F) → (⟨S600000, .i32⟩ : BufTy).Contents (Elt F)),
    StableHlo.binary main_v1 main_v76 main_v77 (cmpi .slt : (⟨S600000, .i32⟩ : BufTy).Contents (Elt F) → (⟨S600000, .i32⟩ : BufTy).Contents (Elt F) → (⟨S600000, .i1⟩ : BufTy).Contents (Elt F)),
    StableHlo.nullary main_c_15 (constantI S_ 32 50000#32),
    StableHlo.unary main_c_15 main_v78 (broadcastInDim S600000 ![] bcast_S_S600000 : (⟨S_, .i32⟩ : BufTy).Contents (Elt F) → (⟨S600000, .i32⟩ : BufTy).Contents (Elt F)),
    StableHlo.binary main_v1 main_v78 main_v79 (addi : (⟨S600000, .i32⟩ : BufTy).Contents (Elt F) → (⟨S600000, .i32⟩ : BufTy).Contents (Elt F) → (⟨S600000, .i32⟩ : BufTy).Contents (Elt F)),
    StableHlo.ternary main_v77 main_v79 main_v1 main_v80 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v80 main_v81 (broadcastInDim S600000x1 ![0] bcast_S600000_S600000x1_0 : (⟨S600000, .i32⟩ : BufTy).Contents (Elt F) → (⟨S600000x1, .i32⟩ : BufTy).Contents (Elt F)),
    StableHlo.binary main_v75 main_v81 main_v82 ((fun x i => Host.gather gather_S50000x128_S600000x1_S600000x128_1_0_n_n_0_1_1128 x i) : (⟨S50000x128, .f32⟩ : BufTy).Contents (Elt F) → (⟨S600000x1, .i32⟩ : BufTy).Contents (Elt F) → (⟨S600000x128, .f32⟩ : BufTy).Contents (Elt F)),
    StableHlo.nullary main_cst_16 (constant S_ .f32 0x00000000#32),
    StableHlo.unary main_cst_16 main_v83 (broadcastInDim S50000x128 ![] bcast_S_S50000x128 : (⟨S_, .f32⟩ : BufTy).Contents (Elt F) → (⟨S50000x128, .f32⟩ : BufTy).Contents (Elt F)),
    StableHlo.unary main_v3 main_v84 (broadcastInDim S600000x1 ![0] bcast_S600000_S600000x1_0 : (⟨S600000, .i32⟩ : BufTy).Contents (Elt F) → (⟨S600000x1, .i32⟩ : BufTy).Contents (Elt F)),
    StableHlo.ternary main_v83 main_v84 main_v82 main_v85 ((fun x i u => Host.scatterAdd scatter_S50000x128_S600000x1_S600000x128_1_0_0_1 x i u) : (⟨S50000x128, .f32⟩ : BufTy).Contents (Elt F) → (⟨S600000x1, .i32⟩ : BufTy).Contents (Elt F) → (⟨S600000x128, .f32⟩ : BufTy).Contents (Elt F) → (⟨S50000x128, .f32⟩ : BufTy).Contents (Elt F)),
    StableHlo.nullary main_cst_17 (constant S_ .f32 0x3F800000#32),
    StableHlo.unary main_cst_17 main_v86 (broadcastInDim S600000 ![] bcast_S_S600000 : (⟨S_, .f32⟩ : BufTy).Contents (Elt F) → (⟨S600000, .f32⟩ : BufTy).Contents (Elt F)),
    StableHlo.nullary main_cst_18 (constant S_ .f32 0x00000000#32),
    StableHlo.unary main_cst_18 main_v87 (broadcastInDim S50000 ![] bcast_S_S50000 : (⟨S_, .f32⟩ : BufTy).Contents (Elt F) → (⟨S50000, .f32⟩ : BufTy).Contents (Elt F)),
    StableHlo.unary main_v3 main_v88 (broadcastInDim S600000x1 ![0] bcast_S600000_S600000x1_0 : (⟨S600000, .i32⟩ : BufTy).Contents (Elt F) → (⟨S600000x1, .i32⟩ : BufTy).Contents (Elt F)),
    StableHlo.ternary main_v87 main_v88 main_v86 main_v89 ((fun x i u => Host.scatterAdd scatter_S50000_S600000x1_S600000_n_0_0_1 x i u) : (⟨S50000, .f32⟩ : BufTy).Contents (Elt F) → (⟨S600000x1, .i32⟩ : BufTy).Contents (Elt F) → (⟨S600000, .f32⟩ : BufTy).Contents (Elt F) → (⟨S50000, .f32⟩ : BufTy).Contents (Elt F)),
    StableHlo.nullary main_cst_19 (constant S_ .f32 0x3F800000#32),
    StableHlo.unary main_cst_19 main_v90 (broadcastInDim S50000 ![] bcast_S_S50000 : (⟨S_, .f32⟩ : BufTy).Contents (Elt F) → (⟨S50000, .f32⟩ : BufTy).Contents (Elt F)),
    StableHlo.binary main_v89 main_v90 main_v91 (maximumf : (⟨S50000, .f32⟩ : BufTy).Contents (Elt F) → (⟨S50000, .f32⟩ : BufTy).Contents (Elt F) → (⟨S50000, .f32⟩ : BufTy).Contents (Elt F)),
    StableHlo.unary main_v91 main_v92 (broadcastInDim S50000x1 ![0] bcast_S50000_S50000x1_0 : (⟨S50000, .f32⟩ : BufTy).Contents (Elt F) → (⟨S50000x1, .f32⟩ : BufTy).Contents (Elt F)),
    StableHlo.unary main_v92 main_v93 (broadcastInDim S50000x128 ![0, 1] bcast_S50000x1_S50000x128_0_1 : (⟨S50000x1, .f32⟩ : BufTy).Contents (Elt F) → (⟨S50000x128, .f32⟩ : BufTy).Contents (Elt F)),
    StableHlo.binary main_v85 main_v93 main_v94 (Host.divf : (⟨S50000x128, .f32⟩ : BufTy).Contents (Elt F) → (⟨S50000x128, .f32⟩ : BufTy).Contents (Elt F) → (⟨S50000x128, .f32⟩ : BufTy).Contents (Elt F)),
    StableHlo.binary main_v94 main_arg8 main_v95 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v75 main_arg9 main_v96 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.binary main_v95 main_v96 main_v97 (addf : (⟨S50000x64, .f32⟩ : BufTy).Contents (Elt F) → (⟨S50000x64, .f32⟩ : BufTy).Contents (Elt F) → (⟨S50000x64, .f32⟩ : BufTy).Contents (Elt F)),
    StableHlo.unary main_arg10 main_v98 (broadcastInDim S1x64 ![1] bcast_S64_S1x64_1 : (⟨S64, .f32⟩ : BufTy).Contents (Elt F) → (⟨S1x64, .f32⟩ : BufTy).Contents (Elt F)),
    StableHlo.unary main_v98 main_v99 (broadcastInDim S50000x64 ![0, 1] bcast_S1x64_S50000x64_0_1 : (⟨S1x64, .f32⟩ : BufTy).Contents (Elt F) → (⟨S50000x64, .f32⟩ : BufTy).Contents (Elt F)),
    StableHlo.binary main_v97 main_v99 main_v100 (addf : (⟨S50000x64, .f32⟩ : BufTy).Contents (Elt F) → (⟨S50000x64, .f32⟩ : BufTy).Contents (Elt F) → (⟨S50000x64, .f32⟩ : BufTy).Contents (Elt F)) ]

/-- The log-softmax. -/
abbrev S8 : List (HloOp τ sig (Elt F)) :=
  [ StableHlo.TRef.nullary main_call3.cst (constant S_ .f32 0xFF800000#32),
    StableHlo.TRef.binary (.of main_v100 : StableHlo.TRef sig ⟨S50000x64, .f32⟩) main_call3.cst main_call3.v0 (fun x v => Host.reduce FloatOps.maximumf x v reducesTo_S50000x64_S50000_d1 h_S_),
    StableHlo.TRef.nullary main_call3.cst_0 (constant S_ .f32 0xFF800000#32),
    StableHlo.TRef.unary main_call3.cst_0 main_call3.v1 (broadcastInDim S50000 ![] bcast_S_S50000),
    StableHlo.TRef.binary main_call3.v1 main_call3.v0 main_call3.v2 maximumf,
    StableHlo.TRef.unary main_call3.v2 main_call3.v3 (broadcastInDim S50000x1 ![0] bcast_S50000_S50000x1_0),
    StableHlo.TRef.unary main_call3.v3 main_call3.v4 (broadcastInDim S50000x64 ![0, 1] bcast_S50000x1_S50000x64_0_1),
    StableHlo.TRef.binary (.of main_v100 : StableHlo.TRef sig ⟨S50000x64, .f32⟩) main_call3.v4 main_call3.v5 subf,
    StableHlo.TRef.unary main_call3.v5 main_call3.v6 Host.exp,
    StableHlo.TRef.nullary main_call3.cst_1 (constant S_ .f32 0x00000000#32),
    StableHlo.TRef.binary main_call3.v6 main_call3.cst_1 main_call3.v7 (fun x v => Host.reduceAdd x v reducesTo_S50000x64_S50000_d1 h_S_),
    StableHlo.TRef.unary main_call3.v7 main_call3.v8 (broadcastInDim S50000x1 ![0] bcast_S50000_S50000x1_0),
    StableHlo.TRef.unary main_call3.v8 main_call3.v9 Host.log,
    StableHlo.TRef.unary main_call3.v9 main_call3.v10 (broadcastInDim S50000x64 ![0, 1] bcast_S50000x1_S50000x64_0_1),
    StableHlo.TRef.binary main_call3.v5 main_call3.v10 main_call3.v11 subf ]

theorem ops_split : (ops : List (HloOp τ sig (Elt F))) = S1 ++ (S2 ++ (S3 ++ (S4 ++ (S5 ++ (S6 ++ (S7 ++ S8)))))) := rfl

/-! ## A typed reference's two transports

A call's buffers are typed references; contents pass into a buffer's own type and back along the reference's type
equation. Both facts below hold for any typed reference, by taking the equation apart: no buffer type is looked up. -/

/-- Contents moved to a buffer's own type and back are unchanged. -/
theorem ofBuf_toBuf {T : BufTy} {Val : EltTy → Type} (x : StableHlo.TRef sig T) (v : T.Contents Val) : x.ofBuf (x.toBuf v) = v := by
  obtain ⟨r, h, _, _⟩ := x
  subst h
  rfl

/-- Contents moved to a buffer's own type are what, moved back, gives them. -/
theorem toBuf_eq_of {T : BufTy} {Val : EltTy → Type} (x : StableHlo.TRef sig T) (v : T.Contents Val) (w : x.ref.ty.Contents Val)
    (h : v = x.ofBuf w) : x.toBuf v = w := by
  obtain ⟨r, h', _, _⟩ := x
  subst h'
  exact h

end Line

/-! ## Each stage read from any contents -/

section Stages

variable (V : Valuation τ sig (Elt Ideal))

set_option maxRecDepth 8192 in
set_option maxHeartbeats 2000000 in
theorem S1_v28 : after (S1 (F := Ideal)) V (main_v28 : DevRef τ sig) = sage (V (main_arg0 : DevRef τ sig)) (V (main_arg1 : DevRef τ sig)) (V (main_arg2 : DevRef τ sig)) (V (main_arg3 : DevRef τ sig)) (V (main_arg4 : DevRef τ sig)) := by
  after_results_simp
  rfl

set_option maxRecDepth 8192 in
theorem S1_v1 : after (S1 (F := Ideal)) V (main_v1 : DevRef τ sig) = src1 (V (main_arg1 : DevRef τ sig)) := by
  after_results_simp
  rfl

set_option maxRecDepth 8192 in
theorem S1_v3 : after (S1 (F := Ideal)) V (main_v3 : DevRef τ sig) = dst1 (V (main_arg1 : DevRef τ sig)) := by
  after_results_simp
  rfl

theorem S2_v29 : after (S2 (F := Ideal)) V (main_v29 : DevRef τ sig) = relu (V (main_v28 : DevRef τ sig)) := by
  after_results_simp
  rfl

set_option maxRecDepth 8192 in
set_option maxHeartbeats 2000000 in
theorem S3_v54 (ei : IVec S2x600000 32) (h1 : V (main_v1 : DevRef τ sig) = src1 ei) (h3 : V (main_v3 : DevRef τ sig) = dst1 ei) :
    after (S3 (F := Ideal)) V (main_v54 : DevRef τ sig) = sage (V (main_v29 : DevRef τ sig)) ei (V (main_arg5 : DevRef τ sig)) (V (main_arg6 : DevRef τ sig)) (V (main_arg7 : DevRef τ sig)) := by
  after_results_simp
  rw [h1, h3]
  rfl

set_option maxRecDepth 8192 in
theorem S4_v57 : after (S4 (F := Ideal)) V (main_v57 : DevRef τ sig) = mean0 (V (main_v54 : DevRef τ sig)) := by
  after_results_simp
  rfl

set_option maxRecDepth 8192 in
set_option maxHeartbeats 2000000 in
theorem S4_v58 : after (S4 (F := Ideal)) V (main_v58 : DevRef τ sig) = var0 (V (main_v54 : DevRef τ sig)) := by
  after_results_simp
  rfl

set_option maxRecDepth 8192 in
theorem S5_v73 {H : FVec Ideal S50000x128 .f32} (h54 : V (main_v54 : DevRef τ sig) = H) (hm : V (main_v57 : DevRef τ sig) = mean0 H)
    (hv : V (main_v58 : DevRef τ sig) = var0 H) :
    after (S5 (F := Ideal)) V (main_v73 : DevRef τ sig) = bn H (V (main_arg11 : DevRef τ sig)) (V (main_arg12 : DevRef τ sig)) := by
  after_results_simp
  rw [h54, hm, hv]
  rfl

theorem S6_v75 : after (S6 (F := Ideal)) V (main_v75 : DevRef τ sig) = addf (relu (V (main_v73 : DevRef τ sig))) (V (main_arg0 : DevRef τ sig)) := by
  after_results_simp
  rfl

set_option maxRecDepth 8192 in
set_option maxHeartbeats 2000000 in
theorem S7_v100 (ei : IVec S2x600000 32) (h1 : V (main_v1 : DevRef τ sig) = src1 ei) (h3 : V (main_v3 : DevRef τ sig) = dst1 ei) :
    after (S7 (F := Ideal)) V (main_v100 : DevRef τ sig) = sage64 (V (main_v75 : DevRef τ sig)) ei (V (main_arg8 : DevRef τ sig)) (V (main_arg9 : DevRef τ sig)) (V (main_arg10 : DevRef τ sig)) := by
  after_results_simp
  rw [h1, h3]
  rfl

set_option maxRecDepth 8192 in
theorem S8_v101 : after (S8 (F := Ideal)) V (main_v101 : DevRef τ sig) = lsm (V (main_v100 : DevRef τ sig)) := by
  after_results_simp
  simp only [ofBuf_toBuf]
  refine toBuf_eq_of _ _ _ ?_
  have e : (TRef.of main_v100 : StableHlo.TRef sig ⟨S50000x64, .f32⟩).ofBuf (V (main_v100 : DevRef τ sig)) = V (main_v100 : DevRef τ sig) := rfl
  simp only [e]
  show _ = lsm (V (main_v100 : DevRef τ sig))
  unfold lsm shifted cols64
  rfl

end Stages

/-! ## The fold read at the result and at the arguments -/

set_option maxHeartbeats 8000000 in
/-- The result buffer after the whole line, from any contents: the network's term of the thirteen arguments' contents. -/
theorem out_eq (V : Valuation τ sig (Elt Ideal)) :
    after (ops (F := Ideal)) V (main_v101 : DevRef τ sig)
      = result (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) := by
  rw [ops_split]
  simp only [after_app]
  generalize hW1 : after S1 V = W1
  have f1_v28 : W1 (main_v28 : DevRef τ sig) = sage (V (main_arg0 : DevRef τ sig)) (V (main_arg1 : DevRef τ sig)) (V (main_arg2 : DevRef τ sig)) (V (main_arg3 : DevRef τ sig)) (V (main_arg4 : DevRef τ sig)) := by rw [← hW1]; exact S1_v28 V
  have f1_v1 : W1 (main_v1 : DevRef τ sig) = src1 (V (main_arg1 : DevRef τ sig)) := by rw [← hW1]; exact S1_v1 V
  have f1_v3 : W1 (main_v3 : DevRef τ sig) = dst1 (V (main_arg1 : DevRef τ sig)) := by rw [← hW1]; exact S1_v3 V
  have f1_arg0 : W1 (main_arg0 : DevRef τ sig) = V (main_arg0 : DevRef τ sig) :=
    ((by rw [← hW1]; after_results_simp) : W1 (main_arg0 : DevRef τ sig) = V (main_arg0 : DevRef τ sig))
  have f1_arg5 : W1 (main_arg5 : DevRef τ sig) = V (main_arg5 : DevRef τ sig) :=
    ((by rw [← hW1]; after_results_simp) : W1 (main_arg5 : DevRef τ sig) = V (main_arg5 : DevRef τ sig))
  have f1_arg6 : W1 (main_arg6 : DevRef τ sig) = V (main_arg6 : DevRef τ sig) :=
    ((by rw [← hW1]; after_results_simp) : W1 (main_arg6 : DevRef τ sig) = V (main_arg6 : DevRef τ sig))
  have f1_arg7 : W1 (main_arg7 : DevRef τ sig) = V (main_arg7 : DevRef τ sig) :=
    ((by rw [← hW1]; after_results_simp) : W1 (main_arg7 : DevRef τ sig) = V (main_arg7 : DevRef τ sig))
  have f1_arg8 : W1 (main_arg8 : DevRef τ sig) = V (main_arg8 : DevRef τ sig) :=
    ((by rw [← hW1]; after_results_simp) : W1 (main_arg8 : DevRef τ sig) = V (main_arg8 : DevRef τ sig))
  have f1_arg9 : W1 (main_arg9 : DevRef τ sig) = V (main_arg9 : DevRef τ sig) :=
    ((by rw [← hW1]; after_results_simp) : W1 (main_arg9 : DevRef τ sig) = V (main_arg9 : DevRef τ sig))
  have f1_arg10 : W1 (main_arg10 : DevRef τ sig) = V (main_arg10 : DevRef τ sig) :=
    ((by rw [← hW1]; after_results_simp) : W1 (main_arg10 : DevRef τ sig) = V (main_arg10 : DevRef τ sig))
  have f1_arg11 : W1 (main_arg11 : DevRef τ sig) = V (main_arg11 : DevRef τ sig) :=
    ((by rw [← hW1]; after_results_simp) : W1 (main_arg11 : DevRef τ sig) = V (main_arg11 : DevRef τ sig))
  have f1_arg12 : W1 (main_arg12 : DevRef τ sig) = V (main_arg12 : DevRef τ sig) :=
    ((by rw [← hW1]; after_results_simp) : W1 (main_arg12 : DevRef τ sig) = V (main_arg12 : DevRef τ sig))
  generalize hW2 : after S2 W1 = W2
  have f2_v29 : W2 (main_v29 : DevRef τ sig) = relu (sage (V (main_arg0 : DevRef τ sig)) (V (main_arg1 : DevRef τ sig)) (V (main_arg2 : DevRef τ sig)) (V (main_arg3 : DevRef τ sig)) (V (main_arg4 : DevRef τ sig))) := by rw [← hW2, S2_v29, f1_v28]
  have f2_v1 : W2 (main_v1 : DevRef τ sig) = src1 (V (main_arg1 : DevRef τ sig)) :=
    ((by rw [← hW2]; after_results_simp) : W2 (main_v1 : DevRef τ sig) = W1 (main_v1 : DevRef τ sig)).trans f1_v1
  have f2_v3 : W2 (main_v3 : DevRef τ sig) = dst1 (V (main_arg1 : DevRef τ sig)) :=
    ((by rw [← hW2]; after_results_simp) : W2 (main_v3 : DevRef τ sig) = W1 (main_v3 : DevRef τ sig)).trans f1_v3
  have f2_arg0 : W2 (main_arg0 : DevRef τ sig) = V (main_arg0 : DevRef τ sig) :=
    ((by rw [← hW2]; after_results_simp) : W2 (main_arg0 : DevRef τ sig) = W1 (main_arg0 : DevRef τ sig)).trans f1_arg0
  have f2_arg5 : W2 (main_arg5 : DevRef τ sig) = V (main_arg5 : DevRef τ sig) :=
    ((by rw [← hW2]; after_results_simp) : W2 (main_arg5 : DevRef τ sig) = W1 (main_arg5 : DevRef τ sig)).trans f1_arg5
  have f2_arg6 : W2 (main_arg6 : DevRef τ sig) = V (main_arg6 : DevRef τ sig) :=
    ((by rw [← hW2]; after_results_simp) : W2 (main_arg6 : DevRef τ sig) = W1 (main_arg6 : DevRef τ sig)).trans f1_arg6
  have f2_arg7 : W2 (main_arg7 : DevRef τ sig) = V (main_arg7 : DevRef τ sig) :=
    ((by rw [← hW2]; after_results_simp) : W2 (main_arg7 : DevRef τ sig) = W1 (main_arg7 : DevRef τ sig)).trans f1_arg7
  have f2_arg8 : W2 (main_arg8 : DevRef τ sig) = V (main_arg8 : DevRef τ sig) :=
    ((by rw [← hW2]; after_results_simp) : W2 (main_arg8 : DevRef τ sig) = W1 (main_arg8 : DevRef τ sig)).trans f1_arg8
  have f2_arg9 : W2 (main_arg9 : DevRef τ sig) = V (main_arg9 : DevRef τ sig) :=
    ((by rw [← hW2]; after_results_simp) : W2 (main_arg9 : DevRef τ sig) = W1 (main_arg9 : DevRef τ sig)).trans f1_arg9
  have f2_arg10 : W2 (main_arg10 : DevRef τ sig) = V (main_arg10 : DevRef τ sig) :=
    ((by rw [← hW2]; after_results_simp) : W2 (main_arg10 : DevRef τ sig) = W1 (main_arg10 : DevRef τ sig)).trans f1_arg10
  have f2_arg11 : W2 (main_arg11 : DevRef τ sig) = V (main_arg11 : DevRef τ sig) :=
    ((by rw [← hW2]; after_results_simp) : W2 (main_arg11 : DevRef τ sig) = W1 (main_arg11 : DevRef τ sig)).trans f1_arg11
  have f2_arg12 : W2 (main_arg12 : DevRef τ sig) = V (main_arg12 : DevRef τ sig) :=
    ((by rw [← hW2]; after_results_simp) : W2 (main_arg12 : DevRef τ sig) = W1 (main_arg12 : DevRef τ sig)).trans f1_arg12
  generalize hW3 : after S3 W2 = W3
  have f3_v54 : W3 (main_v54 : DevRef τ sig) = sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig)) := by
    rw [← hW3, S3_v54 W2 (V (main_arg1 : DevRef τ sig)) f2_v1 f2_v3, f2_v29, f2_arg5, f2_arg6, f2_arg7]
  have f3_v1 : W3 (main_v1 : DevRef τ sig) = src1 (V (main_arg1 : DevRef τ sig)) :=
    ((by rw [← hW3]; after_results_simp) : W3 (main_v1 : DevRef τ sig) = W2 (main_v1 : DevRef τ sig)).trans f2_v1
  have f3_v3 : W3 (main_v3 : DevRef τ sig) = dst1 (V (main_arg1 : DevRef τ sig)) :=
    ((by rw [← hW3]; after_results_simp) : W3 (main_v3 : DevRef τ sig) = W2 (main_v3 : DevRef τ sig)).trans f2_v3
  have f3_arg0 : W3 (main_arg0 : DevRef τ sig) = V (main_arg0 : DevRef τ sig) :=
    ((by rw [← hW3]; after_results_simp) : W3 (main_arg0 : DevRef τ sig) = W2 (main_arg0 : DevRef τ sig)).trans f2_arg0
  have f3_arg8 : W3 (main_arg8 : DevRef τ sig) = V (main_arg8 : DevRef τ sig) :=
    ((by rw [← hW3]; after_results_simp) : W3 (main_arg8 : DevRef τ sig) = W2 (main_arg8 : DevRef τ sig)).trans f2_arg8
  have f3_arg9 : W3 (main_arg9 : DevRef τ sig) = V (main_arg9 : DevRef τ sig) :=
    ((by rw [← hW3]; after_results_simp) : W3 (main_arg9 : DevRef τ sig) = W2 (main_arg9 : DevRef τ sig)).trans f2_arg9
  have f3_arg10 : W3 (main_arg10 : DevRef τ sig) = V (main_arg10 : DevRef τ sig) :=
    ((by rw [← hW3]; after_results_simp) : W3 (main_arg10 : DevRef τ sig) = W2 (main_arg10 : DevRef τ sig)).trans f2_arg10
  have f3_arg11 : W3 (main_arg11 : DevRef τ sig) = V (main_arg11 : DevRef τ sig) :=
    ((by rw [← hW3]; after_results_simp) : W3 (main_arg11 : DevRef τ sig) = W2 (main_arg11 : DevRef τ sig)).trans f2_arg11
  have f3_arg12 : W3 (main_arg12 : DevRef τ sig) = V (main_arg12 : DevRef τ sig) :=
    ((by rw [← hW3]; after_results_simp) : W3 (main_arg12 : DevRef τ sig) = W2 (main_arg12 : DevRef τ sig)).trans f2_arg12
  generalize hW4 : after S4 W3 = W4
  have f4_v57 : W4 (main_v57 : DevRef τ sig) = mean0 (sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig))) := by rw [← hW4, S4_v57, f3_v54]
  have f4_v58 : W4 (main_v58 : DevRef τ sig) = var0 (sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig))) := by rw [← hW4, S4_v58, f3_v54]
  have f4_v54 : W4 (main_v54 : DevRef τ sig) = sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig)) :=
    ((by rw [← hW4]; after_results_simp) : W4 (main_v54 : DevRef τ sig) = W3 (main_v54 : DevRef τ sig)).trans f3_v54
  have f4_v1 : W4 (main_v1 : DevRef τ sig) = src1 (V (main_arg1 : DevRef τ sig)) :=
    ((by rw [← hW4]; after_results_simp) : W4 (main_v1 : DevRef τ sig) = W3 (main_v1 : DevRef τ sig)).trans f3_v1
  have f4_v3 : W4 (main_v3 : DevRef τ sig) = dst1 (V (main_arg1 : DevRef τ sig)) :=
    ((by rw [← hW4]; after_results_simp) : W4 (main_v3 : DevRef τ sig) = W3 (main_v3 : DevRef τ sig)).trans f3_v3
  have f4_arg0 : W4 (main_arg0 : DevRef τ sig) = V (main_arg0 : DevRef τ sig) :=
    ((by rw [← hW4]; after_results_simp) : W4 (main_arg0 : DevRef τ sig) = W3 (main_arg0 : DevRef τ sig)).trans f3_arg0
  have f4_arg8 : W4 (main_arg8 : DevRef τ sig) = V (main_arg8 : DevRef τ sig) :=
    ((by rw [← hW4]; after_results_simp) : W4 (main_arg8 : DevRef τ sig) = W3 (main_arg8 : DevRef τ sig)).trans f3_arg8
  have f4_arg9 : W4 (main_arg9 : DevRef τ sig) = V (main_arg9 : DevRef τ sig) :=
    ((by rw [← hW4]; after_results_simp) : W4 (main_arg9 : DevRef τ sig) = W3 (main_arg9 : DevRef τ sig)).trans f3_arg9
  have f4_arg10 : W4 (main_arg10 : DevRef τ sig) = V (main_arg10 : DevRef τ sig) :=
    ((by rw [← hW4]; after_results_simp) : W4 (main_arg10 : DevRef τ sig) = W3 (main_arg10 : DevRef τ sig)).trans f3_arg10
  have f4_arg11 : W4 (main_arg11 : DevRef τ sig) = V (main_arg11 : DevRef τ sig) :=
    ((by rw [← hW4]; after_results_simp) : W4 (main_arg11 : DevRef τ sig) = W3 (main_arg11 : DevRef τ sig)).trans f3_arg11
  have f4_arg12 : W4 (main_arg12 : DevRef τ sig) = V (main_arg12 : DevRef τ sig) :=
    ((by rw [← hW4]; after_results_simp) : W4 (main_arg12 : DevRef τ sig) = W3 (main_arg12 : DevRef τ sig)).trans f3_arg12
  generalize hW5 : after S5 W4 = W5
  have f5_v73 : W5 (main_v73 : DevRef τ sig) = bn (sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig))) (V (main_arg11 : DevRef τ sig)) (V (main_arg12 : DevRef τ sig)) := by
    rw [← hW5, S5_v73 W4 f4_v54 f4_v57 f4_v58, f4_arg11, f4_arg12]
  have f5_v1 : W5 (main_v1 : DevRef τ sig) = src1 (V (main_arg1 : DevRef τ sig)) :=
    ((by rw [← hW5]; after_results_simp) : W5 (main_v1 : DevRef τ sig) = W4 (main_v1 : DevRef τ sig)).trans f4_v1
  have f5_v3 : W5 (main_v3 : DevRef τ sig) = dst1 (V (main_arg1 : DevRef τ sig)) :=
    ((by rw [← hW5]; after_results_simp) : W5 (main_v3 : DevRef τ sig) = W4 (main_v3 : DevRef τ sig)).trans f4_v3
  have f5_arg0 : W5 (main_arg0 : DevRef τ sig) = V (main_arg0 : DevRef τ sig) :=
    ((by rw [← hW5]; after_results_simp) : W5 (main_arg0 : DevRef τ sig) = W4 (main_arg0 : DevRef τ sig)).trans f4_arg0
  have f5_arg8 : W5 (main_arg8 : DevRef τ sig) = V (main_arg8 : DevRef τ sig) :=
    ((by rw [← hW5]; after_results_simp) : W5 (main_arg8 : DevRef τ sig) = W4 (main_arg8 : DevRef τ sig)).trans f4_arg8
  have f5_arg9 : W5 (main_arg9 : DevRef τ sig) = V (main_arg9 : DevRef τ sig) :=
    ((by rw [← hW5]; after_results_simp) : W5 (main_arg9 : DevRef τ sig) = W4 (main_arg9 : DevRef τ sig)).trans f4_arg9
  have f5_arg10 : W5 (main_arg10 : DevRef τ sig) = V (main_arg10 : DevRef τ sig) :=
    ((by rw [← hW5]; after_results_simp) : W5 (main_arg10 : DevRef τ sig) = W4 (main_arg10 : DevRef τ sig)).trans f4_arg10
  generalize hW6 : after S6 W5 = W6
  have f6_v75 : W6 (main_v75 : DevRef τ sig) = addf (relu (bn (sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig))) (V (main_arg11 : DevRef τ sig)) (V (main_arg12 : DevRef τ sig)))) (V (main_arg0 : DevRef τ sig)) := by rw [← hW6, S6_v75, f5_v73, f5_arg0]
  have f6_v1 : W6 (main_v1 : DevRef τ sig) = src1 (V (main_arg1 : DevRef τ sig)) :=
    ((by rw [← hW6]; after_results_simp) : W6 (main_v1 : DevRef τ sig) = W5 (main_v1 : DevRef τ sig)).trans f5_v1
  have f6_v3 : W6 (main_v3 : DevRef τ sig) = dst1 (V (main_arg1 : DevRef τ sig)) :=
    ((by rw [← hW6]; after_results_simp) : W6 (main_v3 : DevRef τ sig) = W5 (main_v3 : DevRef τ sig)).trans f5_v3
  have f6_arg8 : W6 (main_arg8 : DevRef τ sig) = V (main_arg8 : DevRef τ sig) :=
    ((by rw [← hW6]; after_results_simp) : W6 (main_arg8 : DevRef τ sig) = W5 (main_arg8 : DevRef τ sig)).trans f5_arg8
  have f6_arg9 : W6 (main_arg9 : DevRef τ sig) = V (main_arg9 : DevRef τ sig) :=
    ((by rw [← hW6]; after_results_simp) : W6 (main_arg9 : DevRef τ sig) = W5 (main_arg9 : DevRef τ sig)).trans f5_arg9
  have f6_arg10 : W6 (main_arg10 : DevRef τ sig) = V (main_arg10 : DevRef τ sig) :=
    ((by rw [← hW6]; after_results_simp) : W6 (main_arg10 : DevRef τ sig) = W5 (main_arg10 : DevRef τ sig)).trans f5_arg10
  generalize hW7 : after S7 W6 = W7
  have f7_v100 : W7 (main_v100 : DevRef τ sig) = sage64 (addf (relu (bn (sage (relu (sage (V (main_arg0 : DevRef τ sig)) (V (main_arg1 : DevRef τ sig)) (V (main_arg2 : DevRef τ sig)) (V (main_arg3 : DevRef τ sig)) (V (main_arg4 : DevRef τ sig)))) (V (main_arg1 : DevRef τ sig)) (V (main_arg5 : DevRef τ sig)) (V (main_arg6 : DevRef τ sig)) (V (main_arg7 : DevRef τ sig))) (V (main_arg11 : DevRef τ sig)) (V (main_arg12 : DevRef τ sig)))) (V (main_arg0 : DevRef τ sig))) (V (main_arg1 : DevRef τ sig)) (V (main_arg8 : DevRef τ sig)) (V (main_arg9 : DevRef τ sig)) (V (main_arg10 : DevRef τ sig)) := by
    rw [← hW7, S7_v100 W6 (V (main_arg1 : DevRef τ sig)) f6_v1 f6_v3, f6_v75, f6_arg8, f6_arg9, f6_arg10]
  generalize hW8 : after S8 W7 = W8
  rw [← hW8, S8_v101, f7_v100]
  rfl

/-- No operation of the line writes an argument's buffer. -/
theorem arg0_eq (V : Valuation τ sig (Elt Ideal)) :
    after (ops (F := Ideal)) V (main_arg0 : DevRef τ sig) = V (main_arg0 : DevRef τ sig) := by
  rw [ops_split]
  simp only [after_app]
  after_results_simp

theorem arg1_eq (V : Valuation τ sig (Elt Ideal)) :
    after (ops (F := Ideal)) V (main_arg1 : DevRef τ sig) = V (main_arg1 : DevRef τ sig) := by
  rw [ops_split]
  simp only [after_app]
  after_results_simp

theorem arg2_eq (V : Valuation τ sig (Elt Ideal)) :
    after (ops (F := Ideal)) V (main_arg2 : DevRef τ sig) = V (main_arg2 : DevRef τ sig) := by
  rw [ops_split]
  simp only [after_app]
  after_results_simp

theorem arg3_eq (V : Valuation τ sig (Elt Ideal)) :
    after (ops (F := Ideal)) V (main_arg3 : DevRef τ sig) = V (main_arg3 : DevRef τ sig) := by
  rw [ops_split]
  simp only [after_app]
  after_results_simp

theorem arg4_eq (V : Valuation τ sig (Elt Ideal)) :
    after (ops (F := Ideal)) V (main_arg4 : DevRef τ sig) = V (main_arg4 : DevRef τ sig) := by
  rw [ops_split]
  simp only [after_app]
  after_results_simp

theorem arg5_eq (V : Valuation τ sig (Elt Ideal)) :
    after (ops (F := Ideal)) V (main_arg5 : DevRef τ sig) = V (main_arg5 : DevRef τ sig) := by
  rw [ops_split]
  simp only [after_app]
  after_results_simp

theorem arg6_eq (V : Valuation τ sig (Elt Ideal)) :
    after (ops (F := Ideal)) V (main_arg6 : DevRef τ sig) = V (main_arg6 : DevRef τ sig) := by
  rw [ops_split]
  simp only [after_app]
  after_results_simp

theorem arg7_eq (V : Valuation τ sig (Elt Ideal)) :
    after (ops (F := Ideal)) V (main_arg7 : DevRef τ sig) = V (main_arg7 : DevRef τ sig) := by
  rw [ops_split]
  simp only [after_app]
  after_results_simp

theorem arg8_eq (V : Valuation τ sig (Elt Ideal)) :
    after (ops (F := Ideal)) V (main_arg8 : DevRef τ sig) = V (main_arg8 : DevRef τ sig) := by
  rw [ops_split]
  simp only [after_app]
  after_results_simp

theorem arg9_eq (V : Valuation τ sig (Elt Ideal)) :
    after (ops (F := Ideal)) V (main_arg9 : DevRef τ sig) = V (main_arg9 : DevRef τ sig) := by
  rw [ops_split]
  simp only [after_app]
  after_results_simp

theorem arg10_eq (V : Valuation τ sig (Elt Ideal)) :
    after (ops (F := Ideal)) V (main_arg10 : DevRef τ sig) = V (main_arg10 : DevRef τ sig) := by
  rw [ops_split]
  simp only [after_app]
  after_results_simp

theorem arg11_eq (V : Valuation τ sig (Elt Ideal)) :
    after (ops (F := Ideal)) V (main_arg11 : DevRef τ sig) = V (main_arg11 : DevRef τ sig) := by
  rw [ops_split]
  simp only [after_app]
  after_results_simp

theorem arg12_eq (V : Valuation τ sig (Elt Ideal)) :
    after (ops (F := Ideal)) V (main_arg12 : DevRef τ sig) = V (main_arg12 : DevRef τ sig) := by
  rw [ops_split]
  simp only [after_app]
  after_results_simp

/-- At the ideal instance, from any memory with zero counters: every weakly fair execution of the reference's @main
    terminates with the result buffer at the network's term of the arguments' launch contents and the thirteen
    arguments unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v101)
        = result (m ((c.tc : Thread nD τ).loc main_arg0))
          (m ((c.tc : Thread nD τ).loc main_arg1))
          (m ((c.tc : Thread nD τ).loc main_arg2))
          (m ((c.tc : Thread nD τ).loc main_arg3))
          (m ((c.tc : Thread nD τ).loc main_arg4))
          (m ((c.tc : Thread nD τ).loc main_arg5))
          (m ((c.tc : Thread nD τ).loc main_arg6))
          (m ((c.tc : Thread nD τ).loc main_arg7))
          (m ((c.tc : Thread nD τ).loc main_arg8))
          (m ((c.tc : Thread nD τ).loc main_arg9))
          (m ((c.tc : Thread nD τ).loc main_arg10))
          (m ((c.tc : Thread nD τ).loc main_arg11))
          (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  (θ_run defs _ _).mono (fun _ h c =>
    ⟨(h c main_v101).trans (out_eq _),
      (h c main_arg0).trans (arg0_eq _),
      (h c main_arg1).trans (arg1_eq _),
      (h c main_arg2).trans (arg2_eq _),
      (h c main_arg3).trans (arg3_eq _),
      (h c main_arg4).trans (arg4_eq _),
      (h c main_arg5).trans (arg5_eq _),
      (h c main_arg6).trans (arg6_eq _),
      (h c main_arg7).trans (arg7_eq _),
      (h c main_arg8).trans (arg8_eq _),
      (h c main_arg9).trans (arg9_eq _),
      (h c main_arg10).trans (arg10_eq _),
      (h c main_arg11).trans (arg11_eq _),
      (h c main_arg12).trans (arg12_eq _)⟩)
    (run_after m ρ)

end Cert.ReferenceIdeal.RefRun

end
-- ==== Proof.lean ====
/-
  A three-layer GraphSAGE network (mean aggregation over an edge list, two hidden layers of width 128 with a batch
  normalisation and a residual between them, a 64-way log-softmax output), once as four tiled kernels with the graph
  aggregation between them and once as plain array code.

  The frames: the word-level and the idealized kernel program run, fault-free, and leave their arguments as launched
  (the generated frame certificates); the reference does too (its run, with the result dropped).  The idealization
  rewrote nothing.  At the ideal values the two programs end with one result: the kernel program's result array is the
  last tiled stage's output, a function of the earlier stages' outputs and the host-side aggregates; that composition is
  the reference's composition of the same layers (module Bridge), for finite inputs.
-/
import proofs.«143043_j20512763806339_2_alg».proof.Defs
import proofs.«143043_j20512763806339_2_alg».proof.Proof.Gen.Kernel
import proofs.«143043_j20512763806339_2_alg».proof.Proof.Gen.Kernel.Skeleton
import proofs.«143043_j20512763806339_2_alg».proof.Proof.Gen.Kernel.Launch
import proofs.«143043_j20512763806339_2_alg».proof.Proof.Gen.Kernel.Points
import proofs.«143043_j20512763806339_2_alg».proof.Proof.Gen.Kernel.Frame
import proofs.«143043_j20512763806339_2_alg».proof.Proof.Gen.KernelIdeal
import proofs.«143043_j20512763806339_2_alg».proof.Proof.Gen.KernelIdeal.Skeleton
import proofs.«143043_j20512763806339_2_alg».proof.Proof.Gen.KernelIdeal.Launch
import proofs.«143043_j20512763806339_2_alg».proof.Proof.Gen.KernelIdeal.Points
import proofs.«143043_j20512763806339_2_alg».proof.Proof.Gen.KernelIdeal.Frame
import proofs.«143043_j20512763806339_2_alg».proof.Proof.Gen.ReferenceIdeal
import proofs.«143043_j20512763806339_2_alg».proof.Proof.Gen.Pre_finite_inputs
import proofs.«143043_j20512763806339_2_alg».proof.Proof.KernelRun
import proofs.«143043_j20512763806339_2_alg».proof.Proof.KernelValue
import proofs.«143043_j20512763806339_2_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run m ρ)

theorem preserves : Cert.preserves_Kernel_KernelIdeal := trivial

/-- Both programs end at the reference's term of the (agreeing) arguments. -/
theorem algebraic : Cert.algebraic_KernelIdeal_ReferenceIdeal := by
  intro m ρ m' ρ' hpre hagree
  refine ⟨_, ?_, Cert.ReferenceIdeal.RefRun.run m' ρ'⟩
  refine (θ_run Cert.KernelIdeal.defs _ _).mono (fun _ h c => ⟨(h c).1.trans ?_, (h c).2⟩)
    (Cert.KernelIdeal.KRun.run_named (F := Ideal) m ρ)
  rw [Cert.Sage.KernelValue.value m ρ c hpre]
  obtain ⟨h0, h1, h2, h3, h4, h5, h6, h7, h8, h9, h10, h11, h12⟩ := hagree c
  rw [h0, h1, h2, h3, h4, h5, h6, h7, h8, h9, h10, h11, h12]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
